-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16368 : Shape := ⟨2, ![2048, 16368]⟩
abbrev S2047 : Shape := ⟨1, ![2047]⟩
abbrev S10 : Shape := ⟨1, ![10]⟩
abbrev S_ : Shape := ⟨0, ![]⟩

class Facts : Prop where
  bcast_S_S2048x16368 : S_.BroadcastsInDim S2048x16368 (![] : Fin 0 → Fin S2048x16368.rank)
  reducesTo_S2048x16368_S_d0_1 : S2048x16368.ReducesTo [0, 1] S_
  h_S_ : 0 < S_.numel
  bcast_S_S2047 : S_.BroadcastsInDim S2047 (![] : Fin 0 → Fin S2047.rank)
  reducesTo_S2047_S_d0 : S2047.ReducesTo [0] S_
  bcast_S_S10 : S_.BroadcastsInDim S10 (![] : Fin 0 → Fin S10.rank)
  reducesTo_S10_S_d0 : S10.ReducesTo [0] S_

variable [Facts]

def fn {F : FTy → Type} [FloatOps F] (main_arg0 : FVec F S2048x16368 .f32) (main_arg1 : FVec F S2047 .f32) (main_arg2 : FVec F S10 .f32) : IVec S_ 1 :=
  let main_v0 : FVec F S2048x16368 .f32 := Host.absf main_arg0
  let main_cst : FVec F S_ .f32 := constant S_ .f32 0x7F800000#32
  let main_v1 : FVec F S2048x16368 .f32 := broadcastInDim S2048x16368 ![] bcast_S_S2048x16368 main_cst
  let main_v2 : IVec S2048x16368 1 := cmpf .olt main_v0 main_v1
  let main_c : IVec S_ 1 := constantI S_ 1 1#1
  let main_v3 : IVec S_ 1 := (fun x v => Host.reduce IntOp.andi x v reducesTo_S2048x16368_S_d0_1 h_S_) main_v2 main_c
  let main_v4 : FVec F S2047 .f32 := Host.absf main_arg1
  let main_cst_0 : FVec F S_ .f32 := constant S_ .f32 0x7F800000#32
  let main_v5 : FVec F S2047 .f32 := broadcastInDim S2047 ![] bcast_S_S2047 main_cst_0
  let main_v6 : IVec S2047 1 := cmpf .olt main_v4 main_v5
  let main_c_1 : IVec S_ 1 := constantI S_ 1 1#1
  let main_v7 : IVec S_ 1 := (fun x v => Host.reduce IntOp.andi x v reducesTo_S2047_S_d0 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S2048x16368 : Shape := ⟨2, ![2048, 16368]⟩
abbrev S2047 : Shape := ⟨1, ![2047]⟩
abbrev S10 : Shape := ⟨1, ![10]⟩
abbrev S_ : Shape := ⟨0, ![]⟩
abbrev S1x1 : Shape := ⟨2, ![1, 1]⟩
abbrev S2 : Shape := ⟨1, ![2]⟩
abbrev S1x2 : Shape := ⟨2, ![1, 2]⟩
abbrev S128x2 : Shape := ⟨2, ![128, 2]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S4 : Shape := ⟨1, ![4]⟩
abbrev S1x4 : Shape := ⟨2, ![1, 4]⟩
abbrev S128x4 : Shape := ⟨2, ![128, 4]⟩
abbrev S512 : Shape := ⟨1, ![512]⟩
abbrev S1x512 : Shape := ⟨2, ![1, 512]⟩
abbrev S128x512 : Shape := ⟨2, ![128, 512]⟩
abbrev S8 : Shape := ⟨1, ![8]⟩
abbrev S1x8 : Shape := ⟨2, ![1, 8]⟩
abbrev S128x8 : Shape := ⟨2, ![128, 8]⟩
abbrev S1024 : Shape := ⟨1, ![1024]⟩
abbrev S1x1024 : Shape := ⟨2, ![1, 1024]⟩
abbrev S128x1024 : Shape := ⟨2, ![128, 1024]⟩
abbrev S16 : Shape := ⟨1, ![16]⟩
abbrev S1x16 : Shape := ⟨2, ![1, 16]⟩
abbrev S128x16 : Shape := ⟨2, ![128, 16]⟩
abbrev S2048 : Shape := ⟨1, ![2048]⟩
abbrev S1x2048 : Shape := ⟨2, ![1, 2048]⟩
abbrev S128x2048 : Shape := ⟨2, ![128, 2048]⟩
abbrev S32 : Shape := ⟨1, ![32]⟩
abbrev S1x32 : Shape := ⟨2, ![1, 32]⟩
abbrev S128x32 : Shape := ⟨2, ![128, 32]⟩
abbrev S4096 : Shape := ⟨1, ![4096]⟩
abbrev S1x4096 : Shape := ⟨2, ![1, 4096]⟩
abbrev S128x4096 : Shape := ⟨2, ![128, 4096]⟩
abbrev S64 : Shape := ⟨1, ![64]⟩
abbrev S1x64 : Shape := ⟨2, ![1, 64]⟩
abbrev S128x64 : Shape := ⟨2, ![128, 64]⟩
abbrev S8192 : Shape := ⟨1, ![8192]⟩
abbrev S1x8192 : Shape := ⟨2, ![1, 8192]⟩
abbrev S128x8192 : Shape := ⟨2, ![128, 8192]⟩
abbrev S128x16128 : Shape := ⟨2, ![128, 16128]⟩
abbrev S2048x16384 : Shape := ⟨2, ![2048, 16384]⟩
abbrev S64x16368 : Shape := ⟨2, ![64, 16368]⟩
abbrev S64x16384 : Shape := ⟨2, ![64, 16384]⟩
abbrev S64x8192 : Shape := ⟨2, ![64, 8192]⟩
abbrev S64x64x128 : Shape := ⟨3, ![64, 64, 128]⟩
abbrev S4096x128 : Shape := ⟨2, ![4096, 128]⟩
abbrev S4096x256 : Shape := ⟨2, ![4096, 256]⟩
abbrev S64x64x256 : Shape := ⟨3, ![64, 64, 256]⟩
abbrev S64x4096 : Shape := ⟨2, ![64, 4096]⟩
abbrev S64x32x128 : Shape := ⟨3, ![64, 32, 128]⟩
abbrev S2048x128 : Shape := ⟨2, ![2048, 128]⟩
abbrev S2048x512 : Shape := ⟨2, ![2048, 512]⟩
abbrev S64x32x512 : Shape := ⟨3, ![64, 32, 512]⟩
abbrev S64x2048 : Shape := ⟨2, ![64, 2048]⟩
abbrev S64x16x128 : Shape := ⟨3, ![64, 16, 128]⟩
abbrev S1024x128 : Shape := ⟨2, ![1024, 128]⟩
abbrev S1024x1024 : Shape := ⟨2, ![1024, 1024]⟩
abbrev S64x16x1024 : Shape := ⟨3, ![64, 16, 1024]⟩
abbrev S64x1024 : Shape := ⟨2, ![64, 1024]⟩
abbrev S64x8x128 : Shape := ⟨3, ![64, 8, 128]⟩
abbrev S512x128 : Shape := ⟨2, ![512, 128]⟩
abbrev S512x2048 : Shape := ⟨2, ![512, 2048]⟩
abbrev S64x8x2048 : Shape := ⟨3, ![64, 8, 2048]⟩
abbrev S64x512 : Shape := ⟨2, ![64, 512]⟩
abbrev S64x4x128 : Shape := ⟨3, ![64, 4, 128]⟩
abbrev S256x128 : Shape := ⟨2, ![256, 128]⟩
abbrev S256x4096 : Shape := ⟨2, ![256, 4096]⟩
abbrev S64x4x4096 : Shape := ⟨3, ![64, 4, 4096]⟩
abbrev S64x256 : Shape := ⟨2, ![64, 256]⟩
abbrev S64x2x128 : Shape := ⟨3, ![64, 2, 128]⟩
abbrev S128x128 : Shape := ⟨2, ![128, 128]⟩
abbrev S64x2x8192 : Shape := ⟨3, ![64, 2, 8192]⟩
abbrev S64x128 : Shape := ⟨2, ![64, 128]⟩
abbrev S64x128x1 : Shape := ⟨3, ![64, 128, 1]⟩
abbrev S1x1x128 : Shape := ⟨3, ![1, 1, 128]⟩
abbrev S64x128x128 : Shape := ⟨3, ![64, 128, 128]⟩
abbrev S64x64 : Shape := ⟨2, ![64, 64]⟩
abbrev S64x64x1 : Shape := ⟨3, ![64, 64, 1]⟩
abbrev S1x1x256 : Shape := ⟨3, ![1, 1, 256]⟩
abbrev S64x32 : Shape := ⟨2, ![64, 32]⟩
abbrev S64x32x1 : Shape := ⟨3, ![64, 32, 1]⟩
abbrev S1x1x512 : Shape := ⟨3, ![1, 1, 512]⟩
abbrev S64x16 : Shape := ⟨2, ![64, 16]⟩
abbrev S64x16x1 : Shape := ⟨3, ![64, 16, 1]⟩
abbrev S1x1x1024 : Shape := ⟨3, ![1, 1, 1024]⟩

abbrev nBuf : Space → Nat
  | .hbm => 206
  | .vmem => 7
  | .smem => 0
  | _ => 0

abbrev hbmTy0_0 (i : Nat) : BufTy := match i % 128 with
  | 0 => ⟨S2048x16368, .f32⟩
  | 1 => ⟨S2047, .f32⟩
  | 2 => ⟨S10, .f32⟩
  | 3 => ⟨S_, .f32⟩
  | 4 => ⟨S_, .f32⟩
  | 5 => ⟨S1x1, .f32⟩
  | 6 => ⟨S2, .f32⟩
  | 7 => ⟨S1x2, .f32⟩
  | 8 => ⟨S128x2, .f32⟩
  | 9 => ⟨S256, .f32⟩
  | 10 => ⟨S128, .i32⟩
  | 11 => ⟨S128x1, .i32⟩
  | 12 => ⟨S256, .i32⟩
  | 13 => ⟨S1x256, .i32⟩
  | 14 => ⟨S_, .i32⟩
  | 15 => ⟨S_, .i32⟩
  | 16 => ⟨S1x256, .i32⟩
  | 17 => ⟨S1x256, .i32⟩
  | 18 => ⟨S1x256, .i32⟩
  | 19 => ⟨S_, .i32⟩
  | 20 => ⟨S1x256, .i32⟩
  | 21 => ⟨S1x256, .i1⟩
  | 22 => ⟨S1x256, .i32⟩
  | 23 => ⟨S1x256, .i32⟩
  | 24 => ⟨S_, .i32⟩
  | 25 => ⟨S1x256, .i32⟩
  | 26 => ⟨S1x256, .i1⟩
  | 27 => ⟨S1x256, .i1⟩
  | 28 => ⟨S_, .i32⟩
  | 29 => ⟨S1x256, .i32⟩
  | 30 => ⟨S1x256, .i32⟩
  | 31 => ⟨S1x256, .i32⟩
  | 32 => ⟨S128x256, .i32⟩
  | 33 => ⟨S128x256, .i32⟩
  | 34 => ⟨S128x256, .i1⟩
  | 35 => ⟨S128x256, .f32⟩
  | 36 => ⟨S1x256, .f32⟩
  | 37 => ⟨S128x256, .f32⟩
  | 38 => ⟨S128x256, .f32⟩
  | 39 => ⟨S4, .f32⟩
  | 40 => ⟨S1x4, .f32⟩
  | 41 => ⟨S128x4, .f32⟩
  | 42 => ⟨S512, .f32⟩
  | 43 => ⟨S128, .i32⟩
  | 44 => ⟨S128x1, .i32⟩
  | 45 => ⟨S512, .i32⟩
  | 46 => ⟨S1x512, .i32⟩
  | 47 => ⟨S_, .i32⟩
  | 48 => ⟨S_, .i32⟩
  | 49 => ⟨S1x512, .i32⟩
  | 50 => ⟨S1x512, .i32⟩
  | 51 => ⟨S1x512, .i32⟩
  | 52 => ⟨S_, .i32⟩
  | 53 => ⟨S1x512, .i32⟩
  | 54 => ⟨S1x512, .i1⟩
  | 55 => ⟨S1x512, .i32⟩
  | 56 => ⟨S1x512, .i32⟩
  | 57 => ⟨S_, .i32⟩
  | 58 => ⟨S1x512, .i32⟩
  | 59 => ⟨S1x512, .i1⟩
  | 60 => ⟨S1x512, .i1⟩
  | 61 => ⟨S_, .i32⟩
  | 62 => ⟨S1x512, .i32⟩
  | 63 => ⟨S1x512, .i32⟩
  | 64 => ⟨S1x512, .i32⟩
  | 65 => ⟨S128x512, .i32⟩
  | 66 => ⟨S128x512, .i32⟩
  | 67 => ⟨S128x512, .i1⟩
  | 68 => ⟨S128x512, .f32⟩
  | 69 => ⟨S1x512, .f32⟩
  | 70 => ⟨S128x512, .f32⟩
  | 71 => ⟨S128x512, .f32⟩
  | 72 => ⟨S8, .f32⟩
  | 73 => ⟨S1x8, .f32⟩
  | 74 => ⟨S128x8, .f32⟩
  | 75 => ⟨S1024, .f32⟩
  | 76 => ⟨S128, .i32⟩
  | 77 => ⟨S128x1, .i32⟩
  | 78 => ⟨S1024, .i32⟩
  | 79 => ⟨S1x1024, .i32⟩
  | 80 => ⟨S_, .i32⟩
  | 81 => ⟨S_, .i32⟩
  | 82 => ⟨S1x1024, .i32⟩
  | 83 => ⟨S1x1024, .i32⟩
  | 84 => ⟨S1x1024, .i32⟩
  | 85 => ⟨S_, .i32⟩
  | 86 => ⟨S1x1024, .i32⟩
  | 87 => ⟨S1x1024, .i1⟩
  | 88 => ⟨S1x1024, .i32⟩
  | 89 => ⟨S1x1024, .i32⟩
  | 90 => ⟨S_, .i32⟩
  | 91 => ⟨S1x1024, .i32⟩
  | 92 => ⟨S1x1024, .i1⟩
  | 93 => ⟨S1x1024, .i1⟩
  | 94 => ⟨S_, .i32⟩
  | 95 => ⟨S1x1024, .i32⟩
  | 96 => ⟨S1x1024, .i32⟩
  | 97 => ⟨S1x1024, .i32⟩
  | 98 => ⟨S128x1024, .i32⟩
  | 99 => ⟨S128x1024, .i32⟩
  | 100 => ⟨S128x1024, .i1⟩
  | 101 => ⟨S128x1024, .f32⟩
  | 102 => ⟨S1x1024, .f32⟩
  | 103 => ⟨S128x1024, .f32⟩
  | 104 => ⟨S128x1024, .f32⟩
  | 105 => ⟨S16, .f32⟩
  | 106 => ⟨S1x16, .f32⟩
  | 107 => ⟨S128x16, .f32⟩
  | 108 => ⟨S2048, .f32⟩
  | 109 => ⟨S128, .i32⟩
  | 110 => ⟨S128x1, .i32⟩
  | 111 => ⟨S2048, .i32⟩
  | 112 => ⟨S1x2048, .i32⟩
  | 113 => ⟨S_, .i32⟩
  | 114 => ⟨S_, .i32⟩
  | 115 => ⟨S1x2048, .i32⟩
  | 116 => ⟨S1x2048, .i32⟩
  | 117 => ⟨S1x2048, .i32⟩
  | 118 => ⟨S_, .i32⟩
  | 119 => ⟨S1x2048, .i32⟩
  | 120 => ⟨S1x2048, .i1⟩
  | 121 => ⟨S1x2048, .i32⟩
  | 122 => ⟨S1x2048, .i32⟩
  | 123 => ⟨S_, .i32⟩
  | 124 => ⟨S1x2048, .i32⟩
  | 125 => ⟨S1x2048, .i1⟩
  | 126 => ⟨S1x2048, .i1⟩
  | 127 => ⟨S_, .i32⟩
  | _ => ⟨S2048x16368, .f32⟩

abbrev hbmTy0_1 (i : Nat) : BufTy := match i % 128 with
  | 0 => ⟨S1x2048, .i32⟩
  | 1 => ⟨S1x2048, .i32⟩
  | 2 => ⟨S1x2048, .i32⟩
  | 3 => ⟨S128x2048, .i32⟩
  | 4 => ⟨S128x2048, .i32⟩
  | 5 => ⟨S128x2048, .i1⟩
  | 6 => ⟨S128x2048, .f32⟩
  | 7 => ⟨S1x2048, .f32⟩
  | 8 => ⟨S128x2048, .f32⟩
  | 9 => ⟨S128x2048, .f32⟩
  | 10 => ⟨S32, .f32⟩
  | 11 => ⟨S1x32, .f32⟩
  | 12 => ⟨S128x32, .f32⟩
  | 13 => ⟨S4096, .f32⟩
  | 14 => ⟨S128, .i32⟩
  | 15 => ⟨S128x1, .i32⟩
  | 16 => ⟨S4096, .i32⟩
  | 17 => ⟨S1x4096, .i32⟩
  | 18 => ⟨S_, .i32⟩
  | 19 => ⟨S_, .i32⟩
  | 20 => ⟨S1x4096, .i32⟩
  | 21 => ⟨S1x4096, .i32⟩
  | 22 => ⟨S1x4096, .i32⟩
  | 23 => ⟨S_, .i32⟩
  | 24 => ⟨S1x4096, .i32⟩
  | 25 => ⟨S1x4096, .i1⟩
  | 26 => ⟨S1x4096, .i32⟩
  | 27 => ⟨S1x4096, .i32⟩
  | 28 => ⟨S_, .i32⟩
  | 29 => ⟨S1x4096, .i32⟩
  | 30 => ⟨S1x4096, .i1⟩
  | 31 => ⟨S1x4096, .i1⟩
  | 32 => ⟨S_, .i32⟩
  | 33 => ⟨S1x4096, .i32⟩
  | 34 => ⟨S1x4096, .i32⟩
  | 35 => ⟨S1x4096, .i32⟩
  | 36 => ⟨S128x4096, .i32⟩
  | 37 => ⟨S128x4096, .i32⟩
  | 38 => ⟨S128x4096, .i1⟩
  | 39 => ⟨S128x4096, .f32⟩
  | 40 => ⟨S1x4096, .f32⟩
  | 41 => ⟨S128x4096, .f32⟩
  | 42 => ⟨S128x4096, .f32⟩
  | 43 => ⟨S64, .f32⟩
  | 44 => ⟨S1x64, .f32⟩
  | 45 => ⟨S128x64, .f32⟩
  | 46 => ⟨S8192, .f32⟩
  | 47 => ⟨S128, .i32⟩
  | 48 => ⟨S128x1, .i32⟩
  | 49 => ⟨S8192, .i32⟩
  | 50 => ⟨S1x8192, .i32⟩
  | 51 => ⟨S_, .i32⟩
  | 52 => ⟨S_, .i32⟩
  | 53 => ⟨S1x8192, .i32⟩
  | 54 => ⟨S1x8192, .i32⟩
  | 55 => ⟨S1x8192, .i32⟩
  | 56 => ⟨S_, .i32⟩
  | 57 => ⟨S1x8192, .i32⟩
  | 58 => ⟨S1x8192, .i1⟩
  | 59 => ⟨S1x8192, .i32⟩
  | 60 => ⟨S1x8192, .i32⟩
  | 61 => ⟨S_, .i32⟩
  | 62 => ⟨S1x8192, .i32⟩
  | 63 => ⟨S1x8192, .i1⟩
  | 64 => ⟨S1x8192, .i1⟩
  | 65 => ⟨S_, .i32⟩
  | 66 => ⟨S1x8192, .i32⟩
  | 67 => ⟨S1x8192, .i32⟩
  | 68 => ⟨S1x8192, .i32⟩
  | 69 => ⟨S128x8192, .i32⟩
  | 70 => ⟨S128x8192, .i32⟩
  | 71 => ⟨S128x8192, .i1⟩
  | 72 => ⟨S128x8192, .f32⟩
  | 73 => ⟨S1x8192, .f32⟩
  | 74 => ⟨S128x8192, .f32⟩
  | 75 => ⟨S128x8192, .f32⟩
  | 76 => ⟨S128x16128, .f32⟩
  | 77 => ⟨S2048x16384, .f32⟩
  | _ => ⟨S2048x16368, .f32⟩

abbrev hbmTy (i : Nat) : BufTy := match i / 128 with
  | 0 => hbmTy0_0 i
  | 1 => hbmTy0_1 i
  | _ => ⟨S2048x16368, .f32⟩

abbrev bufTy : (tb : Table) → Fin (tcTables nBuf tb) → BufTy
  | .hbm, ⟨i, _⟩ => hbmTy i
  | .local _ .vmem, ⟨0, _⟩ => ⟨S64x16368, .f32⟩
  | .local _ .vmem, ⟨1, _⟩ => ⟨S64x16368, .f32⟩
  | .local _ .vmem, ⟨2, _⟩ => ⟨S2047, .f32⟩
  | .local _ .vmem, ⟨3, _⟩ => ⟨S128x16128, .f32⟩
  | .local _ .vmem, ⟨4, _⟩ => ⟨S1x1, .f32⟩
  | .local _ .vmem, ⟨5, _⟩ => ⟨S64x16384, .f32⟩
  | .local _ .vmem, ⟨6, _⟩ => ⟨S64x16384, .f32⟩
  | _, _ => ⟨S2048x16368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_1 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_c : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_0 : Ref sig .tc := ⟨.hbm, 94, rfl⟩
abbrev main_call2_v12 : Ref sig .tc := ⟨.hbm, 95, rfl⟩
abbrev main_call2_v13 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_2 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_c : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_0 : Ref sig .tc := ⟨.hbm, 127, rfl⟩
abbrev main_call3_v12 : Ref sig .tc := ⟨.hbm, 128, rfl⟩
abbrev main_call3_v13 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_c_3 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_v8 : Ref sig .tc := ⟨.hbm, 155, rfl⟩
abbrev main_call4_c : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_c_0 : Ref sig .tc := ⟨.hbm, 160, rfl⟩
abbrev main_call4_v12 : Ref sig .tc := ⟨.hbm, 161, rfl⟩
abbrev main_call4_v13 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_c_4 : Ref sig .tc := ⟨.hbm, 179, rfl⟩
abbrev main_call5_v0 : Ref sig .tc := ⟨.hbm, 180, rfl⟩
abbrev main_call5_v1 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_v5 : Ref sig .tc := ⟨.hbm, 185, rfl⟩
abbrev main_call5_v6 : Ref sig .tc := ⟨.hbm, 186, rfl⟩
abbrev main_call5_v7 : Ref sig .tc := ⟨.hbm, 187, rfl⟩
abbrev main_call5_v8 : Ref sig .tc := ⟨.hbm, 188, rfl⟩
abbrev main_call5_c : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_c_0 : Ref sig .tc := ⟨.hbm, 193, rfl⟩
abbrev main_call5_v12 : Ref sig .tc := ⟨.hbm, 194, rfl⟩
abbrev main_call5_v13 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16368 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2047 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S10_S_d0 : S10.ReducesTo [0] S_
  h_S_ : 0 < S_.numel
  shapeCasts_S_S1x1 : S_.ShapeCasts S1x1
  slices_S2047_S2_1 : S2047.Slices ![1] S2
  shapeCasts_S2_S1x2 : S2.ShapeCasts S1x2
  bcast_S1x2_S128x2_0_1 : S1x2.BroadcastsInDim S128x2 (![0, 1] : Fin 2 → Fin S128x2.rank)
  shapeCasts_S128x2_S256 : S128x2.ShapeCasts S256
  bcast_S128_S128x1_0 : S128.BroadcastsInDim S128x1 (![0] : Fin 1 → Fin S128x1.rank)
  bcast_S256_S1x256_1 : S256.BroadcastsInDim S1x256 (![1] : Fin 1 → Fin S1x256.rank)
  bcast_S_S1x256 : S_.BroadcastsInDim S1x256 (![] : Fin 0 → Fin S1x256.rank)
  bcast_S128x1_S128x256_0_1 : S128x1.BroadcastsInDim S128x256 (![0, 1] : Fin 2 → Fin S128x256.rank)
  bcast_S1x256_S128x256_0_1 : S1x256.BroadcastsInDim S128x256 (![0, 1] : Fin 2 → Fin S128x256.rank)
  slices_S2047_S4_3 : S2047.Slices ![3] S4
  shapeCasts_S4_S1x4 : S4.ShapeCasts S1x4
  bcast_S1x4_S128x4_0_1 : S1x4.BroadcastsInDim S128x4 (![0, 1] : Fin 2 → Fin S128x4.rank)
  shapeCasts_S128x4_S512 : S128x4.ShapeCasts S512
  bcast_S512_S1x512_1 : S512.BroadcastsInDim S1x512 (![1] : Fin 1 → Fin S1x512.rank)
  bcast_S_S1x512 : S_.BroadcastsInDim S1x512 (![] : Fin 0 → Fin S1x512.rank)
  bcast_S128x1_S128x512_0_1 : S128x1.BroadcastsInDim S128x512 (![0, 1] : Fin 2 → Fin S128x512.rank)
  bcast_S1x512_S128x512_0_1 : S1x512.BroadcastsInDim S128x512 (![0, 1] : Fin 2 → Fin S128x512.rank)
  slices_S2047_S8_7 : S2047.Slices ![7] S8
  shapeCasts_S8_S1x8 : S8.ShapeCasts S1x8
  bcast_S1x8_S128x8_0_1 : S1x8.BroadcastsInDim S128x8 (![0, 1] : Fin 2 → Fin S128x8.rank)
  shapeCasts_S128x8_S1024 : S128x8.ShapeCasts S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  slices_S2047_S16_15 : S2047.Slices ![15] S16
  shapeCasts_S16_S1x16 : S16.ShapeCasts S1x16
  bcast_S1x16_S128x16_0_1 : S1x16.BroadcastsInDim S128x16 (![0, 1] : Fin 2 → Fin S128x16.rank)
  shapeCasts_S128x16_S2048 : S128x16.ShapeCasts S2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S128x1_S128x2048_0_1 : S128x1.BroadcastsInDim S128x2048 (![0, 1] : Fin 2 → Fin S128x2048.rank)
  bcast_S1x2048_S128x2048_0_1 : S1x2048.BroadcastsInDim S128x2048 (![0, 1] : Fin 2 → Fin S128x2048.rank)
  slices_S2047_S32_31 : S2047.Slices ![31] S32
  shapeCasts_S32_S1x32 : S32.ShapeCasts S1x32
  bcast_S1x32_S128x32_0_1 : S1x32.BroadcastsInDim S128x32 (![0, 1] : Fin 2 → Fin S128x32.rank)
  shapeCasts_S128x32_S4096 : S128x32.ShapeCasts S4096
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  slices_S2047_S64_63 : S2047.Slices ![63] S64
  shapeCasts_S64_S1x64 : S64.ShapeCasts S1x64
  bcast_S1x64_S128x64_0_1 : S1x64.BroadcastsInDim S128x64 (![0, 1] : Fin 2 → Fin S128x64.rank)
  shapeCasts_S128x64_S8192 : S128x64.ShapeCasts S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S128x1_S128x8192_0_1 : S128x1.BroadcastsInDim S128x8192 (![0, 1] : Fin 2 → Fin S128x8192.rank)
  bcast_S1x8192_S128x8192_0_1 : S1x8192.BroadcastsInDim S128x8192 (![0, 1] : Fin 2 → Fin S128x8192.rank)
  concatenates_S128x256_S128x512_S128x1024_S128x2048_S128x4096_S128x8192_S128x16128_d1 : Shape.Concatenates [S128x256, S128x512, S128x1024, S128x2048, S128x4096, S128x8192] S128x16128 1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S64x16384_S64x16384_0_0 : ∀ a, (![0, 0] : Fin 2 → Nat) a + S64x16384.size a ≤ S64x16384.size a
  h_S64x16384 : 0 < S64x16384.numel
  inb_S64x16368_S64x8192_0_0 : ∀ a, (![0, 0] : Fin 2 → Nat) a + S64x8192.size a ≤ S64x16368.size a
  h_S64x8192 : 0 < S64x8192.numel
  shapeCasts_S64x8192_S64x64x128 : S64x8192.ShapeCasts S64x64x128
  shapeCasts_S64x64x128_S4096x128 : S64x64x128.ShapeCasts S4096x128
  inb_S128x16128_S128x256_0_0 : ∀ a, (![0, 0] : Fin 2 → Nat) a + S128x256.size a ≤ S128x16128.size a
  h_S128x256 : 0 < S128x256.numel
  shapeCasts_S128x256_S128x256 : S128x256.ShapeCasts S128x256
  shapeCasts_S4096x256_S64x64x256 : S4096x256.ShapeCasts S64x64x256
  shapeCasts_S64x64x256_S64x16384 : S64x64x256.ShapeCasts S64x16384
  shapeCasts_S64x16384_S64x16384 : S64x16384.ShapeCasts S64x16384
  inb_S64x16368_S64x4096_0_8192 : ∀ a, (![0, 8192] : Fin 2 → Nat) a + S64x4096.size a ≤ S64x16368.size a
  h_S64x4096 : 0 < S64x4096.numel
  shapeCasts_S64x4096_S64x32x128 : S64x4096.ShapeCasts S64x32x128
  shapeCasts_S64x32x128_S2048x128 : S64x32x128.ShapeCasts S2048x128
  inb_S128x16128_S128x512_0_256 : ∀ a, (![0, 256] : Fin 2 → Nat) a + S128x512.size a ≤ S128x16128.size a
  h_S128x512 : 0 < S128x512.numel
  shapeCasts_S128x512_S128x512 : S128x512.ShapeCasts S128x512
  shapeCasts_S2048x512_S64x32x512 : S2048x512.ShapeCasts S64x32x512
  shapeCasts_S64x32x512_S64x16384 : S64x32x512.ShapeCasts S64x16384
  inb_S64x16368_S64x2048_0_12288 : ∀ a, (![0, 12288] : Fin 2 → Nat) a + S64x2048.size a ≤ S64x16368.size a
  h_S64x2048 : 0 < S64x2048.numel
  shapeCasts_S64x2048_S64x16x128 : S64x2048.ShapeCasts S64x16x128
  shapeCasts_S64x16x128_S1024x128 : S64x16x128.ShapeCasts S1024x128
  inb_S128x16128_S128x1024_0_768 : ∀ a, (![0, 768] : Fin 2 → Nat) a + S128x1024.size a ≤ S128x16128.size a
  h_S128x1024 : 0 < S128x1024.numel
  shapeCasts_S128x1024_S128x1024 : S128x1024.ShapeCasts S128x1024
  shapeCasts_S1024x1024_S64x16x1024 : S1024x1024.ShapeCasts S64x16x1024
  shapeCasts_S64x16x1024_S64x16384 : S64x16x1024.ShapeCasts S64x16384
  inb_S64x16368_S64x1024_0_14336 : ∀ a, (![0, 14336] : Fin 2 → Nat) a + S64x1024.size a ≤ S64x16368.size a
  h_S64x1024 : 0 < S64x1024.numel
  shapeCasts_S64x1024_S64x8x128 : S64x1024.ShapeCasts S64x8x128
  shapeCasts_S64x8x128_S512x128 : S64x8x128.ShapeCasts S512x128
  inb_S128x16128_S128x2048_0_1792 : ∀ a, (![0, 1792] : Fin 2 → Nat) a + S128x2048.size a ≤ S128x16128.size a
  h_S128x2048 : 0 < S128x2048.numel
  shapeCasts_S128x2048_S128x2048 : S128x2048.ShapeCasts S128x2048
  shapeCasts_S512x2048_S64x8x2048 : S512x2048.ShapeCasts S64x8x2048
  shapeCasts_S64x8x2048_S64x16384 : S64x8x2048.ShapeCasts S64x16384
  inb_S64x16368_S64x512_0_15360 : ∀ a, (![0, 15360] : Fin 2 → Nat) a + S64x512.size a ≤ S64x16368.size a
  h_S64x512 : 0 < S64x512.numel
  shapeCasts_S64x512_S64x4x128 : S64x512.ShapeCasts S64x4x128
  shapeCasts_S64x4x128_S256x128 : S64x4x128.ShapeCasts S256x128
  inb_S128x16128_S128x4096_0_3840 : ∀ a, (![0, 3840] : Fin 2 → Nat) a + S128x4096.size a ≤ S128x16128.size a
  h_S128x4096 : 0 < S128x4096.numel
  shapeCasts_S128x4096_S128x4096 : S128x4096.ShapeCasts S128x4096
  shapeCasts_S256x4096_S64x4x4096 : S256x4096.ShapeCasts S64x4x4096
  shapeCasts_S64x4x4096_S64x16384 : S64x4x4096.ShapeCasts S64x16384
  inb_S64x16368_S64x256_0_15872 : ∀ a, (![0, 15872] : Fin 2 → Nat) a + S64x256.size a ≤ S64x16368.size a
  h_S64x256 : 0 < S64x256.numel
  shapeCasts_S64x256_S64x2x128 : S64x256.ShapeCasts S64x2x128
  shapeCasts_S64x2x128_S128x128 : S64x2x128.ShapeCasts S128x128
  inb_S128x16128_S128x8192_0_7936 : ∀ a, (![0, 7936] : Fin 2 → Nat) a + S128x8192.size a ≤ S128x16128.size a
  h_S128x8192 : 0 < S128x8192.numel
  shapeCasts_S128x8192_S128x8192 : S128x8192.ShapeCasts S128x8192
  shapeCasts_S128x8192_S64x2x8192 : S128x8192.ShapeCasts S64x2x8192
  shapeCasts_S64x2x8192_S64x16384 : S64x2x8192.ShapeCasts S64x16384
  inb_S2047_S128_127 : ∀ a, (![127] : Fin 1 → Nat) a + S128.size a ≤ S2047.size a
  h_S128 : 0 < S128.numel
  inb_S64x16368_S64x128_0_16128 : ∀ a, (![0, 16128] : Fin 2 → Nat) a + S64x128.size a ≤ S64x16368.size a
  h_S64x128 : 0 < S64x128.numel
  shapeCasts_S64x128_S64x128x1 : S64x128.ShapeCasts S64x128x1
  shapeCasts_S128_S1x1x128 : S128.ShapeCasts S1x1x128
  broadcasts_S64x128x1_S64x128x128 : S64x128x1.Broadcasts S64x128x128
  broadcasts_S1x1x128_S64x128x128 : S1x1x128.Broadcasts S64x128x128
  shapeCasts_S64x128x128_S64x16384 : S64x128x128.ShapeCasts S64x16384
  inb_S2047_S256_255 : ∀ a, (![255] : Fin 1 → Nat) a + S256.size a ≤ S2047.size a
  h_S256 : 0 < S256.numel
  inb_S64x16368_S64x64_0_16256 : ∀ a, (![0, 16256] : Fin 2 → Nat) a + S64x64.size a ≤ S64x16368.size a
  h_S64x64 : 0 < S64x64.numel
  shapeCasts_S64x64_S64x64x1 : S64x64.ShapeCasts S64x64x1
  shapeCasts_S256_S1x1x256 : S256.ShapeCasts S1x1x256
  broadcasts_S64x64x1_S64x64x256 : S64x64x1.Broadcasts S64x64x256
  broadcasts_S1x1x256_S64x64x256 : S1x1x256.Broadcasts S64x64x256
  inb_S2047_S512_511 : ∀ a, (![511] : Fin 1 → Nat) a + S512.size a ≤ S2047.size a
  h_S512 : 0 < S512.numel
  inb_S64x16368_S64x32_0_16320 : ∀ a, (![0, 16320] : Fin 2 → Nat) a + S64x32.size a ≤ S64x16368.size a
  h_S64x32 : 0 < S64x32.numel
  shapeCasts_S64x32_S64x32x1 : S64x32.ShapeCasts S64x32x1
  shapeCasts_S512_S1x1x512 : S512.ShapeCasts S1x1x512
  broadcasts_S64x32x1_S64x32x512 : S64x32x1.Broadcasts S64x32x512
  broadcasts_S1x1x512_S64x32x512 : S1x1x512.Broadcasts S64x32x512
  inb_S2047_S1024_1023 : ∀ a, (![1023] : Fin 1 → Nat) a + S1024.size a ≤ S2047.size a
  h_S1024 : 0 < S1024.numel
  inb_S64x16368_S64x16_0_16352 : ∀ a, (![0, 16352] : Fin 2 → Nat) a + S64x16.size a ≤ S64x16368.size a
  h_S64x16 : 0 < S64x16.numel
  shapeCasts_S64x16_S64x16x1 : S64x16.ShapeCasts S64x16x1
  shapeCasts_S1024_S1x1x1024 : S1024.ShapeCasts S1x1x1024
  broadcasts_S64x16x1_S64x16x1024 : S64x16x1.Broadcasts S64x16x1024
  broadcasts_S1x1x1024_S64x16x1024 : S1x1x1024.Broadcasts S64x16x1024
  dot_S4096x128_S128x256_S4096x256_1_0_0_1_n_n_wf : DotDims.WF S4096x128 S128x256 S4096x256 [1] [0] [0] [1] [] []
  dot_S2048x128_S128x512_S2048x512_1_0_0_1_n_n_wf : DotDims.WF S2048x128 S128x512 S2048x512 [1] [0] [0] [1] [] []
  dot_S1024x128_S128x1024_S1024x1024_1_0_0_1_n_n_wf : DotDims.WF S1024x128 S128x1024 S1024x1024 [1] [0] [0] [1] [] []
  dot_S512x128_S128x2048_S512x2048_1_0_0_1_n_n_wf : DotDims.WF S512x128 S128x2048 S512x2048 [1] [0] [0] [1] [] []
  dot_S256x128_S128x4096_S256x4096_1_0_0_1_n_n_wf : DotDims.WF S256x128 S128x4096 S256x4096 [1] [0] [0] [1] [] []
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16368.size a ≤ S2048x16368.size a
  hwx0_0 : ∀ i : grid0.Coords, EltTy.bits .f32 = 32 ∨ (Rect.block (s := S2048x16368) S64x16368.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2047.size a ≤ S2047.size a
  hwx0_1 : ∀ i : grid0.Coords, EltTy.bits .f32 = 32 ∨ (Rect.block (s := S2047) S2047.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16128.size a ≤ S128x16128.size a
  hwx0_2 : ∀ i : grid0.Coords, EltTy.bits .f32 = 32 ∨ (Rect.block (s := S128x16128) S128x16128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x16384.size a ≤ S2048x16384.size a
  hwx0_4 : ∀ i : grid0.Coords, EltTy.bits .f32 = 32 ∨ (Rect.block (s := S2048x16384) S64x16384.size (cc0_transform_4 i) (hinb0_4 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S64x16368.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2047.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v98) S128x16128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v99) S64x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x16368 : Shape := ⟨2, ![2048, 16368]⟩
abbrev S2047 : Shape := ⟨1, ![2047]⟩
abbrev S10 : Shape := ⟨1, ![10]⟩
abbrev S_ : Shape := ⟨0, ![]⟩
abbrev S2048x16384 : Shape := ⟨2, ![2048, 16384]⟩
abbrev S2 : Shape := ⟨1, ![2]⟩
abbrev S2048x8192 : Shape := ⟨2, ![2048, 8192]⟩
abbrev S2048x8192x1 : Shape := ⟨3, ![2048, 8192, 1]⟩
abbrev S1x1x2 : Shape := ⟨3, ![1, 1, 2]⟩
abbrev S2048x8192x2 : Shape := ⟨3, ![2048, 8192, 2]⟩
abbrev S1 : Shape := ⟨1, ![1]⟩
abbrev S4 : Shape := ⟨1, ![4]⟩
abbrev S2048x4096 : Shape := ⟨2, ![2048, 4096]⟩
abbrev S2048x4096x1 : Shape := ⟨3, ![2048, 4096, 1]⟩
abbrev S1x1x4 : Shape := ⟨3, ![1, 1, 4]⟩
abbrev S2048x4096x4 : Shape := ⟨3, ![2048, 4096, 4]⟩
abbrev S8 : Shape := ⟨1, ![8]⟩
abbrev S2048x2048 : Shape := ⟨2, ![2048, 2048]⟩
abbrev S2048x2048x1 : Shape := ⟨3, ![2048, 2048, 1]⟩
abbrev S1x1x8 : Shape := ⟨3, ![1, 1, 8]⟩
abbrev S2048x2048x8 : Shape := ⟨3, ![2048, 2048, 8]⟩
abbrev S16 : Shape := ⟨1, ![16]⟩
abbrev S2048x1024 : Shape := ⟨2, ![2048, 1024]⟩
abbrev S2048x1024x1 : Shape := ⟨3, ![2048, 1024, 1]⟩
abbrev S1x1x16 : Shape := ⟨3, ![1, 1, 16]⟩
abbrev S2048x1024x16 : Shape := ⟨3, ![2048, 1024, 16]⟩
abbrev S32 : Shape := ⟨1, ![32]⟩
abbrev S2048x512 : Shape := ⟨2, ![2048, 512]⟩
abbrev S2048x512x1 : Shape := ⟨3, ![2048, 512, 1]⟩
abbrev S1x1x32 : Shape := ⟨3, ![1, 1, 32]⟩
abbrev S2048x512x32 : Shape := ⟨3, ![2048, 512, 32]⟩
abbrev S64 : Shape := ⟨1, ![64]⟩
abbrev S2048x256 : Shape := ⟨2, ![2048, 256]⟩
abbrev S2048x256x1 : Shape := ⟨3, ![2048, 256, 1]⟩
abbrev S1x1x64 : Shape := ⟨3, ![1, 1, 64]⟩
abbrev S2048x256x64 : Shape := ⟨3, ![2048, 256, 64]⟩
abbrev S128 : Shape := ⟨1, ![128]⟩
abbrev S2048x128 : Shape := ⟨2, ![2048, 128]⟩
abbrev S2048x128x1 : Shape := ⟨3, ![2048, 128, 1]⟩
abbrev S1x1x128 : Shape := ⟨3, ![1, 1, 128]⟩
abbrev S2048x128x128 : Shape := ⟨3, ![2048, 128, 128]⟩
abbrev S256 : Shape := ⟨1, ![256]⟩
abbrev S2048x64 : Shape := ⟨2, ![2048, 64]⟩
abbrev S2048x64x1 : Shape := ⟨3, ![2048, 64, 1]⟩
abbrev S1x1x256 : Shape := ⟨3, ![1, 1, 256]⟩
abbrev S2048x64x256 : Shape := ⟨3, ![2048, 64, 256]⟩
abbrev S512 : Shape := ⟨1, ![512]⟩
abbrev S2048x32 : Shape := ⟨2, ![2048, 32]⟩
abbrev S2048x32x1 : Shape := ⟨3, ![2048, 32, 1]⟩
abbrev S1x1x512 : Shape := ⟨3, ![1, 1, 512]⟩
abbrev S2048x32x512 : Shape := ⟨3, ![2048, 32, 512]⟩
abbrev S1024 : Shape := ⟨1, ![1024]⟩
abbrev S2048x16 : Shape := ⟨2, ![2048, 16]⟩
abbrev S2048x16x1 : Shape := ⟨3, ![2048, 16, 1]⟩
abbrev S1x1x1024 : Shape := ⟨3, ![1, 1, 1024]⟩
abbrev S2048x16x1024 : Shape := ⟨3, ![2048, 16, 1024]⟩

abbrev nBuf : Space → Nat
  | .hbm => 135
  | .vmem => 0
  | .smem => 0
  | _ => 0

abbrev hbmTy0_0 (i : Nat) : BufTy := match i % 128 with
  | 0 => ⟨S2048x16368, .f32⟩
  | 1 => ⟨S2047, .f32⟩
  | 2 => ⟨S10, .f32⟩
  | 3 => ⟨S_, .f32⟩
  | 4 => ⟨S2048x16384, .f32⟩
  | 5 => ⟨S2, .f32⟩
  | 6 => ⟨S2048x8192, .f32⟩
  | 7 => ⟨S2048x8192x1, .f32⟩
  | 8 => ⟨S1x1x2, .f32⟩
  | 9 => ⟨S2048x8192x2, .f32⟩
  | 10 => ⟨S2048x8192x2, .f32⟩
  | 11 => ⟨S2048x8192x2, .f32⟩
  | 12 => ⟨S2048x16384, .f32⟩
  | 13 => ⟨S2048x16384, .f32⟩
  | 14 => ⟨S1, .f32⟩
  | 15 => ⟨S_, .f32⟩
  | 16 => ⟨S2048x16384, .f32⟩
  | 17 => ⟨S2048x16384, .f32⟩
  | 18 => ⟨S4, .f32⟩
  | 19 => ⟨S2048x4096, .f32⟩
  | 20 => ⟨S2048x4096x1, .f32⟩
  | 21 => ⟨S1x1x4, .f32⟩
  | 22 => ⟨S2048x4096x4, .f32⟩
  | 23 => ⟨S2048x4096x4, .f32⟩
  | 24 => ⟨S2048x4096x4, .f32⟩
  | 25 => ⟨S2048x16384, .f32⟩
  | 26 => ⟨S2048x16384, .f32⟩
  | 27 => ⟨S1, .f32⟩
  | 28 => ⟨S_, .f32⟩
  | 29 => ⟨S2048x16384, .f32⟩
  | 30 => ⟨S2048x16384, .f32⟩
  | 31 => ⟨S8, .f32⟩
  | 32 => ⟨S2048x2048, .f32⟩
  | 33 => ⟨S2048x2048x1, .f32⟩
  | 34 => ⟨S1x1x8, .f32⟩
  | 35 => ⟨S2048x2048x8, .f32⟩
  | 36 => ⟨S2048x2048x8, .f32⟩
  | 37 => ⟨S2048x2048x8, .f32⟩
  | 38 => ⟨S2048x16384, .f32⟩
  | 39 => ⟨S2048x16384, .f32⟩
  | 40 => ⟨S1, .f32⟩
  | 41 => ⟨S_, .f32⟩
  | 42 => ⟨S2048x16384, .f32⟩
  | 43 => ⟨S2048x16384, .f32⟩
  | 44 => ⟨S16, .f32⟩
  | 45 => ⟨S2048x1024, .f32⟩
  | 46 => ⟨S2048x1024x1, .f32⟩
  | 47 => ⟨S1x1x16, .f32⟩
  | 48 => ⟨S2048x1024x16, .f32⟩
  | 49 => ⟨S2048x1024x16, .f32⟩
  | 50 => ⟨S2048x1024x16, .f32⟩
  | 51 => ⟨S2048x16384, .f32⟩
  | 52 => ⟨S2048x16384, .f32⟩
  | 53 => ⟨S1, .f32⟩
  | 54 => ⟨S_, .f32⟩
  | 55 => ⟨S2048x16384, .f32⟩
  | 56 => ⟨S2048x16384, .f32⟩
  | 57 => ⟨S32, .f32⟩
  | 58 => ⟨S2048x512, .f32⟩
  | 59 => ⟨S2048x512x1, .f32⟩
  | 60 => ⟨S1x1x32, .f32⟩
  | 61 => ⟨S2048x512x32, .f32⟩
  | 62 => ⟨S2048x512x32, .f32⟩
  | 63 => ⟨S2048x512x32, .f32⟩
  | 64 => ⟨S2048x16384, .f32⟩
  | 65 => ⟨S2048x16384, .f32⟩
  | 66 => ⟨S1, .f32⟩
  | 67 => ⟨S_, .f32⟩
  | 68 => ⟨S2048x16384, .f32⟩
  | 69 => ⟨S2048x16384, .f32⟩
  | 70 => ⟨S64, .f32⟩
  | 71 => ⟨S2048x256, .f32⟩
  | 72 => ⟨S2048x256x1, .f32⟩
  | 73 => ⟨S1x1x64, .f32⟩
  | 74 => ⟨S2048x256x64, .f32⟩
  | 75 => ⟨S2048x256x64, .f32⟩
  | 76 => ⟨S2048x256x64, .f32⟩
  | 77 => ⟨S2048x16384, .f32⟩
  | 78 => ⟨S2048x16384, .f32⟩
  | 79 => ⟨S1, .f32⟩
  | 80 => ⟨S_, .f32⟩
  | 81 => ⟨S2048x16384, .f32⟩
  | 82 => ⟨S2048x16384, .f32⟩
  | 83 => ⟨S128, .f32⟩
  | 84 => ⟨S2048x128, .f32⟩
  | 85 => ⟨S2048x128x1, .f32⟩
  | 86 => ⟨S1x1x128, .f32⟩
  | 87 => ⟨S2048x128x128, .f32⟩
  | 88 => ⟨S2048x128x128, .f32⟩
  | 89 => ⟨S2048x128x128, .f32⟩
  | 90 => ⟨S2048x16384, .f32⟩
  | 91 => ⟨S2048x16384, .f32⟩
  | 92 => ⟨S1, .f32⟩
  | 93 => ⟨S_, .f32⟩
  | 94 => ⟨S2048x16384, .f32⟩
  | 95 => ⟨S2048x16384, .f32⟩
  | 96 => ⟨S256, .f32⟩
  | 97 => ⟨S2048x64, .f32⟩
  | 98 => ⟨S2048x64x1, .f32⟩
  | 99 => ⟨S1x1x256, .f32⟩
  | 100 => ⟨S2048x64x256, .f32⟩
  | 101 => ⟨S2048x64x256, .f32⟩
  | 102 => ⟨S2048x64x256, .f32⟩
  | 103 => ⟨S2048x16384, .f32⟩
  | 104 => ⟨S2048x16384, .f32⟩
  | 105 => ⟨S1, .f32⟩
  | 106 => ⟨S_, .f32⟩
  | 107 => ⟨S2048x16384, .f32⟩
  | 108 => ⟨S2048x16384, .f32⟩
  | 109 => ⟨S512, .f32⟩
  | 110 => ⟨S2048x32, .f32⟩
  | 111 => ⟨S2048x32x1, .f32⟩
  | 112 => ⟨S1x1x512, .f32⟩
  | 113 => ⟨S2048x32x512, .f32⟩
  | 114 => ⟨S2048x32x512, .f32⟩
  | 115 => ⟨S2048x32x512, .f32⟩
  | 116 => ⟨S2048x16384, .f32⟩
  | 117 => ⟨S2048x16384, .f32⟩
  | 118 => ⟨S1, .f32⟩
  | 119 => ⟨S_, .f32⟩
  | 120 => ⟨S2048x16384, .f32⟩
  | 121 => ⟨S2048x16384, .f32⟩
  | 122 => ⟨S1024, .f32⟩
  | 123 => ⟨S2048x16, .f32⟩
  | 124 => ⟨S2048x16x1, .f32⟩
  | 125 => ⟨S1x1x1024, .f32⟩
  | 126 => ⟨S2048x16x1024, .f32⟩
  | 127 => ⟨S2048x16x1024, .f32⟩
  | _ => ⟨S2048x16368, .f32⟩

abbrev hbmTy0_1 (i : Nat) : BufTy := match i % 128 with
  | 0 => ⟨S2048x16x1024, .f32⟩
  | 1 => ⟨S2048x16384, .f32⟩
  | 2 => ⟨S2048x16384, .f32⟩
  | 3 => ⟨S1, .f32⟩
  | 4 => ⟨S_, .f32⟩
  | 5 => ⟨S2048x16384, .f32⟩
  | 6 => ⟨S2048x16384, .f32⟩
  | _ => ⟨S2048x16368, .f32⟩

abbrev hbmTy (i : Nat) : BufTy := match i / 128 with
  | 0 => hbmTy0_0 i
  | 1 => hbmTy0_1 i
  | _ => ⟨S2048x16368, .f32⟩

abbrev bufTy : (tb : Table) → Fin (tcTables nBuf tb) → BufTy
  | .hbm, ⟨i, _⟩ => hbmTy i
  | _, _ => ⟨S2048x16368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩
abbrev main_v100 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v107 : Ref sig .tc := ⟨.hbm, 111, rfl⟩
abbrev main_v108 : Ref sig .tc := ⟨.hbm, 112, rfl⟩
abbrev main_v109 : Ref sig .tc := ⟨.hbm, 113, rfl⟩
abbrev main_v110 : Ref sig .tc := ⟨.hbm, 114, rfl⟩
abbrev main_v111 : Ref sig .tc := ⟨.hbm, 115, rfl⟩
abbrev main_v112 : Ref sig .tc := ⟨.hbm, 116, rfl⟩
abbrev main_v113 : Ref sig .tc := ⟨.hbm, 117, rfl⟩
abbrev main_v114 : Ref sig .tc := ⟨.hbm, 118, rfl⟩
abbrev main_v115 : Ref sig .tc := ⟨.hbm, 119, rfl⟩
abbrev main_v116 : Ref sig .tc := ⟨.hbm, 120, rfl⟩
abbrev main_v117 : Ref sig .tc := ⟨.hbm, 121, rfl⟩
abbrev main_v118 : Ref sig .tc := ⟨.hbm, 122, rfl⟩
abbrev main_v119 : Ref sig .tc := ⟨.hbm, 123, rfl⟩
abbrev main_v120 : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev main_v127 : Ref sig .tc := ⟨.hbm, 131, rfl⟩
abbrev main_v128 : Ref sig .tc := ⟨.hbm, 132, rfl⟩
abbrev main_v129 : Ref sig .tc := ⟨.hbm, 133, rfl⟩
abbrev main_v130 : Ref sig .tc := ⟨.hbm, 134, rfl⟩

abbrev nD : Nat := 1
abbrev τ : Topo := Topo.v7x

variable {F : FTy → Type} [FloatOps F]

class Facts₀ : Prop where
  bcast_S_S2048x16384 : S_.BroadcastsInDim S2048x16384 (![] : Fin 0 → Fin S2048x16384.rank)
  slices_S2047_S2_1 : S2047.Slices ![1] S2
  slices_S2048x16368_S2048x8192_0_0 : S2048x16368.Slices ![0, 0] S2048x8192
  bcast_S2048x8192_S2048x8192x1_0_1 : S2048x8192.BroadcastsInDim S2048x8192x1 (![0, 1] : Fin 2 → Fin S2048x8192x1.rank)
  bcast_S2_S1x1x2_2 : S2.BroadcastsInDim S1x1x2 (![2] : Fin 1 → Fin S1x1x2.rank)
  bcast_S2048x8192x1_S2048x8192x2_0_1_2 : S2048x8192x1.BroadcastsInDim S2048x8192x2 (![0, 1, 2] : Fin 3 → Fin S2048x8192x2.rank)
  bcast_S1x1x2_S2048x8192x2_0_1_2 : S1x1x2.BroadcastsInDim S2048x8192x2 (![0, 1, 2] : Fin 3 → Fin S2048x8192x2.rank)
  shapeCasts_S2048x8192x2_S2048x16384 : S2048x8192x2.ShapeCasts S2048x16384
  slices_S10_S1_0 : S10.Slices ![0] S1
  shapeCasts_S1_S_ : S1.ShapeCasts S_
  slices_S2047_S4_3 : S2047.Slices ![3] S4
  slices_S2048x16368_S2048x4096_0_8192 : S2048x16368.Slices ![0, 8192] S2048x4096
  bcast_S2048x4096_S2048x4096x1_0_1 : S2048x4096.BroadcastsInDim S2048x4096x1 (![0, 1] : Fin 2 → Fin S2048x4096x1.rank)
  bcast_S4_S1x1x4_2 : S4.BroadcastsInDim S1x1x4 (![2] : Fin 1 → Fin S1x1x4.rank)
  bcast_S2048x4096x1_S2048x4096x4_0_1_2 : S2048x4096x1.BroadcastsInDim S2048x4096x4 (![0, 1, 2] : Fin 3 → Fin S2048x4096x4.rank)
  bcast_S1x1x4_S2048x4096x4_0_1_2 : S1x1x4.BroadcastsInDim S2048x4096x4 (![0, 1, 2] : Fin 3 → Fin S2048x4096x4.rank)
  shapeCasts_S2048x4096x4_S2048x16384 : S2048x4096x4.ShapeCasts S2048x16384
  slices_S10_S1_1 : S10.Slices ![1] S1
  slices_S2047_S8_7 : S2047.Slices ![7] S8
  slices_S2048x16368_S2048x2048_0_12288 : S2048x16368.Slices ![0, 12288] S2048x2048
  bcast_S2048x2048_S2048x2048x1_0_1 : S2048x2048.BroadcastsInDim S2048x2048x1 (![0, 1] : Fin 2 → Fin S2048x2048x1.rank)
  bcast_S8_S1x1x8_2 : S8.BroadcastsInDim S1x1x8 (![2] : Fin 1 → Fin S1x1x8.rank)
  bcast_S2048x2048x1_S2048x2048x8_0_1_2 : S2048x2048x1.BroadcastsInDim S2048x2048x8 (![0, 1, 2] : Fin 3 → Fin S2048x2048x8.rank)
  bcast_S1x1x8_S2048x2048x8_0_1_2 : S1x1x8.BroadcastsInDim S2048x2048x8 (![0, 1, 2] : Fin 3 → Fin S2048x2048x8.rank)
  shapeCasts_S2048x2048x8_S2048x16384 : S2048x2048x8.ShapeCasts S2048x16384
  slices_S10_S1_2 : S10.Slices ![2] S1
  slices_S2047_S16_15 : S2047.Slices ![15] S16
  slices_S2048x16368_S2048x1024_0_14336 : S2048x16368.Slices ![0, 14336] S2048x1024
  bcast_S2048x1024_S2048x1024x1_0_1 : S2048x1024.BroadcastsInDim S2048x1024x1 (![0, 1] : Fin 2 → Fin S2048x1024x1.rank)
  bcast_S16_S1x1x16_2 : S16.BroadcastsInDim S1x1x16 (![2] : Fin 1 → Fin S1x1x16.rank)
  bcast_S2048x1024x1_S2048x1024x16_0_1_2 : S2048x1024x1.BroadcastsInDim S2048x1024x16 (![0, 1, 2] : Fin 3 → Fin S2048x1024x16.rank)
  bcast_S1x1x16_S2048x1024x16_0_1_2 : S1x1x16.BroadcastsInDim S2048x1024x16 (![0, 1, 2] : Fin 3 → Fin S2048x1024x16.rank)
  shapeCasts_S2048x1024x16_S2048x16384 : S2048x1024x16.ShapeCasts S2048x16384
  slices_S10_S1_3 : S10.Slices ![3] S1
  slices_S2047_S32_31 : S2047.Slices ![31] S32
  slices_S2048x16368_S2048x512_0_15360 : S2048x16368.Slices ![0, 15360] S2048x512
  bcast_S2048x512_S2048x512x1_0_1 : S2048x512.BroadcastsInDim S2048x512x1 (![0, 1] : Fin 2 → Fin S2048x512x1.rank)
  bcast_S32_S1x1x32_2 : S32.BroadcastsInDim S1x1x32 (![2] : Fin 1 → Fin S1x1x32.rank)
  bcast_S2048x512x1_S2048x512x32_0_1_2 : S2048x512x1.BroadcastsInDim S2048x512x32 (![0, 1, 2] : Fin 3 → Fin S2048x512x32.rank)
  bcast_S1x1x32_S2048x512x32_0_1_2 : S1x1x32.BroadcastsInDim S2048x512x32 (![0, 1, 2] : Fin 3 → Fin S2048x512x32.rank)
  shapeCasts_S2048x512x32_S2048x16384 : S2048x512x32.ShapeCasts S2048x16384
  slices_S10_S1_4 : S10.Slices ![4] S1
  slices_S2047_S64_63 : S2047.Slices ![63] S64
  slices_S2048x16368_S2048x256_0_15872 : S2048x16368.Slices ![0, 15872] S2048x256
  bcast_S2048x256_S2048x256x1_0_1 : S2048x256.BroadcastsInDim S2048x256x1 (![0, 1] : Fin 2 → Fin S2048x256x1.rank)
  bcast_S64_S1x1x64_2 : S64.BroadcastsInDim S1x1x64 (![2] : Fin 1 → Fin S1x1x64.rank)
  bcast_S2048x256x1_S2048x256x64_0_1_2 : S2048x256x1.BroadcastsInDim S2048x256x64 (![0, 1, 2] : Fin 3 → Fin S2048x256x64.rank)
  bcast_S1x1x64_S2048x256x64_0_1_2 : S1x1x64.BroadcastsInDim S2048x256x64 (![0, 1, 2] : Fin 3 → Fin S2048x256x64.rank)
  shapeCasts_S2048x256x64_S2048x16384 : S2048x256x64.ShapeCasts S2048x16384
  slices_S10_S1_5 : S10.Slices ![5] S1
  slices_S2047_S128_127 : S2047.Slices ![127] S128
  slices_S2048x16368_S2048x128_0_16128 : S2048x16368.Slices ![0, 16128] S2048x128
  bcast_S2048x128_S2048x128x1_0_1 : S2048x128.BroadcastsInDim S2048x128x1 (![0, 1] : Fin 2 → Fin S2048x128x1.rank)
  bcast_S128_S1x1x128_2 : S128.BroadcastsInDim S1x1x128 (![2] : Fin 1 → Fin S1x1x128.rank)
  bcast_S2048x128x1_S2048x128x128_0_1_2 : S2048x128x1.BroadcastsInDim S2048x128x128 (![0, 1, 2] : Fin 3 → Fin S2048x128x128.rank)
  bcast_S1x1x128_S2048x128x128_0_1_2 : S1x1x128.BroadcastsInDim S2048x128x128 (![0, 1, 2] : Fin 3 → Fin S2048x128x128.rank)
  shapeCasts_S2048x128x128_S2048x16384 : S2048x128x128.ShapeCasts S2048x16384
  slices_S10_S1_6 : S10.Slices ![6] S1
  slices_S2047_S256_255 : S2047.Slices ![255] S256
  slices_S2048x16368_S2048x64_0_16256 : S2048x16368.Slices ![0, 16256] S2048x64
  bcast_S2048x64_S2048x64x1_0_1 : S2048x64.BroadcastsInDim S2048x64x1 (![0, 1] : Fin 2 → Fin S2048x64x1.rank)
  bcast_S256_S1x1x256_2 : S256.BroadcastsInDim S1x1x256 (![2] : Fin 1 → Fin S1x1x256.rank)
  bcast_S2048x64x1_S2048x64x256_0_1_2 : S2048x64x1.BroadcastsInDim S2048x64x256 (![0, 1, 2] : Fin 3 → Fin S2048x64x256.rank)
  bcast_S1x1x256_S2048x64x256_0_1_2 : S1x1x256.BroadcastsInDim S2048x64x256 (![0, 1, 2] : Fin 3 → Fin S2048x64x256.rank)
  shapeCasts_S2048x64x256_S2048x16384 : S2048x64x256.ShapeCasts S2048x16384
  slices_S10_S1_7 : S10.Slices ![7] S1
  slices_S2047_S512_511 : S2047.Slices ![511] S512
  slices_S2048x16368_S2048x32_0_16320 : S2048x16368.Slices ![0, 16320] S2048x32
  bcast_S2048x32_S2048x32x1_0_1 : S2048x32.BroadcastsInDim S2048x32x1 (![0, 1] : Fin 2 → Fin S2048x32x1.rank)
  bcast_S512_S1x1x512_2 : S512.BroadcastsInDim S1x1x512 (![2] : Fin 1 → Fin S1x1x512.rank)
  bcast_S2048x32x1_S2048x32x512_0_1_2 : S2048x32x1.BroadcastsInDim S2048x32x512 (![0, 1, 2] : Fin 3 → Fin S2048x32x512.rank)
  bcast_S1x1x512_S2048x32x512_0_1_2 : S1x1x512.BroadcastsInDim S2048x32x512 (![0, 1, 2] : Fin 3 → Fin S2048x32x512.rank)
  shapeCasts_S2048x32x512_S2048x16384 : S2048x32x512.ShapeCasts S2048x16384
  slices_S10_S1_8 : S10.Slices ![8] S1
  slices_S2047_S1024_1023 : S2047.Slices ![1023] S1024
  slices_S2048x16368_S2048x16_0_16352 : S2048x16368.Slices ![0, 16352] S2048x16
  bcast_S2048x16_S2048x16x1_0_1 : S2048x16.BroadcastsInDim S2048x16x1 (![0, 1] : Fin 2 → Fin S2048x16x1.rank)
  bcast_S1024_S1x1x1024_2 : S1024.BroadcastsInDim S1x1x1024 (![2] : Fin 1 → Fin S1x1x1024.rank)
  bcast_S2048x16x1_S2048x16x1024_0_1_2 : S2048x16x1.BroadcastsInDim S2048x16x1024 (![0, 1, 2] : Fin 3 → Fin S2048x16x1024.rank)
  bcast_S1x1x1024_S2048x16x1024_0_1_2 : S1x1x1024.BroadcastsInDim S2048x16x1024 (![0, 1, 2] : Fin 3 → Fin S2048x16x1024.rank)
  shapeCasts_S2048x16x1024_S2048x16384 : S2048x16x1024.ShapeCasts S2048x16384
  slices_S10_S1_9 : S10.Slices ![9] S1

variable [Facts₀]

class Facts : Prop extends Facts₀ where

variable [Facts]
-- ==== Proof.KHost.lean ====
/- The region-entry contents of `Kernel`'s arrays and the closed form of what its body leaves in the output block. -/
import proofs.«119412_j18751827214349_2_alg».proof.Proof.Gen.Kernel.Launch
import proofs.«119412_j18751827214349_2_alg».proof.Proof.Gen.Kernel.Skeleton
import proofs.«119412_j18751827214349_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s TensorCore buffers when the region is entered: the launch contents after the thirteen stretches of
    host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main up to the region, at any variants `𝒱₀`: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

The output block is 64 rows of 16384 columns. The data block is 64 rows of 16368 columns, cut into column bands of
widths 8192, 4096, 2048, 1024, 512, 256, 128, 64, 32, 16 (band `k` starts where the earlier ones end); the table is
128 rows, cut into column bands of widths 256, 512, …, 8192; the weight vector has 2047 entries, of which the
segments `[2^k - 1, 2^(k+1) - 1)` for `k = 7, 8, 9, 10` are read. -/

/-- The whole output block. -/
abbrev rOut : Rect S64x16384 := Rect.unit (s := S64x16384) ![0, 0] S64x16384.size inb_S64x16384_S64x16384_0_0
/-- The one entry of the scalar block. -/
abbrev rS : Rect S1x1 := Rect.unit (s := S1x1) ![0, 0] S1x1.size inb_S1x1_S1x1_0_0
/-- Column band 0 of the data block: columns from 0, 8192 wide. -/
abbrev rD0 : Rect S64x16368 := Rect.unit (s := S64x16368) ![0, 0] S64x8192.size inb_S64x16368_S64x8192_0_0
/-- Column band 1 of the data block: columns from 8192, 4096 wide. -/
abbrev rD1 : Rect S64x16368 := Rect.unit (s := S64x16368) ![0, 8192] S64x4096.size inb_S64x16368_S64x4096_0_8192
/-- Column band 2 of the data block: columns from 12288, 2048 wide. -/
abbrev rD2 : Rect S64x16368 := Rect.unit (s := S64x16368) ![0, 12288] S64x2048.size inb_S64x16368_S64x2048_0_12288
/-- Column band 3 of the data block: columns from 14336, 1024 wide. -/
abbrev rD3 : Rect S64x16368 := Rect.unit (s := S64x16368) ![0, 14336] S64x1024.size inb_S64x16368_S64x1024_0_14336
/-- Column band 4 of the data block: columns from 15360, 512 wide. -/
abbrev rD4 : Rect S64x16368 := Rect.unit (s := S64x16368) ![0, 15360] S64x512.size inb_S64x16368_S64x512_0_15360
/-- Column band 5 of the data block: columns from 15872, 256 wide. -/
abbrev rD5 : Rect S64x16368 := Rect.unit (s := S64x16368) ![0, 15872] S64x256.size inb_S64x16368_S64x256_0_15872
/-- Column band 6 of the data block: columns from 16128, 128 wide. -/
abbrev rD6 : Rect S64x16368 := Rect.unit (s := S64x16368) ![0, 16128] S64x128.size inb_S64x16368_S64x128_0_16128
/-- Column band 7 of the data block: columns from 16256, 64 wide. -/
abbrev rD7 : Rect S64x16368 := Rect.unit (s := S64x16368) ![0, 16256] S64x64.size inb_S64x16368_S64x64_0_16256
/-- Column band 8 of the data block: columns from 16320, 32 wide. -/
abbrev rD8 : Rect S64x16368 := Rect.unit (s := S64x16368) ![0, 16320] S64x32.size inb_S64x16368_S64x32_0_16320
/-- Column band 9 of the data block: columns from 16352, 16 wide. -/
abbrev rD9 : Rect S64x16368 := Rect.unit (s := S64x16368) ![0, 16352] S64x16.size inb_S64x16368_S64x16_0_16352
/-- Column band 0 of the table: columns from 0, 256 wide. -/
abbrev rT0 : Rect S128x16128 := Rect.unit (s := S128x16128) ![0, 0] S128x256.size inb_S128x16128_S128x256_0_0
/-- Column band 1 of the table: columns from 256, 512 wide. -/
abbrev rT1 : Rect S128x16128 := Rect.unit (s := S128x16128) ![0, 256] S128x512.size inb_S128x16128_S128x512_0_256
/-- Column band 2 of the table: columns from 768, 1024 wide. -/
abbrev rT2 : Rect S128x16128 := Rect.unit (s := S128x16128) ![0, 768] S128x1024.size inb_S128x16128_S128x1024_0_768
/-- Column band 3 of the table: columns from 1792, 2048 wide. -/
abbrev rT3 : Rect S128x16128 := Rect.unit (s := S128x16128) ![0, 1792] S128x2048.size inb_S128x16128_S128x2048_0_1792
/-- Column band 4 of the table: columns from 3840, 4096 wide. -/
abbrev rT4 : Rect S128x16128 := Rect.unit (s := S128x16128) ![0, 3840] S128x4096.size inb_S128x16128_S128x4096_0_3840
/-- Column band 5 of the table: columns from 7936, 8192 wide. -/
abbrev rT5 : Rect S128x16128 := Rect.unit (s := S128x16128) ![0, 7936] S128x8192.size inb_S128x16128_S128x8192_0_7936
/-- Segment of the weight vector: 128 entries from 127. -/
abbrev rW0 : Rect S2047 := Rect.unit (s := S2047) ![127] S128.size inb_S2047_S128_127
/-- Segment of the weight vector: 256 entries from 255. -/
abbrev rW1 : Rect S2047 := Rect.unit (s := S2047) ![255] S256.size inb_S2047_S256_255
/-- Segment of the weight vector: 512 entries from 511. -/
abbrev rW2 : Rect S2047 := Rect.unit (s := S2047) ![511] S512.size inb_S2047_S512_511
/-- Segment of the weight vector: 1024 entries from 1023. -/
abbrev rW3 : Rect S2047 := Rect.unit (s := S2047) ![1023] S1024.size inb_S2047_S1024_1023

/-! ## What the body leaves in the output window's buffer -/

/-- The output window's staging buffer after the body, from the four input windows' blocks: the body stores the whole
    block eleven times, each store but the first adding one term to what it reads back of the store before; the first
    store is the scalar broadcast. -/
def outBlk (x0 : Vec F S64x16368 .f32) (x1 : Vec F S2047 .f32) (x2 : Vec F S128x16128 .f32) (x3 : Vec F S1x1 .f32) : Vec F S64x16384 .f32 :=
  let b0 := k0_pay3 (View.ld x3 rS)
  let b1 := k0_pay4 (View.ld x0 rD0) (View.ld x2 rT0) b0
  let b2 := k0_pay5 (View.ld x0 rD1) (View.ld x2 rT1) b1
  let b3 := k0_pay7 (k0_pay6 (View.ld x0 rD2)) (View.ld x2 rT2) b2
  let b4 := k0_pay8 (View.ld x0 rD3) (View.ld x2 rT3) b3
  let b5 := k0_pay9 (View.ld x0 rD4) (View.ld x2 rT4) b4
  let b6 := k0_pay10 (View.ld x0 rD5) (View.ld x2 rT5) b5
  let b7 := k0_pay11 (View.ld x1 rW0) (View.ld x0 rD6) b6
  let b8 := k0_pay12 (View.ld x1 rW1) (View.ld x0 rD7) b7
  let b9 := k0_pay1 (View.ld x1 rW2) (View.ld x0 rD8) b8
  k0_pay2 (View.ld x1 rW3) (View.ld x0 rD9) b9

end Cert.Kernel.Frm

end
-- ==== Proof.KFrame.lean ====
/- The frame of `Kernel`: the body's triple, the pipeline's proof data, the run and the frame claim's post. -/
import proofs.«119412_j18751827214349_2_alg».proof.Proof.KHost
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a point -/

/-- Input window 0's current staging buffer holds its block at every point, fetched there or not, for any proof data
    whose array is the region-entry contents (`hA`) and whose body leaves the block in place (`hafter`): unfetched,
    the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents (`hA`) and whose body leaves the block in place (`hafter`): unfetched,
    the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents (`hA`) and whose body leaves the block in place (`hafter`): unfetched,
    the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents (`hA`) and whose body leaves the block in place (`hafter`): unfetched,
    the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — read at the
    two argument arrays the region stages, which are inputs and so end as they entered, and at the third, which no
    window stages and which therefore bypasses the region — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## A whole-block store read back whole -/

/-- The two zero offsets, as the constant zero. -/
theorem zeros2 : (![0, 0] : Fin 2 → Nat) = fun _ => 0 := funext fun a => by fin_cases a <;> rfl

section WholeBlock

variable {Val : EltTy → Type} [∀ e, Nonempty (Val e)] {sg : RefSig} {κ : Kind} {sp : Space} {S : Shape} {e : EltTy}

/-- A load of the whole shape after a list of stores whose LAST is of the whole shape reads that store's payload,
    whatever the earlier stores were. -/
theorem readCov_cons_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- What a buffer holds after a list of stores whose LAST is of the whole shape is that store's payload, whatever
    it held before. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

end WholeBlock

/-! ## The body's triple -/

set_option maxHeartbeats 1000000 in
/-- The kernel body on whole staging buffers, the four inputs' at read contents `x0 … x3` and the output's at
    anything, runs to the continuation holding the inputs' as they were and the output's at `outBlk` of the inputs':
    each of the eleven stores overwrites the whole output block, and each load of it between two stores reads the
    payload of the store before. -/
theorem sound_kernel (c : Dev nD) (E : Set ℕ) (i : grid0.Coords) (arg1 : Memref sig .tc .vmem S64x16368 .f32) (harg1 : arg1.IsWhole) (arg2 : Memref sig .tc .vmem S2047 .f32) (harg2 : arg2.IsWhole) (arg3 : Memref sig .tc .vmem S128x16128 .f32) (harg3 : arg3.IsWhole) (arg4 : Memref sig .tc .vmem S1x1 .f32) (harg4 : arg4.IsWhole) (arg5 : Memref sig .tc .vmem S64x16384 .f32) (harg5 : arg5.IsWhole)
    (x0 : Vec F S64x16368 .f32) (x1 : Vec F S2047 .f32) (x2 : Vec F S128x16128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__tsc_kernel i arg1 harg1 arg2 harg2 arg3 harg3 arg4 harg4 arg5 harg5) K := by
  simp only [cc0__tsc_kernel_eq_skeleton]; unfold cc0__tsc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_writes_cons_whole (S := S64x16384) _ _ zeros2]
  sl_unfold_run_names
  simp only [readCov_cons_whole (S := S64x16384) _ zeros2]
  rfl

/-! ## The pipeline's proof data -/

/-- The proof data of the one pipeline on core `c`: the arrays as the region finds them; after the body at point
    `t` each input's buffer at its block and the output's at `outBlk` of the four input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data gives
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, terminates without fault, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.KIHost.lean ====
/- The region-entry contents of `KernelIdeal`'s arrays and the closed form of what its body leaves in the output block. -/
import proofs.«119412_j18751827214349_2_alg».proof.Proof.Gen.KernelIdeal.Launch
import proofs.«119412_j18751827214349_2_alg».proof.Proof.Gen.KernelIdeal.Skeleton
import proofs.«119412_j18751827214349_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s TensorCore buffers when the region is entered: the launch contents after the thirteen stretches of
    host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-- @main up to the region, at any variants `𝒱₀`: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.TRef.nullary, StableHlo.TRef.unary, StableHlo.TRef.binary, StableHlo.TRef.ternary, StableHlo.TRef.of,
      StableHlo.nullary_writes, StableHlo.unary_writes, StableHlo.binary_writes, StableHlo.ternary_writes, StableHlo.quaternary_writes,
      StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

The output block is 64 rows of 16384 columns. The data block is 64 rows of 16368 columns, cut into column bands of
widths 8192, 4096, 2048, 1024, 512, 256, 128, 64, 32, 16 (band `k` starts where the earlier ones end); the table is
128 rows, cut into column bands of widths 256, 512, …, 8192; the weight vector has 2047 entries, of which the
segments `[2^k - 1, 2^(k+1) - 1)` for `k = 7, 8, 9, 10` are read. -/

/-- The whole output block. -/
abbrev rOut : Rect S64x16384 := Rect.unit (s := S64x16384) ![0, 0] S64x16384.size inb_S64x16384_S64x16384_0_0
/-- The one entry of the scalar block. -/
abbrev rS : Rect S1x1 := Rect.unit (s := S1x1) ![0, 0] S1x1.size inb_S1x1_S1x1_0_0
/-- Column band 0 of the data block: columns from 0, 8192 wide. -/
abbrev rD0 : Rect S64x16368 := Rect.unit (s := S64x16368) ![0, 0] S64x8192.size inb_S64x16368_S64x8192_0_0
/-- Column band 1 of the data block: columns from 8192, 4096 wide. -/
abbrev rD1 : Rect S64x16368 := Rect.unit (s := S64x16368) ![0, 8192] S64x4096.size inb_S64x16368_S64x4096_0_8192
/-- Column band 2 of the data block: columns from 12288, 2048 wide. -/
abbrev rD2 : Rect S64x16368 := Rect.unit (s := S64x16368) ![0, 12288] S64x2048.size inb_S64x16368_S64x2048_0_12288
/-- Column band 3 of the data block: columns from 14336, 1024 wide. -/
abbrev rD3 : Rect S64x16368 := Rect.unit (s := S64x16368) ![0, 14336] S64x1024.size inb_S64x16368_S64x1024_0_14336
/-- Column band 4 of the data block: columns from 15360, 512 wide. -/
abbrev rD4 : Rect S64x16368 := Rect.unit (s := S64x16368) ![0, 15360] S64x512.size inb_S64x16368_S64x512_0_15360
/-- Column band 5 of the data block: columns from 15872, 256 wide. -/
abbrev rD5 : Rect S64x16368 := Rect.unit (s := S64x16368) ![0, 15872] S64x256.size inb_S64x16368_S64x256_0_15872
/-- Column band 6 of the data block: columns from 16128, 128 wide. -/
abbrev rD6 : Rect S64x16368 := Rect.unit (s := S64x16368) ![0, 16128] S64x128.size inb_S64x16368_S64x128_0_16128
/-- Column band 7 of the data block: columns from 16256, 64 wide. -/
abbrev rD7 : Rect S64x16368 := Rect.unit (s := S64x16368) ![0, 16256] S64x64.size inb_S64x16368_S64x64_0_16256
/-- Column band 8 of the data block: columns from 16320, 32 wide. -/
abbrev rD8 : Rect S64x16368 := Rect.unit (s := S64x16368) ![0, 16320] S64x32.size inb_S64x16368_S64x32_0_16320
/-- Column band 9 of the data block: columns from 16352, 16 wide. -/
abbrev rD9 : Rect S64x16368 := Rect.unit (s := S64x16368) ![0, 16352] S64x16.size inb_S64x16368_S64x16_0_16352
/-- Column band 0 of the table: columns from 0, 256 wide. -/
abbrev rT0 : Rect S128x16128 := Rect.unit (s := S128x16128) ![0, 0] S128x256.size inb_S128x16128_S128x256_0_0
/-- Column band 1 of the table: columns from 256, 512 wide. -/
abbrev rT1 : Rect S128x16128 := Rect.unit (s := S128x16128) ![0, 256] S128x512.size inb_S128x16128_S128x512_0_256
/-- Column band 2 of the table: columns from 768, 1024 wide. -/
abbrev rT2 : Rect S128x16128 := Rect.unit (s := S128x16128) ![0, 768] S128x1024.size inb_S128x16128_S128x1024_0_768
/-- Column band 3 of the table: columns from 1792, 2048 wide. -/
abbrev rT3 : Rect S128x16128 := Rect.unit (s := S128x16128) ![0, 1792] S128x2048.size inb_S128x16128_S128x2048_0_1792
/-- Column band 4 of the table: columns from 3840, 4096 wide. -/
abbrev rT4 : Rect S128x16128 := Rect.unit (s := S128x16128) ![0, 3840] S128x4096.size inb_S128x16128_S128x4096_0_3840
/-- Column band 5 of the table: columns from 7936, 8192 wide. -/
abbrev rT5 : Rect S128x16128 := Rect.unit (s := S128x16128) ![0, 7936] S128x8192.size inb_S128x16128_S128x8192_0_7936
/-- Segment of the weight vector: 128 entries from 127. -/
abbrev rW0 : Rect S2047 := Rect.unit (s := S2047) ![127] S128.size inb_S2047_S128_127
/-- Segment of the weight vector: 256 entries from 255. -/
abbrev rW1 : Rect S2047 := Rect.unit (s := S2047) ![255] S256.size inb_S2047_S256_255
/-- Segment of the weight vector: 512 entries from 511. -/
abbrev rW2 : Rect S2047 := Rect.unit (s := S2047) ![511] S512.size inb_S2047_S512_511
/-- Segment of the weight vector: 1024 entries from 1023. -/
abbrev rW3 : Rect S2047 := Rect.unit (s := S2047) ![1023] S1024.size inb_S2047_S1024_1023

/-! ## What the body leaves in the output window's buffer -/

/-- The output window's staging buffer after the body, from the four input windows' blocks: the body stores the whole
    block eleven times, each store but the first adding one term to what it reads back of the store before; the first
    store is the scalar broadcast. -/
def outBlk (x0 : Vec F S64x16368 .f32) (x1 : Vec F S2047 .f32) (x2 : Vec F S128x16128 .f32) (x3 : Vec F S1x1 .f32) : Vec F S64x16384 .f32 :=
  let b0 := k0_pay3 (View.ld x3 rS)
  let b1 := k0_pay4 (View.ld x0 rD0) (View.ld x2 rT0) b0
  let b2 := k0_pay5 (View.ld x0 rD1) (View.ld x2 rT1) b1
  let b3 := k0_pay7 (k0_pay6 (View.ld x0 rD2)) (View.ld x2 rT2) b2
  let b4 := k0_pay8 (View.ld x0 rD3) (View.ld x2 rT3) b3
  let b5 := k0_pay9 (View.ld x0 rD4) (View.ld x2 rT4) b4
  let b6 := k0_pay10 (View.ld x0 rD5) (View.ld x2 rT5) b5
  let b7 := k0_pay11 (View.ld x1 rW0) (View.ld x0 rD6) b6
  let b8 := k0_pay12 (View.ld x1 rW1) (View.ld x0 rD7) b7
  let b9 := k0_pay1 (View.ld x1 rW2) (View.ld x0 rD8) b8
  k0_pay2 (View.ld x1 rW3) (View.ld x0 rD9) b9

end Cert.KernelIdeal.Frm

end
-- ==== Proof.KIFrame.lean ====
/- The frame of `KernelIdeal`: the body's triple, the pipeline's proof data, the run and the frame claim's post. -/
import proofs.«119412_j18751827214349_2_alg».proof.Proof.KIHost
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers at a point -/

/-- Input window 0's current staging buffer holds its block at every point, fetched there or not, for any proof data
    whose array is the region-entry contents (`hA`) and whose body leaves the block in place (`hafter`): unfetched,
    the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents (`hA`) and whose body leaves the block in place (`hafter`): unfetched,
    the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents (`hA`) and whose body leaves the block in place (`hafter`): unfetched,
    the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents (`hA`) and whose body leaves the block in place (`hafter`): unfetched,
    the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the library's frame post — read at the
    two argument arrays the region stages, which are inputs and so end as they entered, and at the third, which no
    window stages and which therefore bypasses the region — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## A whole-block store read back whole -/

/-- The two zero offsets, as the constant zero. -/
theorem zeros2 : (![0, 0] : Fin 2 → Nat) = fun _ => 0 := funext fun a => by fin_cases a <;> rfl

section WholeBlock

variable {Val : EltTy → Type} [∀ e, Nonempty (Val e)] {sg : RefSig} {κ : Kind} {sp : Space} {S : Shape} {e : EltTy}

/-- A load of the whole shape after a list of stores whose LAST is of the whole shape reads that store's payload,
    whatever the earlier stores were. -/
theorem readCov_cons_whole (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- What a buffer holds after a list of stores whose LAST is of the whole shape is that store's payload, whatever
    it held before. -/
theorem read_writes_cons_whole (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

end WholeBlock

/-! ## The body's triple -/

set_option maxHeartbeats 1000000 in
/-- The kernel body on whole staging buffers, the four inputs' at read contents `x0 … x3` and the output's at
    anything, runs to the continuation holding the inputs' as they were and the output's at `outBlk` of the inputs':
    each of the eleven stores overwrites the whole output block, and each load of it between two stores reads the
    payload of the store before. -/
theorem sound_kernel (c : Dev nD) (E : Set ℕ) (i : grid0.Coords) (arg1 : Memref sig .tc .vmem S64x16368 .f32) (harg1 : arg1.IsWhole) (arg2 : Memref sig .tc .vmem S2047 .f32) (harg2 : arg2.IsWhole) (arg3 : Memref sig .tc .vmem S128x16128 .f32) (harg3 : arg3.IsWhole) (arg4 : Memref sig .tc .vmem S1x1 .f32) (harg4 : arg4.IsWhole) (arg5 : Memref sig .tc .vmem S64x16384 .f32) (harg5 : arg5.IsWhole)
    (x0 : Vec F S64x16368 .f32) (x1 : Vec F S2047 .f32) (x2 : Vec F S128x16128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__tsc_kernel i arg1 harg1 arg2 harg2 arg3 harg3 arg4 harg4 arg5 harg5) K := by
  simp only [cc0__tsc_kernel_eq_skeleton]; unfold cc0__tsc_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_writes_cons_whole (S := S64x16384) _ _ zeros2]
  sl_unfold_run_names
  simp only [readCov_cons_whole (S := S64x16384) _ zeros2]
  rfl

/-! ## The pipeline's proof data -/

/-- The proof data of the one pipeline on core `c`: the arrays as the region finds them; after the body at point
    `t` each input's buffer at its block and the output's at `outBlk` of the four input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data gives
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, terminates without fault, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The run with the output array named -/

/-- After the frame run, the output window's array is what the proof data gives after every write-back. -/
theorem post4 (r : PUnit × MemSt nD τ sig (Elt F)) (h : Pipeline.FramePost cfgs (dats m) 0 (V m) r) (c : Dev nD) :
    r.2.mem ((c.tc : Thread nD τ).loc main_v99) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- After the frame run, argument `main_arg2` is as launched: no window stages it, so it bypasses the region. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

/-- The frame run with the output array after the run named — what the proof data gives after the write-back of
    every point —, the arguments unchanged. -/
theorem run_blocks : θ_run defs (onTc (τ := τ) (main (F := F))) ⟨m, fun _ => 0, ρ⟩ (fun r => ∀ c : Dev nD,
      r.2.mem ((c.tc : Thread nD τ).loc main_v99) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨post4 m r h c, kept_main_arg0 m r h c, kept_main_arg1 m r h c, kept_main_arg2 m r h c⟩)
    (run_main m ρ)

end Cert.KernelIdeal.Frm

end
-- ==== Proof.KIBlocks.lean ====
/-
  From blocks to arrays for the kernel program's one pipelined call.

  The call runs over 32 grid points.  Point `t` sees rows `64 t … 64 t + 63` of the encoded signal (all 16368
  columns) and writes rows `64 t … 64 t + 63` of the result (all 16384 columns); the weight vector, the table and
  the scalar are seen whole at every point.  So an input block's entry is an entry of its array — row `64 t + r`
  for the signal, the same index for the three whole arrays — and, since the 32 output blocks tile the result
  array, the array ends holding any function `G` whose rows `64 t … 64 t + 63` are what point `t` leaves in the
  output block.
-/
import proofs.«119412_j18751827214349_2_alg».proof.Proof.KIHost
import Idealize.ShloMosaic.Lib.Pipeline.Value
import Idealize.ShloMosaic.Lib.ValueIdx

noncomputable section

namespace Cert.KernelIdeal.Frm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-! ## The index maps over the grid -/

/-- There are 32 grid points. -/
theorem N_eq : cfg0.N = 32 := N_0

/-- At point `t` the signal's block is block `(t, 0)`, the result's block is block `(t, 0)`, and the three whole
    arrays sit at block index zero. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks as entries of their arrays -/

/-- The signal's block at point `t`: entry `(r, k)` is entry `(64 t + r, k)` of the array. -/
theorem iblk0_apply (c : Dev nD) (t : Fin cfg0.N) (r : Fin 64) (k : Fin 16368) :
    (iblk m c 0 t : Vec F S64x16368 .f32) (ix2 r k)
      = (V m c main_arg0 : S2048x16368.Idx → Elt F .f32)
          (ix2 (⟨64 * t.val + r.val, by have := t.isLt; have := N_eq; have := r.isLt; omega⟩ : Fin 2048) k) := by
  obtain ⟨h0, h1, -⟩ := idx_facts t
  unfold iblk
  rw [View.read_apply]
  refine congrArg (V m c main_arg0 : S2048x16368.Idx → Elt F .f32) ?_
  funext a
  apply Fin.ext
  match a with
  | ⟨0, _⟩ => show win0_0.index t (0 : Fin 2) * 64 + 1 * r.val = 64 * t.val + r.val; rw [h0]; omega
  | ⟨1, _⟩ => show win0_0.index t (1 : Fin 2) * 16368 + 1 * k.val = k.val; rw [h1]; omega

/-- The weight vector's block at any point is the whole vector. -/
theorem iblk1_apply (c : Dev nD) (t : Fin cfg0.N) (k : Fin 2047) :
    (iblk m c 1 t : Vec F S2047 .f32) (ix1 k) = (V m c main_arg1 : S2047.Idx → Elt F .f32) (ix1 k) := by
  obtain ⟨-, -, h0, -⟩ := idx_facts t
  unfold iblk
  rw [View.read_apply]
  refine congrArg (V m c main_arg1 : S2047.Idx → Elt F .f32) ?_
  funext a
  apply Fin.ext
  match a with
  | ⟨0, _⟩ => show win0_1.index t (0 : Fin 1) * 2047 + 1 * k.val = k.val; rw [h0]; omega

/-- The table's block at any point is the whole table. -/
theorem iblk2_apply (c : Dev nD) (t : Fin cfg0.N) (k : Fin 128) (q : Fin 16128) :
    (iblk m c 2 t : Vec F S128x16128 .f32) (ix2 k q) = (V m c main_v98 : S128x16128.Idx → Elt F .f32) (ix2 k q) := by
  obtain ⟨-, -, -, h0, h1, -⟩ := idx_facts t
  unfold iblk
  rw [View.read_apply]
  refine congrArg (V m c main_v98 : S128x16128.Idx → Elt F .f32) ?_
  funext a
  apply Fin.ext
  match a with
  | ⟨0, _⟩ => show win0_2.index t (0 : Fin 2) * 128 + 1 * k.val = k.val; rw [h0]; omega
  | ⟨1, _⟩ => show win0_2.index t (1 : Fin 2) * 16128 + 1 * q.val = q.val; rw [h1]; omega

/-- The scalar's block at any point is the scalar. -/
theorem iblk3_apply (c : Dev nD) (t : Fin cfg0.N) :
    (iblk m c 3 t : Vec F S1x1 .f32) (ix2 (0 : Fin 1) (0 : Fin 1)) = (V m c main_v1 : S1x1.Idx → Elt F .f32) (ix2 (0 : Fin 1) (0 : Fin 1)) := by
  obtain ⟨-, -, -, -, -, h0, h1, -⟩ := idx_facts t
  unfold iblk
  rw [View.read_apply]
  refine congrArg (V m c main_v1 : S1x1.Idx → Elt F .f32) ?_
  funext a
  apply Fin.ext
  match a with
  | ⟨0, _⟩ => show win0_3.index t (0 : Fin 2) * 1 + 1 * 0 = 0; rw [h0]
  | ⟨1, _⟩ => show win0_3.index t (1 : Fin 2) * 1 + 1 * 0 = 0; rw [h1]

/-! ## The result array from its blocks -/

/-- An index of the result array is in point `t`'s block iff each coordinate is in the block's range on its axis. -/
theorem mem_blk_out (t : Fin cfg0.N) (i : S2048x16384.Idx) :
    i ∈ ((cfg0.win 4).blk t).view.set ↔ ∀ a : Fin 2, win0_4.index t a * S64x16384.size a ≤ (i a).val ∧ (i a).val < win0_4.index t a * S64x16384.size a + S64x16384.size a := by
  show i ∈ ((View.whole main_v99).slice (win0_4.rect t)).set ↔ _
  rw [View.set_slice_whole, Rect.mem_set_unit]
  exact Iff.rfl

/-- Entry `(r, p)` of the result's block at point `t` is entry `(64 t + r, p)` of the array. -/
theorem emb_out (t : Fin cfg0.N) (r : Fin 64) (p : Fin 16384) :
    (((cfg0.win 4).blk t).view.emb (ix2 r p) : S2048x16384.Idx)
      = ix2 (⟨64 * t.val + r.val, by have := t.isLt; have := N_eq; have := r.isLt; omega⟩ : Fin 2048) p := by
  obtain ⟨-, -, -, -, -, -, -, h0, h1⟩ := idx_facts t
  funext a
  apply Fin.ext
  match a with
  | ⟨0, _⟩ => show win0_4.index t (0 : Fin 2) * 64 + 1 * r.val = 64 * t.val + r.val; rw [h0]; omega
  | ⟨1, _⟩ => show win0_4.index t (1 : Fin 2) * 16384 + 1 * p.val = p.val; rw [h1]; omega

/-- THE RESULT ARRAY: if at every point `t` the body leaves rows `64 t … 64 t + 63` of one function `G` in the
    output block, the array ends holding `G`: the 32 blocks tile it, row `b` lying in the block of point `b / 64`. -/
theorem arrAt_out {c : Dev nD} (dat : Dat τ (Elt F) Unit ℕ (UR sig nD τ) ℕ cfg0 c) (G : S2048x16384.Idx → Elt F .f32)
    (hfl : ∀ (t : Fin cfg0.N) (r : Fin 64) (p : Fin 16384),
      (dat.after 4 t : S64x16384.Idx → Elt F .f32) (ix2 r p)
        = G (ix2 (⟨64 * t.val + r.val, by have := t.isLt; have := N_eq; have := r.isLt; omega⟩ : Fin 2048) p)) :
    dat.arrAt 4 cfg0.N = G := by
  refine dat.arrAt_eq_of_cover 4 G (fun t _ => ?_) (fun i => ?_)
  · funext j
    obtain ⟨r, p, rfl⟩ : ∃ (r : Fin 64) (p : Fin 16384), j = ix2 r p := ⟨j 0, j 1, eq_ix2 (n0 := 64) (n1 := 16384) j⟩
    show (dat.after 4 t : S64x16384.Idx → Elt F .f32) (ix2 r p) = _
    rw [hfl t r p, View.read_apply]
    exact (congrArg G (emb_out t r p)).symm
  · have hi0 : (i 0).val < 2048 := (i 0).isLt
    have hi1 : (i 1).val < 16384 := (i 1).isLt
    have hN := N_eq
    refine ⟨⟨(i 0).val / 64, by omega⟩, flush0_4 _, ?_⟩
    rw [mem_blk_out]
    obtain ⟨-, -, -, -, -, -, -, h0, h1⟩ := idx_facts ⟨(i 0).val / 64, by omega⟩
    intro a
    match a with
    | ⟨0, _⟩ =>
      show win0_4.index ⟨(i 0).val / 64, _⟩ (0 : Fin 2) * 64 ≤ (i 0).val ∧ (i 0).val < win0_4.index ⟨(i 0).val / 64, _⟩ (0 : Fin 2) * 64 + 64
      rw [h0]; show (i 0).val / 64 * 64 ≤ (i 0).val ∧ (i 0).val < (i 0).val / 64 * 64 + 64; omega
    | ⟨1, _⟩ =>
      show win0_4.index ⟨(i 0).val / 64, _⟩ (1 : Fin 2) * 16384 ≤ (i 1).val ∧ (i 1).val < win0_4.index ⟨(i 0).val / 64, _⟩ (1 : Fin 2) * 16384 + 16384
      rw [h1]; omega

end Cert.KernelIdeal.Frm

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«119412_j18751827214349_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.HostLine.lean ====
/- The host operations that run before the region, as one line, and the buffer each of them writes. -/
import proofs.«119412_j18751827214349_2_alg».proof.Proof.Gen.KernelIdeal.Launch
import proofs.«119412_j18751827214349_2_alg».proof.Proof.LibAlignedLines
import proofs.«119412_j18751827214349_2_alg».proof.Proof.LibTypedLines
import Idealize.ShloMosaic.PureOps.Ideal

set_option maxRecDepth 16384

noncomputable section

namespace Cert.KernelIdeal.HostVal

open Cert.KernelIdeal Cert.KernelIdeal.Gen Idealize.ShloMosaic
open Idealize.ShloMosaic.StableHlo.AlignedLines Idealize.SL.Sem

/-- The host operations before the region, in program order. -/
abbrev L : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12]

/-- The buffer each of them writes, in the same order. -/
def Wr : List (Ref sig .tc) :=
  [main_cst, main_v0, main_v1, main_v2, main_v3, main_v4, main_v5, main_v6, main_v7, main_v8, main_v9, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v10, main_v11, main_v12, main_v13, main_v14, main_v15, main_v16, main_v17, main_v18, main_v19, main_v20, main_v21, main_v22, main_v23, main_v24, main_v25, main_c_0, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v26, main_v27, main_v28, main_v29, main_v30, main_v31, main_v32, main_v33, main_v34, main_v35, main_v36, main_v37, main_v38, main_v39, main_v40, main_v41, main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v42, main_v43, main_v44, main_v45, main_v46, main_v47, main_v48, main_v49, main_v50, main_v51, main_v52, main_v53, main_v54, main_v55, main_v56, main_v57, main_c_2, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v58, main_v59, main_v60, main_v61, main_v62, main_v63, main_v64, main_v65, main_v66, main_v67, main_v68, main_v69, main_v70, main_v71, main_v72, main_v73, main_c_3, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v74, main_v75, main_v76, main_v77, main_v78, main_v79, main_v80, main_v81, main_v82, main_v83, main_v84, main_v85, main_v86, main_v87, main_v88, main_v89, main_c_4, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v90, main_v91, main_v92, main_v93, main_v94, main_v95, main_v96, main_v97, main_v98]

/-- Operation by operation, the line writes exactly these buffers. -/
theorem aligned : Aligned (τ := τ) L Wr := by
  unfold Wr
  repeat (first | exact List.Forall₂.nil | refine List.Forall₂.cons rfl ?_)

end Cert.KernelIdeal.HostVal

end
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.HostBits.lean ====
import Idealize.ShloMosaic.PureOps.Ideal
import Idealize.ShloMosaic.Lib.ValueIdx
import proofs.«119412_j18751827214349_2_alg».proof.Proof.LibIdealBits

/-! # The floor-division chain on 32-bit words, and a comparison bit as a number

`jnp`'s integer floor division of `x` by `d` is the truncated quotient, less one when the operands' signs differ and
the remainder is not zero. For a dividend `0 ≤ j < 2^31` and a divisor `0 < W < 2^31` the truncated quotient is the
unsigned one, no division corner is met, and the signs differ only for `j = 0`, where the remainder is zero: the
correction never applies and the result is the word of `j / W`. An equality bit of two such words, converted to a
float at the exact instance, is `1` when the numbers agree and `0` otherwise. -/

noncomputable section

namespace Cert.KernelIdeal.HostBits

open Idealize.ShloMosaic Idealize.ShloMosaic.ValueIdx

/-- The sign of a word as a two's-complement integer: `0`, `-1` or `1`. -/
def sgn (x : BitVec 32) : BitVec 32 := if x = 0 then 0 else if x.msb then -1 else 1

/-- The floor-division chain at one element. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

theorem toNat_ofNat_of_lt (j : Nat) (hj : j < 2 ^ 31) : (BitVec.ofNat 32 j).toNat = j := by
  rw [BitVec.toNat_ofNat]; omega

theorem msb_ofNat_of_lt (j : Nat) (hj : j < 2 ^ 31) : (BitVec.ofNat 32 j).msb = false := by
  rw [BitVec.msb_eq_decide, toNat_ofNat_of_lt j hj]
  simp only [decide_eq_false_iff_not, Nat.not_le]
  omega

/-- The chain on a dividend `j < 2^31` and a divisor `0 < W < 2^31` is the word of `j / W`. -/
theorem fdiv_ofNat (j W : Nat) (hj : j < 2 ^ 31) (hW : 0 < W) (hW' : W < 2 ^ 31) :
    fdiv (BitVec.ofNat 32 j) (BitVec.ofNat 32 W) = BitVec.ofNat 32 (j / W) := by
  have hxn := toNat_ofNat_of_lt j hj
  have hdn := toNat_ofNat_of_lt W hW'
  have hxm := msb_ofNat_of_lt j hj
  have hdm := msb_ofNat_of_lt W hW'
  have hd0 : BitVec.ofNat 32 W ≠ 0 := by
    intro h
    have := congrArg BitVec.toNat h
    rw [hdn] at this
    simp at this
    omega
  have hcorner : ¬ IntOp.SDivCorner (BitVec.ofNat 32 j) (BitVec.ofNat 32 W) := by
    rintro (h | ⟨_, h⟩)
    · exact hd0 h
    · have := congrArg BitVec.msb h
      rw [hdm] at this
      exact absurd this (by decide)
  have hq : j / W < 2 ^ 31 := lt_of_le_of_lt (Nat.div_le_self _ _) hj
  have hr : j % W < 2 ^ 31 := lt_of_lt_of_le (Nat.mod_lt _ hW) (le_of_lt hW')
  have hdiv : IntOp.divsi .host (BitVec.ofNat 32 j) (BitVec.ofNat 32 W) = BitVec.ofNat 32 (j / W) := by
    unfold IntOp.divsi
    rw [if_neg hcorner, BitVec.sdiv_eq, hxm, hdm]
    apply BitVec.eq_of_toNat_eq
    rw [toNat_ofNat_of_lt _ hq]
    simp only [BitVec.udiv_eq, BitVec.toNat_udiv, hxn, hdn]
  have hrem : IntOp.remsi .host (BitVec.ofNat 32 j) (BitVec.ofNat 32 W) = BitVec.ofNat 32 (j % W) := by
    unfold IntOp.remsi
    rw [if_neg hcorner, BitVec.srem_eq, hxm, hdm]
    apply BitVec.eq_of_toNat_eq
    rw [toNat_ofNat_of_lt _ hr]
    simp only [BitVec.umod_eq, BitVec.toNat_umod, hxn, hdn]
  have hsd : sgn (BitVec.ofNat 32 W) = 1 := by
    unfold sgn
    rw [if_neg hd0, hdm]
    rfl
  have hsel : IntOp.andi (IntOp.cmpi .ne (sgn (BitVec.ofNat 32 j)) (sgn (BitVec.ofNat 32 W)))
      (IntOp.cmpi .ne (IntOp.remsi .host (BitVec.ofNat 32 j) (BitVec.ofNat 32 W)) 0#32) = 0#1 := by
    rw [hrem, hsd]
    by_cases h0 : j = 0
    · subst h0
      rw [Nat.zero_mod]
      decide
    · have hx0 : BitVec.ofNat 32 j ≠ 0 := by
        intro h
        have := congrArg BitVec.toNat h
        rw [hxn] at this
        simp at this
        exact h0 this
      have hsx : sgn (BitVec.ofNat 32 j) = 1 := by
        unfold sgn
        rw [if_neg hx0, hxm]
        rfl
      rw [hsx]
      unfold IntOp.andi IntOp.cmpi
      simp
  unfold fdiv
  rw [hsel, select_zero, hdiv]

/-- Two numbers below `2^32` are equal exactly when their words are. -/
theorem ofNat_eq_iff (a b : Nat) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat] at this
    omega
  · rintro rfl; rfl

/-- The equality bit of the words of two numbers below `2^32`, converted to a float at the exact instance, is `1` when
    the numbers agree and `0` otherwise. -/
theorem uitofp_cmpi_eq (a b : Nat) (ha : a < 2 ^ 32) (hb : b < 2 ^ 32) :
    FloatOps.uitofp (F := Ideal) .f32 (IntOp.cmpi .eq (BitVec.ofNat 32 a) (BitVec.ofNat 32 b))
      = if a = b then (1 : EReal) else 0 := by
  rw [Cert.LibIdealBits.uitofp_ideal]
  by_cases h : a = b
  · subst h
    rw [if_pos rfl]
    have : IntOp.cmpi .eq (BitVec.ofNat 32 a) (BitVec.ofNat 32 a) = 1#1 := by
      unfold IntOp.cmpi; simp
    rw [this]
    norm_num
  · rw [if_neg h]
    have hne : BitVec.ofNat 32 a ≠ BitVec.ofNat 32 b := fun e => h ((ofNat_eq_iff a b ha hb).1 e)
    have : IntOp.cmpi .eq (BitVec.ofNat 32 a) (BitVec.ofNat 32 b) = 0#1 := by
      unfold IntOp.cmpi
      show BitVec.ofBool (BitVec.ofNat 32 a == BitVec.ofNat 32 b) = 0#1
      rw [beq_eq_false_iff_ne.mpr hne]
      rfl
    rw [this]
    norm_num

end Cert.KernelIdeal.HostBits

end
-- ==== Proof.Spec.lean ====
/-
  The function both programs compute, index by index on the extended reals.

  A row of the encoded signal holds, scale after scale, the coefficients of the dyadic windows: scale `e`
  (windows of width `2^(e+1)`, `e = 0 … 9`) has `16384 / 2^(e+1)` coefficients starting at column
  `off e = 16384 - 16384 / 2^e`.  Output position `p` of a row lies in window `p / 2^(e+1)` of scale `e`, at
  place `p % 2^(e+1)` inside it, and the shared filter's taps for that scale are entries
  `2^(e+1) - 1 …` of the weight vector.  So scale `e` contributes
  `data (b, off e + p / 2^(e+1)) · weights (2^(e+1) - 1 + p % 2^(e+1))` to output `(b, p)`, and every scale
  also adds its bias.  One program adds scale by scale, bias after each (`refAcc`); the other starts from the
  sum of all ten biases and then adds the ten contributions (`kerAcc`).  Addition of extended reals is
  commutative and associative with no side condition, so the two agree (`kerAcc_eq_refAcc`).
-/
import Idealize.ShloMosaic.PureOps.Ideal
import Idealize.ShloMosaic.Lib.ValueIdx

noncomputable section

open scoped BigOperators

namespace Cert.Tsc

open Idealize.ShloMosaic Idealize.ShloMosaic.ValueIdx

/-- The encoded signal, the filter taps and the per-scale biases as functions of an index. -/
abbrev Data := (⟨2, ![2048, 16368]⟩ : Shape).Idx → EReal
abbrev Wts := (⟨1, ![2047]⟩ : Shape).Idx → EReal
abbrev Bias := (⟨1, ![10]⟩ : Shape).Idx → EReal

/-- Column at which scale `e`'s coefficients start in a row of the encoded signal. -/
def off (e : ℕ) : ℕ := 16384 - 16384 / 2 ^ e

/-- A column of the encoded signal from a natural number (reduced into range; every use is in range). -/
def dcol (k : ℕ) : Fin 16368 := ⟨k % 16368, Nat.mod_lt _ (by norm_num)⟩
/-- An entry of the weight vector from a natural number (reduced into range; every use is in range). -/
def wcol (k : ℕ) : Fin 2047 := ⟨k % 2047, Nat.mod_lt _ (by norm_num)⟩
/-- A bias entry from a natural number (reduced into range; every use is in range). -/
def bcol (k : ℕ) : Fin 10 := ⟨k % 10, Nat.mod_lt _ (by norm_num)⟩

/-- What scale `e` contributes to output `(b, p)`: its window's coefficient times the tap at the
    position inside the window. -/
def term (data : Data) (wts : Wts) (e : ℕ) (b : Fin 2048) (p : Fin 16384) : EReal :=
  data (ix2 b (dcol (off e + p.val / 2 ^ (e + 1)))) * wts (ix1 (wcol (2 ^ (e + 1) - 1 + p.val % 2 ^ (e + 1))))

/-- Scale by scale from zero, the scale's bias added after its contribution. -/
def refAcc (data : Data) (wts : Wts) (bias : Bias) (b : Fin 2048) (p : Fin 16384) : ℕ → EReal
  | 0 => 0
  | e + 1 => refAcc data wts bias b p e + term data wts e b p + bias (ix1 (bcol e))

/-- The ten biases summed first (from zero), then the contributions scale by scale. -/
def kerAcc (data : Data) (wts : Wts) (bias : Bias) (b : Fin 2048) (p : Fin 16384) : ℕ → EReal
  | 0 => 0 + ∑ k : Fin 10, bias (ix1 k)
  | e + 1 => kerAcc data wts bias b p e + term data wts e b p

theorem refAcc_eq (data : Data) (wts : Wts) (bias : Bias) (b : Fin 2048) (p : Fin 16384) (n : ℕ) :
    refAcc data wts bias b p n
      = (∑ e ∈ Finset.range n, term data wts e b p) + ∑ e ∈ Finset.range n, bias (ix1 (bcol e)) := by
  induction n with
  | zero => simp [refAcc]
  | succ n ih =>
    rw [refAcc, ih, Finset.sum_range_succ, Finset.sum_range_succ]
    abel

theorem kerAcc_eq (data : Data) (wts : Wts) (bias : Bias) (b : Fin 2048) (p : Fin 16384) (n : ℕ) :
    kerAcc data wts bias b p n
      = (∑ e ∈ Finset.range n, term data wts e b p) + ∑ k : Fin 10, bias (ix1 k) := by
  induction n with
  | zero => simp [kerAcc]
  | succ n ih =>
    rw [kerAcc, ih, Finset.sum_range_succ]
    abel

/-- The ten biases, listed by entry or by scale, are the same sum. -/
theorem bias_sum (bias : Bias) : ∑ e ∈ Finset.range 10, bias (ix1 (bcol e)) = ∑ k : Fin 10, bias (ix1 k) := by
  rw [← Fin.sum_univ_eq_sum_range (fun e => bias (ix1 (bcol e))) 10]
  refine Finset.sum_congr rfl fun k _ => ?_
  congr 2
  exact Fin.ext (Nat.mod_eq_of_lt k.isLt)

/-- Biases first or bias by bias: the same extended real. -/
theorem kerAcc_eq_refAcc (data : Data) (wts : Wts) (bias : Bias) (b : Fin 2048) (p : Fin 16384) :
    kerAcc data wts bias b p 10 = refAcc data wts bias b p 10 := by
  rw [kerAcc_eq, refAcc_eq, bias_sum]

end Cert.Tsc

end
-- ==== Proof.HostVal.lean ====
/- What two buffers hold when the region is entered, read at an index on the extended reals.

   The scalar buffer holds zero plus the sum of the ten biases. The table buffer is six tables side by side, one per
   window width `w = 2, 4, …, 64`; the table of width `w` has 128 rows and `128 w` columns, and its entry at row `k`,
   column `j` is the tap `weights (w - 1 + j % w)` when `j / w = k` and zero otherwise: it is the product of the mask
   `(k = j // w)` — the row number against the floor quotient of the column number, both computed on 32-bit words —
   and the `w` taps repeated 128 times along the columns. Each buffer's final contents are its operation's function of
   the final contents of its operands (the line writes every buffer once); the composite is read index by index. -/
import proofs.«119412_j18751827214349_2_alg».proof.Proof.HostLine
import proofs.«119412_j18751827214349_2_alg».proof.Proof.HostBits
import proofs.«119412_j18751827214349_2_alg».proof.Proof.LibIdealBits
import proofs.«119412_j18751827214349_2_alg».proof.Proof.Spec
import Idealize.ShloMosaic.Lib.Pipeline.Value
import Idealize.ShloMosaic.Lib.IdealHost
import Idealize.ShloMosaic.PureOps.Ideal.Laws
import Idealize.ShloMosaic.Lib.ValueIdx

set_option maxRecDepth 16384

noncomputable section

namespace Cert.KernelIdeal.HostVal

open Cert.KernelIdeal Cert.KernelIdeal.Gen Idealize.ShloMosaic Idealize.ShloMosaic.ValueIdx
open Idealize.ShloMosaic.StableHlo.AlignedLines Idealize.SL.Sem
open Cert.KernelIdeal.HostBits

/-- A typed operation without operands at position `j`: its result, read at its value type, is its value. -/
theorem tnullary_at {l : List (HloOp τ sig (Elt Ideal))} {W : List (Ref sig .tc)} (h : Aligned l W)
    (V : Valuation τ sig (Elt Ideal)) (j : Nat) {Ty : BufTy} (y : StableHlo.TRef sig Ty) (v : Ty.Contents (Elt Ideal))
    (hop : l[j]? = some (StableHlo.TRef.nullary y v)) (hy' : y.ref ∉ W.drop (j + 1)) :
    y.ofBuf (StableHlo.after l V (Proc.devRef .tc y.ref)) = v := by
  obtain ⟨ry, rfl, _, _⟩ := y
  exact h.nullary_at V j hop hy'

/-- The scalar the region reads as its bias: zero plus the ten biases. -/
theorem bias_total' (V₀ : Valuation τ sig (Elt Ideal)) (bias : S10.Idx → EReal) (hb : V₀ (Proc.devRef .tc main_arg2) = bias) :
    (StableHlo.after L V₀ (Proc.devRef .tc main_v1) : S1x1.Idx → EReal) (ix2 0 0)
      = 0 + ∑ k : Fin 10, bias (ix1 k) := by
  have hcst := aligned.nullary_at V₀ 0 rfl (by decide)
  have hv0 := aligned.binary_at V₀ 1 rfl (by decide) (by decide) (by decide)
  have hv1 := aligned.reshape_at V₀ 2 rfl (by decide) (by decide)
  have harg2 := aligned.after_of_not_mem V₀ (x := main_arg2) (by decide)
  rw [hb] at harg2
  generalize StableHlo.after L V₀ = Z at hcst hv0 hv1 harg2 ⊢
  rw [hv1]
  show shapeCast S1x1 (Z (Proc.devRef .tc main_v0)) shapeCasts_S_S1x1 (ix2 0 0) = _
  rw [shapeCast_apply (s := S_) (t := S1x1) (Z (Proc.devRef .tc main_v0)) shapeCasts_S_S1x1 (ix2 0 0) ix0 rfl, hv0]
  rw [hostReduceAdd_apply, hcst, constant_apply, Ideal.ofBits_zero_f32,
    Ideal.hostReduceAdd_total reducesTo_S10_S_d0 (fun b => b.elim0), harg2]
  exact congrArg (fun s => (0 : EReal) + s) (Cert.LibIdealBits.sum_idx1 bias)

/-- The same with the launch contents of the bias buffer in place. -/
theorem bias_total (V₀ : Valuation τ sig (Elt Ideal)) :
    (StableHlo.after L V₀ (Proc.devRef .tc main_v1) : S1x1.Idx → EReal) (ix2 0 0)
      = 0 + Finset.sum (M := EReal) Finset.univ fun k : Fin 10 => (V₀ (Proc.devRef .tc main_arg2) : S10.Idx → EReal) (ix1 k) :=
  bias_total' V₀ _ rfl

/-- The table of width 2 at row `k`, column `j`: row `k` holds the 2 taps from entry 1 of the weight vector in its
    columns `2k … 2k + 1` and zero elsewhere. -/
theorem tab_2 (V₀ : Valuation τ sig (Elt Ideal)) (wts : S2047.Idx → EReal) (hw : V₀ (Proc.devRef .tc main_arg1) = wts)
    (k : Fin 128) (j : Fin 256) :
    (StableHlo.after L V₀ (Proc.devRef .tc main_v17) : S128x256.Idx → EReal) (ix2 k j)
      = (if k.val = j.val / 2 then (1 : EReal) else 0) * wts (ix1 (Cert.Tsc.wcol (2 - 1 + j.val % 2))) := by
  have h0 := aligned.unary_at V₀ 3 rfl (by decide) (by decide)
  have h1 := aligned.reshape_at V₀ 4 rfl (by decide) (by decide)
  have h2 := aligned.unary_at V₀ 5 rfl (by decide) (by decide)
  have h3 := aligned.reshape_at V₀ 6 rfl (by decide) (by decide)
  have h4 := aligned.nullary_at V₀ 7 rfl (by decide)
  have h5 := aligned.unary_at V₀ 8 rfl (by decide) (by decide)
  have h6 := aligned.nullary_at V₀ 9 rfl (by decide)
  have h7 := aligned.unary_at V₀ 10 rfl (by decide) (by decide)
  have h8 := aligned.nullary_at V₀ 11 rfl (by decide)
  have h9 := aligned.tunary_at V₀ 12 _ _ _ rfl (by decide) (by decide)
  have h10 := aligned.tunary_at V₀ 13 _ _ _ rfl (by decide) (by decide)
  have h11 := aligned.tbinary_at V₀ 14 _ _ _ _ rfl (by decide) (by decide) (by decide)
  have h12 := aligned.tunary_at V₀ 15 _ _ _ rfl (by decide) (by decide)
  have h13 := aligned.tunary_at V₀ 16 _ _ _ rfl (by decide) (by decide)
  have h14 := aligned.tunary_at V₀ 17 _ _ _ rfl (by decide) (by decide)
  have h15 := aligned.tbinary_at V₀ 18 _ _ _ _ rfl (by decide) (by decide) (by decide)
  have h16 := aligned.tunary_at V₀ 19 _ _ _ rfl (by decide) (by decide)
  have h17 := aligned.tbinary_at V₀ 20 _ _ _ _ rfl (by decide) (by decide) (by decide)
  have h18 := tnullary_at aligned V₀ 21 _ _ rfl (by decide)
  have h19 := aligned.tunary_at V₀ 22 _ _ _ rfl (by decide) (by decide)
  have h20 := aligned.tbinary_at V₀ 23 _ _ _ _ rfl (by decide) (by decide) (by decide)
  have h21 := aligned.tbinary_at V₀ 24 _ _ _ _ rfl (by decide) (by decide) (by decide)
  have h22 := tnullary_at aligned V₀ 25 _ _ rfl (by decide)
  have h23 := aligned.tunary_at V₀ 26 _ _ _ rfl (by decide) (by decide)
  have h24 := aligned.tbinary_at V₀ 27 _ _ _ _ rfl (by decide) (by decide) (by decide)
  have h25 := aligned.tternary_at V₀ 28 _ _ _ _ _ rfl (by decide) (by decide) (by decide) (by decide)
  have h26 := aligned.unary_at V₀ 29 rfl (by decide) (by decide)
  have h27 := aligned.unary_at V₀ 30 rfl (by decide) (by decide)
  have h28 := aligned.binary_at V₀ 31 rfl (by decide) (by decide) (by decide)
  have h29 := aligned.unary_at V₀ 32 rfl (by decide) (by decide)
  have h30 := aligned.unary_at V₀ 33 rfl (by decide) (by decide)
  have h31 := aligned.unary_at V₀ 34 rfl (by decide) (by decide)
  have h32 := aligned.binary_at V₀ 35 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 256 := j.isLt
  have hklt : k.val < 128 := k.isLt
  have hq0 : j.val / 2 < 128 := by omega
  have hr0 : j.val % 2 < 2 := Nat.mod_lt _ (by norm_num)
  -- the repeated taps at column `j`: the tap at place `j % 2`
  have eD : (Z (Proc.devRef .tc main_v5) : S256.Idx → EReal) (ix1 j) = wts (ix1 (Cert.Tsc.wcol (2 - 1 + j.val % 2))) := by
    refine (congrFun h3 _).trans ?_
    refine (shapeCast_apply (s := S128x2) (t := S256) _ _ _ (ix2 ⟨j.val / 2, hq0⟩ ⟨j.val % 2, hr0⟩)
      (by rw [Shape.rowMajor_val_two, Shape.rowMajor_val_one]
          show j.val / 2 * 2 + j.val % 2 = j.val
          omega)).trans ?_
    refine (congrFun h2 _).trans ?_
    refine (broadcastInDim_apply _ _ _ _ (ix2 0 ⟨j.val % 2, hr0⟩)
      (fun a => match a with | ⟨0, _⟩ => rfl | ⟨1, _⟩ => rfl)).trans ?_
    refine (congrFun h1 _).trans ?_
    refine (shapeCast_apply (s := S2) (t := S1x2) _ _ _ (ix1 ⟨j.val % 2, hr0⟩)
      (by rw [Shape.rowMajor_val_one, Shape.rowMajor_val_two]
          show j.val % 2 = 0 * 2 + j.val % 2
          omega)).trans ?_
    refine (congrFun h0 _).trans ?_
    refine (extractStridedSlice_apply _ _ _ _ (ix1 (Cert.Tsc.wcol (2 - 1 + j.val % 2)))
      (fun a => match a with
        | ⟨0, _⟩ => by show (2 - 1 + j.val % 2) % 2047 = 1 + j.val % 2; omega)).trans ?_
    exact congrFun harg1 _
  -- the row numbers and the column numbers as words
  have eF : (Z (Proc.devRef .tc main_v7) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v9) : S1x256.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 2, element by element
  have eC0 : (Z (Proc.devRef .tc main_call0_v0) : S_.Idx → BitVec 32) ix0 = 2#32 := (congrFun h9 _).trans (congrFun h8 _)
  have e1 : (Z (Proc.devRef .tc main_call0_v1) : S1x256.Idx → BitVec 32) (ix2 0 j) = 2#32 :=
    (congrFun h10 _).trans ((broadcastInDim_scalar_apply _ _ _).trans eC0)
  have e2 : (Z (Proc.devRef .tc main_call0_v2) : S1x256.Idx → BitVec 32) (ix2 0 j) = IntOp.divsi .host (BitVec.ofNat 32 j.val) 2#32 :=
    (congrFun h11 _).trans (congrArg₂ (IntOp.divsi .host) eH e1)
  have e3 : (Z (Proc.devRef .tc main_call0_v3) : S1x256.Idx → BitVec 32) (ix2 0 j) = sgn (BitVec.ofNat 32 j.val) := (congrFun h12 _).trans (congrArg sgn eH)
  have e4 : (Z (Proc.devRef .tc main_call0_v4) : S_.Idx → BitVec 32) ix0 = sgn 2#32 := (congrFun h13 _).trans (congrArg sgn eC0)
  have e5 : (Z (Proc.devRef .tc main_call0_v5) : S1x256.Idx → BitVec 32) (ix2 0 j) = sgn 2#32 :=
    (congrFun h14 _).trans ((broadcastInDim_scalar_apply _ _ _).trans e4)
  have e6 : (Z (Proc.devRef .tc main_call0_v6) : S1x256.Idx → BitVec 1) (ix2 0 j) = IntOp.cmpi .ne (sgn (BitVec.ofNat 32 j.val)) (sgn 2#32) :=
    (congrFun h15 _).trans (congrArg₂ (IntOp.cmpi .ne) e3 e5)
  have e7 : (Z (Proc.devRef .tc main_call0_v7) : S1x256.Idx → BitVec 32) (ix2 0 j) = 2#32 :=
    (congrFun h16 _).trans ((broadcastInDim_scalar_apply _ _ _).trans eC0)
  have e8 : (Z (Proc.devRef .tc main_call0_v8) : S1x256.Idx → BitVec 32) (ix2 0 j) = IntOp.remsi .host (BitVec.ofNat 32 j.val) 2#32 :=
    (congrFun h17 _).trans (congrArg₂ (IntOp.remsi .host) eH e7)
  have e9c : (Z (Proc.devRef .tc main_call0_c) : S_.Idx → BitVec 32) ix0 = 0#32 := congrFun h18 _
  have e9 : (Z (Proc.devRef .tc main_call0_v9) : S1x256.Idx → BitVec 32) (ix2 0 j) = 0#32 :=
    (congrFun h19 _).trans ((broadcastInDim_scalar_apply _ _ _).trans e9c)
  have e10 : (Z (Proc.devRef .tc main_call0_v10) : S1x256.Idx → BitVec 1) (ix2 0 j) = IntOp.cmpi .ne (IntOp.remsi .host (BitVec.ofNat 32 j.val) 2#32) 0#32 :=
    (congrFun h20 _).trans (congrArg₂ (IntOp.cmpi .ne) e8 e9)
  have e11 : (Z (Proc.devRef .tc main_call0_v11) : S1x256.Idx → BitVec 1) (ix2 0 j)
      = IntOp.andi (IntOp.cmpi .ne (sgn (BitVec.ofNat 32 j.val)) (sgn 2#32))
          (IntOp.cmpi .ne (IntOp.remsi .host (BitVec.ofNat 32 j.val) 2#32) 0#32) :=
    (congrFun h21 _).trans (congrArg₂ IntOp.andi e6 e10)
  have e12c : (Z (Proc.devRef .tc main_call0_c_0) : S_.Idx → BitVec 32) ix0 = 1#32 := congrFun h22 _
  have e12 : (Z (Proc.devRef .tc main_call0_v12) : S1x256.Idx → BitVec 32) (ix2 0 j) = 1#32 :=
    (congrFun h23 _).trans ((broadcastInDim_scalar_apply _ _ _).trans e12c)
  have e13 : (Z (Proc.devRef .tc main_call0_v13) : S1x256.Idx → BitVec 32) (ix2 0 j) = IntOp.subi (IntOp.divsi .host (BitVec.ofNat 32 j.val) 2#32) 1#32 :=
    (congrFun h24 _).trans (congrArg₂ IntOp.subi e2 e12)
  have eQ : (Z (Proc.devRef .tc main_v10) : S1x256.Idx → BitVec 32) (ix2 0 j) = BitVec.ofNat 32 (j.val / 2) := by
    refine (congrFun h25 _).trans ?_
    show Scalar.select ((Z (Proc.devRef .tc main_call0_v11) : S1x256.Idx → BitVec 1) (ix2 0 j)) ((Z (Proc.devRef .tc main_call0_v13) : S1x256.Idx → BitVec 32) (ix2 0 j)) ((Z (Proc.devRef .tc main_call0_v2) : S1x256.Idx → BitVec 32) (ix2 0 j)) = _
    rw [e11, e13, e2]
    exact fdiv_ofNat j.val 2 (by omega) (by norm_num) (by norm_num)
  -- the mask: rows against quotients
  have eI : (Z (Proc.devRef .tc main_v11) : S128x256.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v12) : S128x256.Idx → BitVec 32) (ix2 k j) = BitVec.ofNat 32 (j.val / 2) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v14) : S128x256.Idx → EReal) (ix2 k j) = if k.val = j.val / 2 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 2) (by omega) (by omega)))
  -- the taps under every row
  have eN : (Z (Proc.devRef .tc main_v16) : S128x256.Idx → EReal) (ix2 k j) = wts (ix1 (Cert.Tsc.wcol (2 - 1 + j.val % 2))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `0 + j` of the concatenated table is column `j` of the table of width 2. -/
theorem table_2' (V₀ : Valuation τ sig (Elt Ideal)) (wts : S2047.Idx → EReal) (hw : V₀ (Proc.devRef .tc main_arg1) = wts)
    (k : Fin 128) (j : Fin (128 * 2)) (col : Fin 16128) (hcol : col.val = 0 + j.val) :
    (StableHlo.after L V₀ (Proc.devRef .tc main_v98) : S128x16128.Idx → EReal) (ix2 k col)
      = (if k.val = j.val / 2 then (1 : EReal) else 0) * wts (ix1 (Cert.Tsc.wcol (2 - 1 + j.val % 2))) := by
  have h98 := aligned.nary_at V₀ 201 rfl (by decide) (fun i => by fin_cases i <;> decide)
  have ht := tab_2 V₀ wts hw k j
  generalize StableHlo.after L V₀ = Z at h98 ht ⊢
  refine (congrFun h98 _).trans ?_
  refine (concatenate_apply_piece (t := S128x16128) 1 _ _ (ix2 k col) 0 (by show 0 < 6; norm_num) S128x256
    (Z (Proc.devRef .tc main_v17)) rfl rfl 0 rfl (ix2 k j)
    (fun b hb => match b with | ⟨0, _⟩ => rfl | ⟨1, _⟩ => absurd rfl hb) hcol.symm).trans ht

/-- The same with the launch contents of the weight buffer in place. -/
theorem table_2 (V₀ : Valuation τ sig (Elt Ideal)) (k : Fin 128) (j : Fin (128 * 2)) (col : Fin 16128)
    (hcol : col.val = 0 + j.val) :
    (StableHlo.after L V₀ (Proc.devRef .tc main_v98) : S128x16128.Idx → EReal) (ix2 k col)
      = (if k.val = j.val / 2 then (1 : EReal) else 0)
          * (V₀ (Proc.devRef .tc main_arg1) : S2047.Idx → EReal) (ix1 (Cert.Tsc.wcol (2 - 1 + j.val % 2))) :=
  table_2' V₀ _ rfl k j col hcol

/-- The table of width 4 at row `k`, column `j`: row `k` holds the 4 taps from entry 3 of the weight vector in its
    columns `4k … 4k + 3` and zero elsewhere. -/
theorem tab_4 (V₀ : Valuation τ sig (Elt Ideal)) (wts : S2047.Idx → EReal) (hw : V₀ (Proc.devRef .tc main_arg1) = wts)
    (k : Fin 128) (j : Fin 512) :
    (StableHlo.after L V₀ (Proc.devRef .tc main_v33) : S128x512.Idx → EReal) (ix2 k j)
      = (if k.val = j.val / 4 then (1 : EReal) else 0) * wts (ix1 (Cert.Tsc.wcol (4 - 1 + j.val % 4))) := by
  have h0 := aligned.unary_at V₀ 36 rfl (by decide) (by decide)
  have h1 := aligned.reshape_at V₀ 37 rfl (by decide) (by decide)
  have h2 := aligned.unary_at V₀ 38 rfl (by decide) (by decide)
  have h3 := aligned.reshape_at V₀ 39 rfl (by decide) (by decide)
  have h4 := aligned.nullary_at V₀ 40 rfl (by decide)
  have h5 := aligned.unary_at V₀ 41 rfl (by decide) (by decide)
  have h6 := aligned.nullary_at V₀ 42 rfl (by decide)
  have h7 := aligned.unary_at V₀ 43 rfl (by decide) (by decide)
  have h8 := aligned.nullary_at V₀ 44 rfl (by decide)
  have h9 := aligned.tunary_at V₀ 45 _ _ _ rfl (by decide) (by decide)
  have h10 := aligned.tunary_at V₀ 46 _ _ _ rfl (by decide) (by decide)
  have h11 := aligned.tbinary_at V₀ 47 _ _ _ _ rfl (by decide) (by decide) (by decide)
  have h12 := aligned.tunary_at V₀ 48 _ _ _ rfl (by decide) (by decide)
  have h13 := aligned.tunary_at V₀ 49 _ _ _ rfl (by decide) (by decide)
  have h14 := aligned.tunary_at V₀ 50 _ _ _ rfl (by decide) (by decide)
  have h15 := aligned.tbinary_at V₀ 51 _ _ _ _ rfl (by decide) (by decide) (by decide)
  have h16 := aligned.tunary_at V₀ 52 _ _ _ rfl (by decide) (by decide)
  have h17 := aligned.tbinary_at V₀ 53 _ _ _ _ rfl (by decide) (by decide) (by decide)
  have h18 := tnullary_at aligned V₀ 54 _ _ rfl (by decide)
  have h19 := aligned.tunary_at V₀ 55 _ _ _ rfl (by decide) (by decide)
  have h20 := aligned.tbinary_at V₀ 56 _ _ _ _ rfl (by decide) (by decide) (by decide)
  have h21 := aligned.tbinary_at V₀ 57 _ _ _ _ rfl (by decide) (by decide) (by decide)
  have h22 := tnullary_at aligned V₀ 58 _ _ rfl (by decide)
  have h23 := aligned.tunary_at V₀ 59 _ _ _ rfl (by decide) (by decide)
  have h24 := aligned.tbinary_at V₀ 60 _ _ _ _ rfl (by decide) (by decide) (by decide)
  have h25 := aligned.tternary_at V₀ 61 _ _ _ _ _ rfl (by decide) (by decide) (by decide) (by decide)
  have h26 := aligned.unary_at V₀ 62 rfl (by decide) (by decide)
  have h27 := aligned.unary_at V₀ 63 rfl (by decide) (by decide)
  have h28 := aligned.binary_at V₀ 64 rfl (by decide) (by decide) (by decide)
  have h29 := aligned.unary_at V₀ 65 rfl (by decide) (by decide)
  have h30 := aligned.unary_at V₀ 66 rfl (by decide) (by decide)
  have h31 := aligned.unary_at V₀ 67 rfl (by decide) (by decide)
  have h32 := aligned.binary_at V₀ 68 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 512 := j.isLt
  have hklt : k.val < 128 := k.isLt
  have hq0 : j.val / 4 < 128 := by omega
  have hr0 : j.val % 4 < 4 := Nat.mod_lt _ (by norm_num)
  -- the repeated taps at column `j`: the tap at place `j % 4`
  have eD : (Z (Proc.devRef .tc main_v21) : S512.Idx → EReal) (ix1 j) = wts (ix1 (Cert.Tsc.wcol (4 - 1 + j.val % 4))) := by
    refine (congrFun h3 _).trans ?_
    refine (shapeCast_apply (s := S128x4) (t := S512) _ _ _ (ix2 ⟨j.val / 4, hq0⟩ ⟨j.val % 4, hr0⟩)
      (by rw [Shape.rowMajor_val_two, Shape.rowMajor_val_one]
          show j.val / 4 * 4 + j.val % 4 = j.val
          omega)).trans ?_
    refine (congrFun h2 _).trans ?_
    refine (broadcastInDim_apply _ _ _ _ (ix2 0 ⟨j.val % 4, hr0⟩)
      (fun a => match a with | ⟨0, _⟩ => rfl | ⟨1, _⟩ => rfl)).trans ?_
    refine (congrFun h1 _).trans ?_
    refine (shapeCast_apply (s := S4) (t := S1x4) _ _ _ (ix1 ⟨j.val % 4, hr0⟩)
      (by rw [Shape.rowMajor_val_one, Shape.rowMajor_val_two]
          show j.val % 4 = 0 * 4 + j.val % 4
          omega)).trans ?_
    refine (congrFun h0 _).trans ?_
    refine (extractStridedSlice_apply _ _ _ _ (ix1 (Cert.Tsc.wcol (4 - 1 + j.val % 4)))
      (fun a => match a with
        | ⟨0, _⟩ => by show (4 - 1 + j.val % 4) % 2047 = 3 + j.val % 4; omega)).trans ?_
    exact congrFun harg1 _
  -- the row numbers and the column numbers as words
  have eF : (Z (Proc.devRef .tc main_v23) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v25) : S1x512.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 4, element by element
  have eC0 : (Z (Proc.devRef .tc main_call1_v0) : S_.Idx → BitVec 32) ix0 = 4#32 := (congrFun h9 _).trans (congrFun h8 _)
  have e1 : (Z (Proc.devRef .tc main_call1_v1) : S1x512.Idx → BitVec 32) (ix2 0 j) = 4#32 :=
    (congrFun h10 _).trans ((broadcastInDim_scalar_apply _ _ _).trans eC0)
  have e2 : (Z (Proc.devRef .tc main_call1_v2) : S1x512.Idx → BitVec 32) (ix2 0 j) = IntOp.divsi .host (BitVec.ofNat 32 j.val) 4#32 :=
    (congrFun h11 _).trans (congrArg₂ (IntOp.divsi .host) eH e1)
  have e3 : (Z (Proc.devRef .tc main_call1_v3) : S1x512.Idx → BitVec 32) (ix2 0 j) = sgn (BitVec.ofNat 32 j.val) := (congrFun h12 _).trans (congrArg sgn eH)
  have e4 : (Z (Proc.devRef .tc main_call1_v4) : S_.Idx → BitVec 32) ix0 = sgn 4#32 := (congrFun h13 _).trans (congrArg sgn eC0)
  have e5 : (Z (Proc.devRef .tc main_call1_v5) : S1x512.Idx → BitVec 32) (ix2 0 j) = sgn 4#32 :=
    (congrFun h14 _).trans ((broadcastInDim_scalar_apply _ _ _).trans e4)
  have e6 : (Z (Proc.devRef .tc main_call1_v6) : S1x512.Idx → BitVec 1) (ix2 0 j) = IntOp.cmpi .ne (sgn (BitVec.ofNat 32 j.val)) (sgn 4#32) :=
    (congrFun h15 _).trans (congrArg₂ (IntOp.cmpi .ne) e3 e5)
  have e7 : (Z (Proc.devRef .tc main_call1_v7) : S1x512.Idx → BitVec 32) (ix2 0 j) = 4#32 :=
    (congrFun h16 _).trans ((broadcastInDim_scalar_apply _ _ _).trans eC0)
  have e8 : (Z (Proc.devRef .tc main_call1_v8) : S1x512.Idx → BitVec 32) (ix2 0 j) = IntOp.remsi .host (BitVec.ofNat 32 j.val) 4#32 :=
    (congrFun h17 _).trans (congrArg₂ (IntOp.remsi .host) eH e7)
  have e9c : (Z (Proc.devRef .tc main_call1_c) : S_.Idx → BitVec 32) ix0 = 0#32 := congrFun h18 _
  have e9 : (Z (Proc.devRef .tc main_call1_v9) : S1x512.Idx → BitVec 32) (ix2 0 j) = 0#32 :=
    (congrFun h19 _).trans ((broadcastInDim_scalar_apply _ _ _).trans e9c)
  have e10 : (Z (Proc.devRef .tc main_call1_v10) : S1x512.Idx → BitVec 1) (ix2 0 j) = IntOp.cmpi .ne (IntOp.remsi .host (BitVec.ofNat 32 j.val) 4#32) 0#32 :=
    (congrFun h20 _).trans (congrArg₂ (IntOp.cmpi .ne) e8 e9)
  have e11 : (Z (Proc.devRef .tc main_call1_v11) : S1x512.Idx → BitVec 1) (ix2 0 j)
      = IntOp.andi (IntOp.cmpi .ne (sgn (BitVec.ofNat 32 j.val)) (sgn 4#32))
          (IntOp.cmpi .ne (IntOp.remsi .host (BitVec.ofNat 32 j.val) 4#32) 0#32) :=
    (congrFun h21 _).trans (congrArg₂ IntOp.andi e6 e10)
  have e12c : (Z (Proc.devRef .tc main_call1_c_0) : S_.Idx → BitVec 32) ix0 = 1#32 := congrFun h22 _
  have e12 : (Z (Proc.devRef .tc main_call1_v12) : S1x512.Idx → BitVec 32) (ix2 0 j) = 1#32 :=
    (congrFun h23 _).trans ((broadcastInDim_scalar_apply _ _ _).trans e12c)
  have e13 : (Z (Proc.devRef .tc main_call1_v13) : S1x512.Idx → BitVec 32) (ix2 0 j) = IntOp.subi (IntOp.divsi .host (BitVec.ofNat 32 j.val) 4#32) 1#32 :=
    (congrFun h24 _).trans (congrArg₂ IntOp.subi e2 e12)
  have eQ : (Z (Proc.devRef .tc main_v26) : S1x512.Idx → BitVec 32) (ix2 0 j) = BitVec.ofNat 32 (j.val / 4) := by
    refine (congrFun h25 _).trans ?_
    show Scalar.select ((Z (Proc.devRef .tc main_call1_v11) : S1x512.Idx → BitVec 1) (ix2 0 j)) ((Z (Proc.devRef .tc main_call1_v13) : S1x512.Idx → BitVec 32) (ix2 0 j)) ((Z (Proc.devRef .tc main_call1_v2) : S1x512.Idx → BitVec 32) (ix2 0 j)) = _
    rw [e11, e13, e2]
    exact fdiv_ofNat j.val 4 (by omega) (by norm_num) (by norm_num)
  -- the mask: rows against quotients
  have eI : (Z (Proc.devRef .tc main_v27) : S128x512.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v28) : S128x512.Idx → BitVec 32) (ix2 k j) = BitVec.ofNat 32 (j.val / 4) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v30) : S128x512.Idx → EReal) (ix2 k j) = if k.val = j.val / 4 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 4) (by omega) (by omega)))
  -- the taps under every row
  have eN : (Z (Proc.devRef .tc main_v32) : S128x512.Idx → EReal) (ix2 k j) = wts (ix1 (Cert.Tsc.wcol (4 - 1 + j.val % 4))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `256 + j` of the concatenated table is column `j` of the table of width 4. -/
theorem table_4' (V₀ : Valuation τ sig (Elt Ideal)) (wts : S2047.Idx → EReal) (hw : V₀ (Proc.devRef .tc main_arg1) = wts)
    (k : Fin 128) (j : Fin (128 * 4)) (col : Fin 16128) (hcol : col.val = 256 + j.val) :
    (StableHlo.after L V₀ (Proc.devRef .tc main_v98) : S128x16128.Idx → EReal) (ix2 k col)
      = (if k.val = j.val / 4 then (1 : EReal) else 0) * wts (ix1 (Cert.Tsc.wcol (4 - 1 + j.val % 4))) := by
  have h98 := aligned.nary_at V₀ 201 rfl (by decide) (fun i => by fin_cases i <;> decide)
  have ht := tab_4 V₀ wts hw k j
  generalize StableHlo.after L V₀ = Z at h98 ht ⊢
  refine (congrFun h98 _).trans ?_
  refine (concatenate_apply_piece (t := S128x16128) 1 _ _ (ix2 k col) 1 (by show 1 < 6; norm_num) S128x512
    (Z (Proc.devRef .tc main_v33)) rfl rfl 256 rfl (ix2 k j)
    (fun b hb => match b with | ⟨0, _⟩ => rfl | ⟨1, _⟩ => absurd rfl hb) hcol.symm).trans ht

/-- The same with the launch contents of the weight buffer in place. -/
theorem table_4 (V₀ : Valuation τ sig (Elt Ideal)) (k : Fin 128) (j : Fin (128 * 4)) (col : Fin 16128)
    (hcol : col.val = 256 + j.val) :
    (StableHlo.after L V₀ (Proc.devRef .tc main_v98) : S128x16128.Idx → EReal) (ix2 k col)
      = (if k.val = j.val / 4 then (1 : EReal) else 0)
          * (V₀ (Proc.devRef .tc main_arg1) : S2047.Idx → EReal) (ix1 (Cert.Tsc.wcol (4 - 1 + j.val % 4))) :=
  table_4' V₀ _ rfl k j col hcol

/-- The table of width 8 at row `k`, column `j`: row `k` holds the 8 taps from entry 7 of the weight vector in its
    columns `8k … 8k + 7` and zero elsewhere. -/
theorem tab_8 (V₀ : Valuation τ sig (Elt Ideal)) (wts : S2047.Idx → EReal) (hw : V₀ (Proc.devRef .tc main_arg1) = wts)
    (k : Fin 128) (j : Fin 1024) :
    (StableHlo.after L V₀ (Proc.devRef .tc main_v49) : S128x1024.Idx → EReal) (ix2 k j)
      = (if k.val = j.val / 8 then (1 : EReal) else 0) * wts (ix1 (Cert.Tsc.wcol (8 - 1 + j.val % 8))) := by
  have h0 := aligned.unary_at V₀ 69 rfl (by decide) (by decide)
  have h1 := aligned.reshape_at V₀ 70 rfl (by decide) (by decide)
  have h2 := aligned.unary_at V₀ 71 rfl (by decide) (by decide)
  have h3 := aligned.reshape_at V₀ 72 rfl (by decide) (by decide)
  have h4 := aligned.nullary_at V₀ 73 rfl (by decide)
  have h5 := aligned.unary_at V₀ 74 rfl (by decide) (by decide)
  have h6 := aligned.nullary_at V₀ 75 rfl (by decide)
  have h7 := aligned.unary_at V₀ 76 rfl (by decide) (by decide)
  have h8 := aligned.nullary_at V₀ 77 rfl (by decide)
  have h9 := aligned.tunary_at V₀ 78 _ _ _ rfl (by decide) (by decide)
  have h10 := aligned.tunary_at V₀ 79 _ _ _ rfl (by decide) (by decide)
  have h11 := aligned.tbinary_at V₀ 80 _ _ _ _ rfl (by decide) (by decide) (by decide)
  have h12 := aligned.tunary_at V₀ 81 _ _ _ rfl (by decide) (by decide)
  have h13 := aligned.tunary_at V₀ 82 _ _ _ rfl (by decide) (by decide)
  have h14 := aligned.tunary_at V₀ 83 _ _ _ rfl (by decide) (by decide)
  have h15 := aligned.tbinary_at V₀ 84 _ _ _ _ rfl (by decide) (by decide) (by decide)
  have h16 := aligned.tunary_at V₀ 85 _ _ _ rfl (by decide) (by decide)
  have h17 := aligned.tbinary_at V₀ 86 _ _ _ _ rfl (by decide) (by decide) (by decide)
  have h18 := tnullary_at aligned V₀ 87 _ _ rfl (by decide)
  have h19 := aligned.tunary_at V₀ 88 _ _ _ rfl (by decide) (by decide)
  have h20 := aligned.tbinary_at V₀ 89 _ _ _ _ rfl (by decide) (by decide) (by decide)
  have h21 := aligned.tbinary_at V₀ 90 _ _ _ _ rfl (by decide) (by decide) (by decide)
  have h22 := tnullary_at aligned V₀ 91 _ _ rfl (by decide)
  have h23 := aligned.tunary_at V₀ 92 _ _ _ rfl (by decide) (by decide)
  have h24 := aligned.tbinary_at V₀ 93 _ _ _ _ rfl (by decide) (by decide) (by decide)
  have h25 := aligned.tternary_at V₀ 94 _ _ _ _ _ rfl (by decide) (by decide) (by decide) (by decide)
  have h26 := aligned.unary_at V₀ 95 rfl (by decide) (by decide)
  have h27 := aligned.unary_at V₀ 96 rfl (by decide) (by decide)
  have h28 := aligned.binary_at V₀ 97 rfl (by decide) (by decide) (by decide)
  have h29 := aligned.unary_at V₀ 98 rfl (by decide) (by decide)
  have h30 := aligned.unary_at V₀ 99 rfl (by decide) (by decide)
  have h31 := aligned.unary_at V₀ 100 rfl (by decide) (by decide)
  have h32 := aligned.binary_at V₀ 101 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 1024 := j.isLt
  have hklt : k.val < 128 := k.isLt
  have hq0 : j.val / 8 < 128 := by omega
  have hr0 : j.val % 8 < 8 := Nat.mod_lt _ (by norm_num)
  -- the repeated taps at column `j`: the tap at place `j % 8`
  have eD : (Z (Proc.devRef .tc main_v37) : S1024.Idx → EReal) (ix1 j) = wts (ix1 (Cert.Tsc.wcol (8 - 1 + j.val % 8))) := by
    refine (congrFun h3 _).trans ?_
    refine (shapeCast_apply (s := S128x8) (t := S1024) _ _ _ (ix2 ⟨j.val / 8, hq0⟩ ⟨j.val % 8, hr0⟩)
      (by rw [Shape.rowMajor_val_two, Shape.rowMajor_val_one]
          show j.val / 8 * 8 + j.val % 8 = j.val
          omega)).trans ?_
    refine (congrFun h2 _).trans ?_
    refine (broadcastInDim_apply _ _ _ _ (ix2 0 ⟨j.val % 8, hr0⟩)
      (fun a => match a with | ⟨0, _⟩ => rfl | ⟨1, _⟩ => rfl)).trans ?_
    refine (congrFun h1 _).trans ?_
    refine (shapeCast_apply (s := S8) (t := S1x8) _ _ _ (ix1 ⟨j.val % 8, hr0⟩)
      (by rw [Shape.rowMajor_val_one, Shape.rowMajor_val_two]
          show j.val % 8 = 0 * 8 + j.val % 8
          omega)).trans ?_
    refine (congrFun h0 _).trans ?_
    refine (extractStridedSlice_apply _ _ _ _ (ix1 (Cert.Tsc.wcol (8 - 1 + j.val % 8)))
      (fun a => match a with
        | ⟨0, _⟩ => by show (8 - 1 + j.val % 8) % 2047 = 7 + j.val % 8; omega)).trans ?_
    exact congrFun harg1 _
  -- the row numbers and the column numbers as words
  have eF : (Z (Proc.devRef .tc main_v39) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v41) : S1x1024.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 8, element by element
  have eC0 : (Z (Proc.devRef .tc main_call2_v0) : S_.Idx → BitVec 32) ix0 = 8#32 := (congrFun h9 _).trans (congrFun h8 _)
  have e1 : (Z (Proc.devRef .tc main_call2_v1) : S1x1024.Idx → BitVec 32) (ix2 0 j) = 8#32 :=
    (congrFun h10 _).trans ((broadcastInDim_scalar_apply _ _ _).trans eC0)
  have e2 : (Z (Proc.devRef .tc main_call2_v2) : S1x1024.Idx → BitVec 32) (ix2 0 j) = IntOp.divsi .host (BitVec.ofNat 32 j.val) 8#32 :=
    (congrFun h11 _).trans (congrArg₂ (IntOp.divsi .host) eH e1)
  have e3 : (Z (Proc.devRef .tc main_call2_v3) : S1x1024.Idx → BitVec 32) (ix2 0 j) = sgn (BitVec.ofNat 32 j.val) := (congrFun h12 _).trans (congrArg sgn eH)
  have e4 : (Z (Proc.devRef .tc main_call2_v4) : S_.Idx → BitVec 32) ix0 = sgn 8#32 := (congrFun h13 _).trans (congrArg sgn eC0)
  have e5 : (Z (Proc.devRef .tc main_call2_v5) : S1x1024.Idx → BitVec 32) (ix2 0 j) = sgn 8#32 :=
    (congrFun h14 _).trans ((broadcastInDim_scalar_apply _ _ _).trans e4)
  have e6 : (Z (Proc.devRef .tc main_call2_v6) : S1x1024.Idx → BitVec 1) (ix2 0 j) = IntOp.cmpi .ne (sgn (BitVec.ofNat 32 j.val)) (sgn 8#32) :=
    (congrFun h15 _).trans (congrArg₂ (IntOp.cmpi .ne) e3 e5)
  have e7 : (Z (Proc.devRef .tc main_call2_v7) : S1x1024.Idx → BitVec 32) (ix2 0 j) = 8#32 :=
    (congrFun h16 _).trans ((broadcastInDim_scalar_apply _ _ _).trans eC0)
  have e8 : (Z (Proc.devRef .tc main_call2_v8) : S1x1024.Idx → BitVec 32) (ix2 0 j) = IntOp.remsi .host (BitVec.ofNat 32 j.val) 8#32 :=
    (congrFun h17 _).trans (congrArg₂ (IntOp.remsi .host) eH e7)
  have e9c : (Z (Proc.devRef .tc main_call2_c) : S_.Idx → BitVec 32) ix0 = 0#32 := congrFun h18 _
  have e9 : (Z (Proc.devRef .tc main_call2_v9) : S1x1024.Idx → BitVec 32) (ix2 0 j) = 0#32 :=
    (congrFun h19 _).trans ((broadcastInDim_scalar_apply _ _ _).trans e9c)
  have e10 : (Z (Proc.devRef .tc main_call2_v10) : S1x1024.Idx → BitVec 1) (ix2 0 j) = IntOp.cmpi .ne (IntOp.remsi .host (BitVec.ofNat 32 j.val) 8#32) 0#32 :=
    (congrFun h20 _).trans (congrArg₂ (IntOp.cmpi .ne) e8 e9)
  have e11 : (Z (Proc.devRef .tc main_call2_v11) : S1x1024.Idx → BitVec 1) (ix2 0 j)
      = IntOp.andi (IntOp.cmpi .ne (sgn (BitVec.ofNat 32 j.val)) (sgn 8#32))
          (IntOp.cmpi .ne (IntOp.remsi .host (BitVec.ofNat 32 j.val) 8#32) 0#32) :=
    (congrFun h21 _).trans (congrArg₂ IntOp.andi e6 e10)
  have e12c : (Z (Proc.devRef .tc main_call2_c_0) : S_.Idx → BitVec 32) ix0 = 1#32 := congrFun h22 _
  have e12 : (Z (Proc.devRef .tc main_call2_v12) : S1x1024.Idx → BitVec 32) (ix2 0 j) = 1#32 :=
    (congrFun h23 _).trans ((broadcastInDim_scalar_apply _ _ _).trans e12c)
  have e13 : (Z (Proc.devRef .tc main_call2_v13) : S1x1024.Idx → BitVec 32) (ix2 0 j) = IntOp.subi (IntOp.divsi .host (BitVec.ofNat 32 j.val) 8#32) 1#32 :=
    (congrFun h24 _).trans (congrArg₂ IntOp.subi e2 e12)
  have eQ : (Z (Proc.devRef .tc main_v42) : S1x1024.Idx → BitVec 32) (ix2 0 j) = BitVec.ofNat 32 (j.val / 8) := by
    refine (congrFun h25 _).trans ?_
    show Scalar.select ((Z (Proc.devRef .tc main_call2_v11) : S1x1024.Idx → BitVec 1) (ix2 0 j)) ((Z (Proc.devRef .tc main_call2_v13) : S1x1024.Idx → BitVec 32) (ix2 0 j)) ((Z (Proc.devRef .tc main_call2_v2) : S1x1024.Idx → BitVec 32) (ix2 0 j)) = _
    rw [e11, e13, e2]
    exact fdiv_ofNat j.val 8 (by omega) (by norm_num) (by norm_num)
  -- the mask: rows against quotients
  have eI : (Z (Proc.devRef .tc main_v43) : S128x1024.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v44) : S128x1024.Idx → BitVec 32) (ix2 k j) = BitVec.ofNat 32 (j.val / 8) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v46) : S128x1024.Idx → EReal) (ix2 k j) = if k.val = j.val / 8 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 8) (by omega) (by omega)))
  -- the taps under every row
  have eN : (Z (Proc.devRef .tc main_v48) : S128x1024.Idx → EReal) (ix2 k j) = wts (ix1 (Cert.Tsc.wcol (8 - 1 + j.val % 8))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `768 + j` of the concatenated table is column `j` of the table of width 8. -/
theorem table_8' (V₀ : Valuation τ sig (Elt Ideal)) (wts : S2047.Idx → EReal) (hw : V₀ (Proc.devRef .tc main_arg1) = wts)
    (k : Fin 128) (j : Fin (128 * 8)) (col : Fin 16128) (hcol : col.val = 768 + j.val) :
    (StableHlo.after L V₀ (Proc.devRef .tc main_v98) : S128x16128.Idx → EReal) (ix2 k col)
      = (if k.val = j.val / 8 then (1 : EReal) else 0) * wts (ix1 (Cert.Tsc.wcol (8 - 1 + j.val % 8))) := by
  have h98 := aligned.nary_at V₀ 201 rfl (by decide) (fun i => by fin_cases i <;> decide)
  have ht := tab_8 V₀ wts hw k j
  generalize StableHlo.after L V₀ = Z at h98 ht ⊢
  refine (congrFun h98 _).trans ?_
  refine (concatenate_apply_piece (t := S128x16128) 1 _ _ (ix2 k col) 2 (by show 2 < 6; norm_num) S128x1024
    (Z (Proc.devRef .tc main_v49)) rfl rfl 768 rfl (ix2 k j)
    (fun b hb => match b with | ⟨0, _⟩ => rfl | ⟨1, _⟩ => absurd rfl hb) hcol.symm).trans ht

/-- The same with the launch contents of the weight buffer in place. -/
theorem table_8 (V₀ : Valuation τ sig (Elt Ideal)) (k : Fin 128) (j : Fin (128 * 8)) (col : Fin 16128)
    (hcol : col.val = 768 + j.val) :
    (StableHlo.after L V₀ (Proc.devRef .tc main_v98) : S128x16128.Idx → EReal) (ix2 k col)
      = (if k.val = j.val / 8 then (1 : EReal) else 0)
          * (V₀ (Proc.devRef .tc main_arg1) : S2047.Idx → EReal) (ix1 (Cert.Tsc.wcol (8 - 1 + j.val % 8))) :=
  table_8' V₀ _ rfl k j col hcol

/-- The table of width 16 at row `k`, column `j`: row `k` holds the 16 taps from entry 15 of the weight vector in its
    columns `16k … 16k + 15` and zero elsewhere. -/
theorem tab_16 (V₀ : Valuation τ sig (Elt Ideal)) (wts : S2047.Idx → EReal) (hw : V₀ (Proc.devRef .tc main_arg1) = wts)
    (k : Fin 128) (j : Fin 2048) :
    (StableHlo.after L V₀ (Proc.devRef .tc main_v65) : S128x2048.Idx → EReal) (ix2 k j)
      = (if k.val = j.val / 16 then (1 : EReal) else 0) * wts (ix1 (Cert.Tsc.wcol (16 - 1 + j.val % 16))) := by
  have h0 := aligned.unary_at V₀ 102 rfl (by decide) (by decide)
  have h1 := aligned.reshape_at V₀ 103 rfl (by decide) (by decide)
  have h2 := aligned.unary_at V₀ 104 rfl (by decide) (by decide)
  have h3 := aligned.reshape_at V₀ 105 rfl (by decide) (by decide)
  have h4 := aligned.nullary_at V₀ 106 rfl (by decide)
  have h5 := aligned.unary_at V₀ 107 rfl (by decide) (by decide)
  have h6 := aligned.nullary_at V₀ 108 rfl (by decide)
  have h7 := aligned.unary_at V₀ 109 rfl (by decide) (by decide)
  have h8 := aligned.nullary_at V₀ 110 rfl (by decide)
  have h9 := aligned.tunary_at V₀ 111 _ _ _ rfl (by decide) (by decide)
  have h10 := aligned.tunary_at V₀ 112 _ _ _ rfl (by decide) (by decide)
  have h11 := aligned.tbinary_at V₀ 113 _ _ _ _ rfl (by decide) (by decide) (by decide)
  have h12 := aligned.tunary_at V₀ 114 _ _ _ rfl (by decide) (by decide)
  have h13 := aligned.tunary_at V₀ 115 _ _ _ rfl (by decide) (by decide)
  have h14 := aligned.tunary_at V₀ 116 _ _ _ rfl (by decide) (by decide)
  have h15 := aligned.tbinary_at V₀ 117 _ _ _ _ rfl (by decide) (by decide) (by decide)
  have h16 := aligned.tunary_at V₀ 118 _ _ _ rfl (by decide) (by decide)
  have h17 := aligned.tbinary_at V₀ 119 _ _ _ _ rfl (by decide) (by decide) (by decide)
  have h18 := tnullary_at aligned V₀ 120 _ _ rfl (by decide)
  have h19 := aligned.tunary_at V₀ 121 _ _ _ rfl (by decide) (by decide)
  have h20 := aligned.tbinary_at V₀ 122 _ _ _ _ rfl (by decide) (by decide) (by decide)
  have h21 := aligned.tbinary_at V₀ 123 _ _ _ _ rfl (by decide) (by decide) (by decide)
  have h22 := tnullary_at aligned V₀ 124 _ _ rfl (by decide)
  have h23 := aligned.tunary_at V₀ 125 _ _ _ rfl (by decide) (by decide)
  have h24 := aligned.tbinary_at V₀ 126 _ _ _ _ rfl (by decide) (by decide) (by decide)
  have h25 := aligned.tternary_at V₀ 127 _ _ _ _ _ rfl (by decide) (by decide) (by decide) (by decide)
  have h26 := aligned.unary_at V₀ 128 rfl (by decide) (by decide)
  have h27 := aligned.unary_at V₀ 129 rfl (by decide) (by decide)
  have h28 := aligned.binary_at V₀ 130 rfl (by decide) (by decide) (by decide)
  have h29 := aligned.unary_at V₀ 131 rfl (by decide) (by decide)
  have h30 := aligned.unary_at V₀ 132 rfl (by decide) (by decide)
  have h31 := aligned.unary_at V₀ 133 rfl (by decide) (by decide)
  have h32 := aligned.binary_at V₀ 134 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 2048 := j.isLt
  have hklt : k.val < 128 := k.isLt
  have hq0 : j.val / 16 < 128 := by omega
  have hr0 : j.val % 16 < 16 := Nat.mod_lt _ (by norm_num)
  -- the repeated taps at column `j`: the tap at place `j % 16`
  have eD : (Z (Proc.devRef .tc main_v53) : S2048.Idx → EReal) (ix1 j) = wts (ix1 (Cert.Tsc.wcol (16 - 1 + j.val % 16))) := by
    refine (congrFun h3 _).trans ?_
    refine (shapeCast_apply (s := S128x16) (t := S2048) _ _ _ (ix2 ⟨j.val / 16, hq0⟩ ⟨j.val % 16, hr0⟩)
      (by rw [Shape.rowMajor_val_two, Shape.rowMajor_val_one]
          show j.val / 16 * 16 + j.val % 16 = j.val
          omega)).trans ?_
    refine (congrFun h2 _).trans ?_
    refine (broadcastInDim_apply _ _ _ _ (ix2 0 ⟨j.val % 16, hr0⟩)
      (fun a => match a with | ⟨0, _⟩ => rfl | ⟨1, _⟩ => rfl)).trans ?_
    refine (congrFun h1 _).trans ?_
    refine (shapeCast_apply (s := S16) (t := S1x16) _ _ _ (ix1 ⟨j.val % 16, hr0⟩)
      (by rw [Shape.rowMajor_val_one, Shape.rowMajor_val_two]
          show j.val % 16 = 0 * 16 + j.val % 16
          omega)).trans ?_
    refine (congrFun h0 _).trans ?_
    refine (extractStridedSlice_apply _ _ _ _ (ix1 (Cert.Tsc.wcol (16 - 1 + j.val % 16)))
      (fun a => match a with
        | ⟨0, _⟩ => by show (16 - 1 + j.val % 16) % 2047 = 15 + j.val % 16; omega)).trans ?_
    exact congrFun harg1 _
  -- the row numbers and the column numbers as words
  have eF : (Z (Proc.devRef .tc main_v55) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v57) : S1x2048.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 16, element by element
  have eC0 : (Z (Proc.devRef .tc main_call3_v0) : S_.Idx → BitVec 32) ix0 = 16#32 := (congrFun h9 _).trans (congrFun h8 _)
  have e1 : (Z (Proc.devRef .tc main_call3_v1) : S1x2048.Idx → BitVec 32) (ix2 0 j) = 16#32 :=
    (congrFun h10 _).trans ((broadcastInDim_scalar_apply _ _ _).trans eC0)
  have e2 : (Z (Proc.devRef .tc main_call3_v2) : S1x2048.Idx → BitVec 32) (ix2 0 j) = IntOp.divsi .host (BitVec.ofNat 32 j.val) 16#32 :=
    (congrFun h11 _).trans (congrArg₂ (IntOp.divsi .host) eH e1)
  have e3 : (Z (Proc.devRef .tc main_call3_v3) : S1x2048.Idx → BitVec 32) (ix2 0 j) = sgn (BitVec.ofNat 32 j.val) := (congrFun h12 _).trans (congrArg sgn eH)
  have e4 : (Z (Proc.devRef .tc main_call3_v4) : S_.Idx → BitVec 32) ix0 = sgn 16#32 := (congrFun h13 _).trans (congrArg sgn eC0)
  have e5 : (Z (Proc.devRef .tc main_call3_v5) : S1x2048.Idx → BitVec 32) (ix2 0 j) = sgn 16#32 :=
    (congrFun h14 _).trans ((broadcastInDim_scalar_apply _ _ _).trans e4)
  have e6 : (Z (Proc.devRef .tc main_call3_v6) : S1x2048.Idx → BitVec 1) (ix2 0 j) = IntOp.cmpi .ne (sgn (BitVec.ofNat 32 j.val)) (sgn 16#32) :=
    (congrFun h15 _).trans (congrArg₂ (IntOp.cmpi .ne) e3 e5)
  have e7 : (Z (Proc.devRef .tc main_call3_v7) : S1x2048.Idx → BitVec 32) (ix2 0 j) = 16#32 :=
    (congrFun h16 _).trans ((broadcastInDim_scalar_apply _ _ _).trans eC0)
  have e8 : (Z (Proc.devRef .tc main_call3_v8) : S1x2048.Idx → BitVec 32) (ix2 0 j) = IntOp.remsi .host (BitVec.ofNat 32 j.val) 16#32 :=
    (congrFun h17 _).trans (congrArg₂ (IntOp.remsi .host) eH e7)
  have e9c : (Z (Proc.devRef .tc main_call3_c) : S_.Idx → BitVec 32) ix0 = 0#32 := congrFun h18 _
  have e9 : (Z (Proc.devRef .tc main_call3_v9) : S1x2048.Idx → BitVec 32) (ix2 0 j) = 0#32 :=
    (congrFun h19 _).trans ((broadcastInDim_scalar_apply _ _ _).trans e9c)
  have e10 : (Z (Proc.devRef .tc main_call3_v10) : S1x2048.Idx → BitVec 1) (ix2 0 j) = IntOp.cmpi .ne (IntOp.remsi .host (BitVec.ofNat 32 j.val) 16#32) 0#32 :=
    (congrFun h20 _).trans (congrArg₂ (IntOp.cmpi .ne) e8 e9)
  have e11 : (Z (Proc.devRef .tc main_call3_v11) : S1x2048.Idx → BitVec 1) (ix2 0 j)
      = IntOp.andi (IntOp.cmpi .ne (sgn (BitVec.ofNat 32 j.val)) (sgn 16#32))
          (IntOp.cmpi .ne (IntOp.remsi .host (BitVec.ofNat 32 j.val) 16#32) 0#32) :=
    (congrFun h21 _).trans (congrArg₂ IntOp.andi e6 e10)
  have e12c : (Z (Proc.devRef .tc main_call3_c_0) : S_.Idx → BitVec 32) ix0 = 1#32 := congrFun h22 _
  have e12 : (Z (Proc.devRef .tc main_call3_v12) : S1x2048.Idx → BitVec 32) (ix2 0 j) = 1#32 :=
    (congrFun h23 _).trans ((broadcastInDim_scalar_apply _ _ _).trans e12c)
  have e13 : (Z (Proc.devRef .tc main_call3_v13) : S1x2048.Idx → BitVec 32) (ix2 0 j) = IntOp.subi (IntOp.divsi .host (BitVec.ofNat 32 j.val) 16#32) 1#32 :=
    (congrFun h24 _).trans (congrArg₂ IntOp.subi e2 e12)
  have eQ : (Z (Proc.devRef .tc main_v58) : S1x2048.Idx → BitVec 32) (ix2 0 j) = BitVec.ofNat 32 (j.val / 16) := by
    refine (congrFun h25 _).trans ?_
    show Scalar.select ((Z (Proc.devRef .tc main_call3_v11) : S1x2048.Idx → BitVec 1) (ix2 0 j)) ((Z (Proc.devRef .tc main_call3_v13) : S1x2048.Idx → BitVec 32) (ix2 0 j)) ((Z (Proc.devRef .tc main_call3_v2) : S1x2048.Idx → BitVec 32) (ix2 0 j)) = _
    rw [e11, e13, e2]
    exact fdiv_ofNat j.val 16 (by omega) (by norm_num) (by norm_num)
  -- the mask: rows against quotients
  have eI : (Z (Proc.devRef .tc main_v59) : S128x2048.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v60) : S128x2048.Idx → BitVec 32) (ix2 k j) = BitVec.ofNat 32 (j.val / 16) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v62) : S128x2048.Idx → EReal) (ix2 k j) = if k.val = j.val / 16 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 16) (by omega) (by omega)))
  -- the taps under every row
  have eN : (Z (Proc.devRef .tc main_v64) : S128x2048.Idx → EReal) (ix2 k j) = wts (ix1 (Cert.Tsc.wcol (16 - 1 + j.val % 16))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `1792 + j` of the concatenated table is column `j` of the table of width 16. -/
theorem table_16' (V₀ : Valuation τ sig (Elt Ideal)) (wts : S2047.Idx → EReal) (hw : V₀ (Proc.devRef .tc main_arg1) = wts)
    (k : Fin 128) (j : Fin (128 * 16)) (col : Fin 16128) (hcol : col.val = 1792 + j.val) :
    (StableHlo.after L V₀ (Proc.devRef .tc main_v98) : S128x16128.Idx → EReal) (ix2 k col)
      = (if k.val = j.val / 16 then (1 : EReal) else 0) * wts (ix1 (Cert.Tsc.wcol (16 - 1 + j.val % 16))) := by
  have h98 := aligned.nary_at V₀ 201 rfl (by decide) (fun i => by fin_cases i <;> decide)
  have ht := tab_16 V₀ wts hw k j
  generalize StableHlo.after L V₀ = Z at h98 ht ⊢
  refine (congrFun h98 _).trans ?_
  refine (concatenate_apply_piece (t := S128x16128) 1 _ _ (ix2 k col) 3 (by show 3 < 6; norm_num) S128x2048
    (Z (Proc.devRef .tc main_v65)) rfl rfl 1792 rfl (ix2 k j)
    (fun b hb => match b with | ⟨0, _⟩ => rfl | ⟨1, _⟩ => absurd rfl hb) hcol.symm).trans ht

/-- The same with the launch contents of the weight buffer in place. -/
theorem table_16 (V₀ : Valuation τ sig (Elt Ideal)) (k : Fin 128) (j : Fin (128 * 16)) (col : Fin 16128)
    (hcol : col.val = 1792 + j.val) :
    (StableHlo.after L V₀ (Proc.devRef .tc main_v98) : S128x16128.Idx → EReal) (ix2 k col)
      = (if k.val = j.val / 16 then (1 : EReal) else 0)
          * (V₀ (Proc.devRef .tc main_arg1) : S2047.Idx → EReal) (ix1 (Cert.Tsc.wcol (16 - 1 + j.val % 16))) :=
  table_16' V₀ _ rfl k j col hcol

/-- The table of width 32 at row `k`, column `j`: row `k` holds the 32 taps from entry 31 of the weight vector in its
    columns `32k … 32k + 31` and zero elsewhere. -/
theorem tab_32 (V₀ : Valuation τ sig (Elt Ideal)) (wts : S2047.Idx → EReal) (hw : V₀ (Proc.devRef .tc main_arg1) = wts)
    (k : Fin 128) (j : Fin 4096) :
    (StableHlo.after L V₀ (Proc.devRef .tc main_v81) : S128x4096.Idx → EReal) (ix2 k j)
      = (if k.val = j.val / 32 then (1 : EReal) else 0) * wts (ix1 (Cert.Tsc.wcol (32 - 1 + j.val % 32))) := by
  have h0 := aligned.unary_at V₀ 135 rfl (by decide) (by decide)
  have h1 := aligned.reshape_at V₀ 136 rfl (by decide) (by decide)
  have h2 := aligned.unary_at V₀ 137 rfl (by decide) (by decide)
  have h3 := aligned.reshape_at V₀ 138 rfl (by decide) (by decide)
  have h4 := aligned.nullary_at V₀ 139 rfl (by decide)
  have h5 := aligned.unary_at V₀ 140 rfl (by decide) (by decide)
  have h6 := aligned.nullary_at V₀ 141 rfl (by decide)
  have h7 := aligned.unary_at V₀ 142 rfl (by decide) (by decide)
  have h8 := aligned.nullary_at V₀ 143 rfl (by decide)
  have h9 := aligned.tunary_at V₀ 144 _ _ _ rfl (by decide) (by decide)
  have h10 := aligned.tunary_at V₀ 145 _ _ _ rfl (by decide) (by decide)
  have h11 := aligned.tbinary_at V₀ 146 _ _ _ _ rfl (by decide) (by decide) (by decide)
  have h12 := aligned.tunary_at V₀ 147 _ _ _ rfl (by decide) (by decide)
  have h13 := aligned.tunary_at V₀ 148 _ _ _ rfl (by decide) (by decide)
  have h14 := aligned.tunary_at V₀ 149 _ _ _ rfl (by decide) (by decide)
  have h15 := aligned.tbinary_at V₀ 150 _ _ _ _ rfl (by decide) (by decide) (by decide)
  have h16 := aligned.tunary_at V₀ 151 _ _ _ rfl (by decide) (by decide)
  have h17 := aligned.tbinary_at V₀ 152 _ _ _ _ rfl (by decide) (by decide) (by decide)
  have h18 := tnullary_at aligned V₀ 153 _ _ rfl (by decide)
  have h19 := aligned.tunary_at V₀ 154 _ _ _ rfl (by decide) (by decide)
  have h20 := aligned.tbinary_at V₀ 155 _ _ _ _ rfl (by decide) (by decide) (by decide)
  have h21 := aligned.tbinary_at V₀ 156 _ _ _ _ rfl (by decide) (by decide) (by decide)
  have h22 := tnullary_at aligned V₀ 157 _ _ rfl (by decide)
  have h23 := aligned.tunary_at V₀ 158 _ _ _ rfl (by decide) (by decide)
  have h24 := aligned.tbinary_at V₀ 159 _ _ _ _ rfl (by decide) (by decide) (by decide)
  have h25 := aligned.tternary_at V₀ 160 _ _ _ _ _ rfl (by decide) (by decide) (by decide) (by decide)
  have h26 := aligned.unary_at V₀ 161 rfl (by decide) (by decide)
  have h27 := aligned.unary_at V₀ 162 rfl (by decide) (by decide)
  have h28 := aligned.binary_at V₀ 163 rfl (by decide) (by decide) (by decide)
  have h29 := aligned.unary_at V₀ 164 rfl (by decide) (by decide)
  have h30 := aligned.unary_at V₀ 165 rfl (by decide) (by decide)
  have h31 := aligned.unary_at V₀ 166 rfl (by decide) (by decide)
  have h32 := aligned.binary_at V₀ 167 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 4096 := j.isLt
  have hklt : k.val < 128 := k.isLt
  have hq0 : j.val / 32 < 128 := by omega
  have hr0 : j.val % 32 < 32 := Nat.mod_lt _ (by norm_num)
  -- the repeated taps at column `j`: the tap at place `j % 32`
  have eD : (Z (Proc.devRef .tc main_v69) : S4096.Idx → EReal) (ix1 j) = wts (ix1 (Cert.Tsc.wcol (32 - 1 + j.val % 32))) := by
    refine (congrFun h3 _).trans ?_
    refine (shapeCast_apply (s := S128x32) (t := S4096) _ _ _ (ix2 ⟨j.val / 32, hq0⟩ ⟨j.val % 32, hr0⟩)
      (by rw [Shape.rowMajor_val_two, Shape.rowMajor_val_one]
          show j.val / 32 * 32 + j.val % 32 = j.val
          omega)).trans ?_
    refine (congrFun h2 _).trans ?_
    refine (broadcastInDim_apply _ _ _ _ (ix2 0 ⟨j.val % 32, hr0⟩)
      (fun a => match a with | ⟨0, _⟩ => rfl | ⟨1, _⟩ => rfl)).trans ?_
    refine (congrFun h1 _).trans ?_
    refine (shapeCast_apply (s := S32) (t := S1x32) _ _ _ (ix1 ⟨j.val % 32, hr0⟩)
      (by rw [Shape.rowMajor_val_one, Shape.rowMajor_val_two]
          show j.val % 32 = 0 * 32 + j.val % 32
          omega)).trans ?_
    refine (congrFun h0 _).trans ?_
    refine (extractStridedSlice_apply _ _ _ _ (ix1 (Cert.Tsc.wcol (32 - 1 + j.val % 32)))
      (fun a => match a with
        | ⟨0, _⟩ => by show (32 - 1 + j.val % 32) % 2047 = 31 + j.val % 32; omega)).trans ?_
    exact congrFun harg1 _
  -- the row numbers and the column numbers as words
  have eF : (Z (Proc.devRef .tc main_v71) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v73) : S1x4096.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 32, element by element
  have eC0 : (Z (Proc.devRef .tc main_call4_v0) : S_.Idx → BitVec 32) ix0 = 32#32 := (congrFun h9 _).trans (congrFun h8 _)
  have e1 : (Z (Proc.devRef .tc main_call4_v1) : S1x4096.Idx → BitVec 32) (ix2 0 j) = 32#32 :=
    (congrFun h10 _).trans ((broadcastInDim_scalar_apply _ _ _).trans eC0)
  have e2 : (Z (Proc.devRef .tc main_call4_v2) : S1x4096.Idx → BitVec 32) (ix2 0 j) = IntOp.divsi .host (BitVec.ofNat 32 j.val) 32#32 :=
    (congrFun h11 _).trans (congrArg₂ (IntOp.divsi .host) eH e1)
  have e3 : (Z (Proc.devRef .tc main_call4_v3) : S1x4096.Idx → BitVec 32) (ix2 0 j) = sgn (BitVec.ofNat 32 j.val) := (congrFun h12 _).trans (congrArg sgn eH)
  have e4 : (Z (Proc.devRef .tc main_call4_v4) : S_.Idx → BitVec 32) ix0 = sgn 32#32 := (congrFun h13 _).trans (congrArg sgn eC0)
  have e5 : (Z (Proc.devRef .tc main_call4_v5) : S1x4096.Idx → BitVec 32) (ix2 0 j) = sgn 32#32 :=
    (congrFun h14 _).trans ((broadcastInDim_scalar_apply _ _ _).trans e4)
  have e6 : (Z (Proc.devRef .tc main_call4_v6) : S1x4096.Idx → BitVec 1) (ix2 0 j) = IntOp.cmpi .ne (sgn (BitVec.ofNat 32 j.val)) (sgn 32#32) :=
    (congrFun h15 _).trans (congrArg₂ (IntOp.cmpi .ne) e3 e5)
  have e7 : (Z (Proc.devRef .tc main_call4_v7) : S1x4096.Idx → BitVec 32) (ix2 0 j) = 32#32 :=
    (congrFun h16 _).trans ((broadcastInDim_scalar_apply _ _ _).trans eC0)
  have e8 : (Z (Proc.devRef .tc main_call4_v8) : S1x4096.Idx → BitVec 32) (ix2 0 j) = IntOp.remsi .host (BitVec.ofNat 32 j.val) 32#32 :=
    (congrFun h17 _).trans (congrArg₂ (IntOp.remsi .host) eH e7)
  have e9c : (Z (Proc.devRef .tc main_call4_c) : S_.Idx → BitVec 32) ix0 = 0#32 := congrFun h18 _
  have e9 : (Z (Proc.devRef .tc main_call4_v9) : S1x4096.Idx → BitVec 32) (ix2 0 j) = 0#32 :=
    (congrFun h19 _).trans ((broadcastInDim_scalar_apply _ _ _).trans e9c)
  have e10 : (Z (Proc.devRef .tc main_call4_v10) : S1x4096.Idx → BitVec 1) (ix2 0 j) = IntOp.cmpi .ne (IntOp.remsi .host (BitVec.ofNat 32 j.val) 32#32) 0#32 :=
    (congrFun h20 _).trans (congrArg₂ (IntOp.cmpi .ne) e8 e9)
  have e11 : (Z (Proc.devRef .tc main_call4_v11) : S1x4096.Idx → BitVec 1) (ix2 0 j)
      = IntOp.andi (IntOp.cmpi .ne (sgn (BitVec.ofNat 32 j.val)) (sgn 32#32))
          (IntOp.cmpi .ne (IntOp.remsi .host (BitVec.ofNat 32 j.val) 32#32) 0#32) :=
    (congrFun h21 _).trans (congrArg₂ IntOp.andi e6 e10)
  have e12c : (Z (Proc.devRef .tc main_call4_c_0) : S_.Idx → BitVec 32) ix0 = 1#32 := congrFun h22 _
  have e12 : (Z (Proc.devRef .tc main_call4_v12) : S1x4096.Idx → BitVec 32) (ix2 0 j) = 1#32 :=
    (congrFun h23 _).trans ((broadcastInDim_scalar_apply _ _ _).trans e12c)
  have e13 : (Z (Proc.devRef .tc main_call4_v13) : S1x4096.Idx → BitVec 32) (ix2 0 j) = IntOp.subi (IntOp.divsi .host (BitVec.ofNat 32 j.val) 32#32) 1#32 :=
    (congrFun h24 _).trans (congrArg₂ IntOp.subi e2 e12)
  have eQ : (Z (Proc.devRef .tc main_v74) : S1x4096.Idx → BitVec 32) (ix2 0 j) = BitVec.ofNat 32 (j.val / 32) := by
    refine (congrFun h25 _).trans ?_
    show Scalar.select ((Z (Proc.devRef .tc main_call4_v11) : S1x4096.Idx → BitVec 1) (ix2 0 j)) ((Z (Proc.devRef .tc main_call4_v13) : S1x4096.Idx → BitVec 32) (ix2 0 j)) ((Z (Proc.devRef .tc main_call4_v2) : S1x4096.Idx → BitVec 32) (ix2 0 j)) = _
    rw [e11, e13, e2]
    exact fdiv_ofNat j.val 32 (by omega) (by norm_num) (by norm_num)
  -- the mask: rows against quotients
  have eI : (Z (Proc.devRef .tc main_v75) : S128x4096.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v76) : S128x4096.Idx → BitVec 32) (ix2 k j) = BitVec.ofNat 32 (j.val / 32) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v78) : S128x4096.Idx → EReal) (ix2 k j) = if k.val = j.val / 32 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 32) (by omega) (by omega)))
  -- the taps under every row
  have eN : (Z (Proc.devRef .tc main_v80) : S128x4096.Idx → EReal) (ix2 k j) = wts (ix1 (Cert.Tsc.wcol (32 - 1 + j.val % 32))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `3840 + j` of the concatenated table is column `j` of the table of width 32. -/
theorem table_32' (V₀ : Valuation τ sig (Elt Ideal)) (wts : S2047.Idx → EReal) (hw : V₀ (Proc.devRef .tc main_arg1) = wts)
    (k : Fin 128) (j : Fin (128 * 32)) (col : Fin 16128) (hcol : col.val = 3840 + j.val) :
    (StableHlo.after L V₀ (Proc.devRef .tc main_v98) : S128x16128.Idx → EReal) (ix2 k col)
      = (if k.val = j.val / 32 then (1 : EReal) else 0) * wts (ix1 (Cert.Tsc.wcol (32 - 1 + j.val % 32))) := by
  have h98 := aligned.nary_at V₀ 201 rfl (by decide) (fun i => by fin_cases i <;> decide)
  have ht := tab_32 V₀ wts hw k j
  generalize StableHlo.after L V₀ = Z at h98 ht ⊢
  refine (congrFun h98 _).trans ?_
  refine (concatenate_apply_piece (t := S128x16128) 1 _ _ (ix2 k col) 4 (by show 4 < 6; norm_num) S128x4096
    (Z (Proc.devRef .tc main_v81)) rfl rfl 3840 rfl (ix2 k j)
    (fun b hb => match b with | ⟨0, _⟩ => rfl | ⟨1, _⟩ => absurd rfl hb) hcol.symm).trans ht

/-- The same with the launch contents of the weight buffer in place. -/
theorem table_32 (V₀ : Valuation τ sig (Elt Ideal)) (k : Fin 128) (j : Fin (128 * 32)) (col : Fin 16128)
    (hcol : col.val = 3840 + j.val) :
    (StableHlo.after L V₀ (Proc.devRef .tc main_v98) : S128x16128.Idx → EReal) (ix2 k col)
      = (if k.val = j.val / 32 then (1 : EReal) else 0)
          * (V₀ (Proc.devRef .tc main_arg1) : S2047.Idx → EReal) (ix1 (Cert.Tsc.wcol (32 - 1 + j.val % 32))) :=
  table_32' V₀ _ rfl k j col hcol

/-- The table of width 64 at row `k`, column `j`: row `k` holds the 64 taps from entry 63 of the weight vector in its
    columns `64k … 64k + 63` and zero elsewhere. -/
theorem tab_64 (V₀ : Valuation τ sig (Elt Ideal)) (wts : S2047.Idx → EReal) (hw : V₀ (Proc.devRef .tc main_arg1) = wts)
    (k : Fin 128) (j : Fin 8192) :
    (StableHlo.after L V₀ (Proc.devRef .tc main_v97) : S128x8192.Idx → EReal) (ix2 k j)
      = (if k.val = j.val / 64 then (1 : EReal) else 0) * wts (ix1 (Cert.Tsc.wcol (64 - 1 + j.val % 64))) := by
  have h0 := aligned.unary_at V₀ 168 rfl (by decide) (by decide)
  have h1 := aligned.reshape_at V₀ 169 rfl (by decide) (by decide)
  have h2 := aligned.unary_at V₀ 170 rfl (by decide) (by decide)
  have h3 := aligned.reshape_at V₀ 171 rfl (by decide) (by decide)
  have h4 := aligned.nullary_at V₀ 172 rfl (by decide)
  have h5 := aligned.unary_at V₀ 173 rfl (by decide) (by decide)
  have h6 := aligned.nullary_at V₀ 174 rfl (by decide)
  have h7 := aligned.unary_at V₀ 175 rfl (by decide) (by decide)
  have h8 := aligned.nullary_at V₀ 176 rfl (by decide)
  have h9 := aligned.tunary_at V₀ 177 _ _ _ rfl (by decide) (by decide)
  have h10 := aligned.tunary_at V₀ 178 _ _ _ rfl (by decide) (by decide)
  have h11 := aligned.tbinary_at V₀ 179 _ _ _ _ rfl (by decide) (by decide) (by decide)
  have h12 := aligned.tunary_at V₀ 180 _ _ _ rfl (by decide) (by decide)
  have h13 := aligned.tunary_at V₀ 181 _ _ _ rfl (by decide) (by decide)
  have h14 := aligned.tunary_at V₀ 182 _ _ _ rfl (by decide) (by decide)
  have h15 := aligned.tbinary_at V₀ 183 _ _ _ _ rfl (by decide) (by decide) (by decide)
  have h16 := aligned.tunary_at V₀ 184 _ _ _ rfl (by decide) (by decide)
  have h17 := aligned.tbinary_at V₀ 185 _ _ _ _ rfl (by decide) (by decide) (by decide)
  have h18 := tnullary_at aligned V₀ 186 _ _ rfl (by decide)
  have h19 := aligned.tunary_at V₀ 187 _ _ _ rfl (by decide) (by decide)
  have h20 := aligned.tbinary_at V₀ 188 _ _ _ _ rfl (by decide) (by decide) (by decide)
  have h21 := aligned.tbinary_at V₀ 189 _ _ _ _ rfl (by decide) (by decide) (by decide)
  have h22 := tnullary_at aligned V₀ 190 _ _ rfl (by decide)
  have h23 := aligned.tunary_at V₀ 191 _ _ _ rfl (by decide) (by decide)
  have h24 := aligned.tbinary_at V₀ 192 _ _ _ _ rfl (by decide) (by decide) (by decide)
  have h25 := aligned.tternary_at V₀ 193 _ _ _ _ _ rfl (by decide) (by decide) (by decide) (by decide)
  have h26 := aligned.unary_at V₀ 194 rfl (by decide) (by decide)
  have h27 := aligned.unary_at V₀ 195 rfl (by decide) (by decide)
  have h28 := aligned.binary_at V₀ 196 rfl (by decide) (by decide) (by decide)
  have h29 := aligned.unary_at V₀ 197 rfl (by decide) (by decide)
  have h30 := aligned.unary_at V₀ 198 rfl (by decide) (by decide)
  have h31 := aligned.unary_at V₀ 199 rfl (by decide) (by decide)
  have h32 := aligned.binary_at V₀ 200 rfl (by decide) (by decide) (by decide)
  have harg1 := aligned.after_of_not_mem V₀ (x := main_arg1) (by decide)
  rw [hw] at harg1
  generalize StableHlo.after L V₀ = Z at h0 h1 h2 h3 h4 h5 h6 h7 h8 h9 h10 h11 h12 h13 h14 h15 h16 h17 h18 h19 h20 h21 h22 h23 h24 h25 h26 h27 h28 h29 h30 h31 h32 harg1 ⊢
  have hjlt : j.val < 8192 := j.isLt
  have hklt : k.val < 128 := k.isLt
  have hq0 : j.val / 64 < 128 := by omega
  have hr0 : j.val % 64 < 64 := Nat.mod_lt _ (by norm_num)
  -- the repeated taps at column `j`: the tap at place `j % 64`
  have eD : (Z (Proc.devRef .tc main_v85) : S8192.Idx → EReal) (ix1 j) = wts (ix1 (Cert.Tsc.wcol (64 - 1 + j.val % 64))) := by
    refine (congrFun h3 _).trans ?_
    refine (shapeCast_apply (s := S128x64) (t := S8192) _ _ _ (ix2 ⟨j.val / 64, hq0⟩ ⟨j.val % 64, hr0⟩)
      (by rw [Shape.rowMajor_val_two, Shape.rowMajor_val_one]
          show j.val / 64 * 64 + j.val % 64 = j.val
          omega)).trans ?_
    refine (congrFun h2 _).trans ?_
    refine (broadcastInDim_apply _ _ _ _ (ix2 0 ⟨j.val % 64, hr0⟩)
      (fun a => match a with | ⟨0, _⟩ => rfl | ⟨1, _⟩ => rfl)).trans ?_
    refine (congrFun h1 _).trans ?_
    refine (shapeCast_apply (s := S64) (t := S1x64) _ _ _ (ix1 ⟨j.val % 64, hr0⟩)
      (by rw [Shape.rowMajor_val_one, Shape.rowMajor_val_two]
          show j.val % 64 = 0 * 64 + j.val % 64
          omega)).trans ?_
    refine (congrFun h0 _).trans ?_
    refine (extractStridedSlice_apply _ _ _ _ (ix1 (Cert.Tsc.wcol (64 - 1 + j.val % 64)))
      (fun a => match a with
        | ⟨0, _⟩ => by show (64 - 1 + j.val % 64) % 2047 = 63 + j.val % 64; omega)).trans ?_
    exact congrFun harg1 _
  -- the row numbers and the column numbers as words
  have eF : (Z (Proc.devRef .tc main_v87) : S128x1.Idx → BitVec 32) (ix2 k 0) = BitVec.ofNat 32 k.val := by
    refine (congrFun h5 _).trans ?_
    refine (broadcastInDim_apply _ _ _ _ (ix1 k) (fun a => match a with | ⟨0, _⟩ => rfl)).trans ?_
    exact congrFun h4 _
  have eH : (Z (Proc.devRef .tc main_v89) : S1x8192.Idx → BitVec 32) (ix2 0 j) = BitVec.ofNat 32 j.val := by
    refine (congrFun h7 _).trans ?_
    refine (broadcastInDim_apply _ _ _ _ (ix1 j) (fun a => match a with | ⟨0, _⟩ => rfl)).trans ?_
    exact congrFun h6 _
  -- the floor division of the column number by 64, element by element
  have eC0 : (Z (Proc.devRef .tc main_call5_v0) : S_.Idx → BitVec 32) ix0 = 64#32 := (congrFun h9 _).trans (congrFun h8 _)
  have e1 : (Z (Proc.devRef .tc main_call5_v1) : S1x8192.Idx → BitVec 32) (ix2 0 j) = 64#32 :=
    (congrFun h10 _).trans ((broadcastInDim_scalar_apply _ _ _).trans eC0)
  have e2 : (Z (Proc.devRef .tc main_call5_v2) : S1x8192.Idx → BitVec 32) (ix2 0 j) = IntOp.divsi .host (BitVec.ofNat 32 j.val) 64#32 :=
    (congrFun h11 _).trans (congrArg₂ (IntOp.divsi .host) eH e1)
  have e3 : (Z (Proc.devRef .tc main_call5_v3) : S1x8192.Idx → BitVec 32) (ix2 0 j) = sgn (BitVec.ofNat 32 j.val) := (congrFun h12 _).trans (congrArg sgn eH)
  have e4 : (Z (Proc.devRef .tc main_call5_v4) : S_.Idx → BitVec 32) ix0 = sgn 64#32 := (congrFun h13 _).trans (congrArg sgn eC0)
  have e5 : (Z (Proc.devRef .tc main_call5_v5) : S1x8192.Idx → BitVec 32) (ix2 0 j) = sgn 64#32 :=
    (congrFun h14 _).trans ((broadcastInDim_scalar_apply _ _ _).trans e4)
  have e6 : (Z (Proc.devRef .tc main_call5_v6) : S1x8192.Idx → BitVec 1) (ix2 0 j) = IntOp.cmpi .ne (sgn (BitVec.ofNat 32 j.val)) (sgn 64#32) :=
    (congrFun h15 _).trans (congrArg₂ (IntOp.cmpi .ne) e3 e5)
  have e7 : (Z (Proc.devRef .tc main_call5_v7) : S1x8192.Idx → BitVec 32) (ix2 0 j) = 64#32 :=
    (congrFun h16 _).trans ((broadcastInDim_scalar_apply _ _ _).trans eC0)
  have e8 : (Z (Proc.devRef .tc main_call5_v8) : S1x8192.Idx → BitVec 32) (ix2 0 j) = IntOp.remsi .host (BitVec.ofNat 32 j.val) 64#32 :=
    (congrFun h17 _).trans (congrArg₂ (IntOp.remsi .host) eH e7)
  have e9c : (Z (Proc.devRef .tc main_call5_c) : S_.Idx → BitVec 32) ix0 = 0#32 := congrFun h18 _
  have e9 : (Z (Proc.devRef .tc main_call5_v9) : S1x8192.Idx → BitVec 32) (ix2 0 j) = 0#32 :=
    (congrFun h19 _).trans ((broadcastInDim_scalar_apply _ _ _).trans e9c)
  have e10 : (Z (Proc.devRef .tc main_call5_v10) : S1x8192.Idx → BitVec 1) (ix2 0 j) = IntOp.cmpi .ne (IntOp.remsi .host (BitVec.ofNat 32 j.val) 64#32) 0#32 :=
    (congrFun h20 _).trans (congrArg₂ (IntOp.cmpi .ne) e8 e9)
  have e11 : (Z (Proc.devRef .tc main_call5_v11) : S1x8192.Idx → BitVec 1) (ix2 0 j)
      = IntOp.andi (IntOp.cmpi .ne (sgn (BitVec.ofNat 32 j.val)) (sgn 64#32))
          (IntOp.cmpi .ne (IntOp.remsi .host (BitVec.ofNat 32 j.val) 64#32) 0#32) :=
    (congrFun h21 _).trans (congrArg₂ IntOp.andi e6 e10)
  have e12c : (Z (Proc.devRef .tc main_call5_c_0) : S_.Idx → BitVec 32) ix0 = 1#32 := congrFun h22 _
  have e12 : (Z (Proc.devRef .tc main_call5_v12) : S1x8192.Idx → BitVec 32) (ix2 0 j) = 1#32 :=
    (congrFun h23 _).trans ((broadcastInDim_scalar_apply _ _ _).trans e12c)
  have e13 : (Z (Proc.devRef .tc main_call5_v13) : S1x8192.Idx → BitVec 32) (ix2 0 j) = IntOp.subi (IntOp.divsi .host (BitVec.ofNat 32 j.val) 64#32) 1#32 :=
    (congrFun h24 _).trans (congrArg₂ IntOp.subi e2 e12)
  have eQ : (Z (Proc.devRef .tc main_v90) : S1x8192.Idx → BitVec 32) (ix2 0 j) = BitVec.ofNat 32 (j.val / 64) := by
    refine (congrFun h25 _).trans ?_
    show Scalar.select ((Z (Proc.devRef .tc main_call5_v11) : S1x8192.Idx → BitVec 1) (ix2 0 j)) ((Z (Proc.devRef .tc main_call5_v13) : S1x8192.Idx → BitVec 32) (ix2 0 j)) ((Z (Proc.devRef .tc main_call5_v2) : S1x8192.Idx → BitVec 32) (ix2 0 j)) = _
    rw [e11, e13, e2]
    exact fdiv_ofNat j.val 64 (by omega) (by norm_num) (by norm_num)
  -- the mask: rows against quotients
  have eI : (Z (Proc.devRef .tc main_v91) : S128x8192.Idx → BitVec 32) (ix2 k j) = BitVec.ofNat 32 k.val := by
    refine (congrFun h26 _).trans ?_
    refine (broadcastInDim_apply _ _ _ _ (ix2 k 0) (fun a => match a with | ⟨0, _⟩ => rfl | ⟨1, _⟩ => rfl)).trans ?_
    exact eF
  have eJ : (Z (Proc.devRef .tc main_v92) : S128x8192.Idx → BitVec 32) (ix2 k j) = BitVec.ofNat 32 (j.val / 64) := by
    refine (congrFun h27 _).trans ?_
    refine (broadcastInDim_apply _ _ _ _ (ix2 0 j) (fun a => match a with | ⟨0, _⟩ => rfl | ⟨1, _⟩ => rfl)).trans ?_
    exact eQ
  have eL : (Z (Proc.devRef .tc main_v94) : S128x8192.Idx → EReal) (ix2 k j) = if k.val = j.val / 64 then (1 : EReal) else 0 :=
    (congrFun h29 _).trans ((congrArg (FloatOps.uitofp (F := Ideal) .f32)
      ((congrFun h28 _).trans (congrArg₂ (IntOp.cmpi .eq) eI eJ))).trans
      (uitofp_cmpi_eq k.val (j.val / 64) (by omega) (by omega)))
  -- the taps under every row
  have eN : (Z (Proc.devRef .tc main_v96) : S128x8192.Idx → EReal) (ix2 k j) = wts (ix1 (Cert.Tsc.wcol (64 - 1 + j.val % 64))) := by
    refine (congrFun h31 _).trans ?_
    refine (broadcastInDim_apply _ _ _ _ (ix2 0 j) (fun a => match a with | ⟨0, _⟩ => rfl | ⟨1, _⟩ => rfl)).trans ?_
    refine (congrFun h30 _).trans ?_
    refine (broadcastInDim_apply _ _ _ _ (ix1 j) (fun a => match a with | ⟨0, _⟩ => rfl)).trans ?_
    exact eD
  exact (congrFun h32 _).trans (congrArg₂ (fun a b : EReal => a * b) eL eN)

/-- Column `7936 + j` of the concatenated table is column `j` of the table of width 64. -/
theorem table_64' (V₀ : Valuation τ sig (Elt Ideal)) (wts : S2047.Idx → EReal) (hw : V₀ (Proc.devRef .tc main_arg1) = wts)
    (k : Fin 128) (j : Fin (128 * 64)) (col : Fin 16128) (hcol : col.val = 7936 + j.val) :
    (StableHlo.after L V₀ (Proc.devRef .tc main_v98) : S128x16128.Idx → EReal) (ix2 k col)
      = (if k.val = j.val / 64 then (1 : EReal) else 0) * wts (ix1 (Cert.Tsc.wcol (64 - 1 + j.val % 64))) := by
  have h98 := aligned.nary_at V₀ 201 rfl (by decide) (fun i => by fin_cases i <;> decide)
  have ht := tab_64 V₀ wts hw k j
  generalize StableHlo.after L V₀ = Z at h98 ht ⊢
  refine (congrFun h98 _).trans ?_
  refine (concatenate_apply_piece (t := S128x16128) 1 _ _ (ix2 k col) 5 (by show 5 < 6; norm_num) S128x8192
    (Z (Proc.devRef .tc main_v97)) rfl rfl 7936 rfl (ix2 k j)
    (fun b hb => match b with | ⟨0, _⟩ => rfl | ⟨1, _⟩ => absurd rfl hb) hcol.symm).trans ht

/-- The same with the launch contents of the weight buffer in place. -/
theorem table_64 (V₀ : Valuation τ sig (Elt Ideal)) (k : Fin 128) (j : Fin (128 * 64)) (col : Fin 16128)
    (hcol : col.val = 7936 + j.val) :
    (StableHlo.after L V₀ (Proc.devRef .tc main_v98) : S128x16128.Idx → EReal) (ix2 k col)
      = (if k.val = j.val / 64 then (1 : EReal) else 0)
          * (V₀ (Proc.devRef .tc main_arg1) : S2047.Idx → EReal) (ix1 (Cert.Tsc.wcol (64 - 1 + j.val % 64))) :=
  table_64' V₀ _ rfl k j col hcol

end Cert.KernelIdeal.HostVal

end
-- ==== Proof.LibGroupLayout.lean ====
/-
  Group-wise layouts read at coordinates. A matrix whose row of length `n = g · l` is cut into `g` groups of `l`
  consecutive entries is the same data as a rank-3 array `[a, g, l]`: column `k` of row `r` is entry `(r, u, v)`
  exactly when `k = u · l + v` (row-major order keeps the position). A per-group quantity `[a, g]` is spread over
  its group by adding a last axis of extent one and repeating along it: entry `(r, u, v)` of the result is the
  group's value `(r, u)`, whatever `v`. All four readings hold for every element type and every extents.
-/
import Idealize.ShloMosaic.Lib.Pipeline.Value
import Idealize.ShloMosaic.Lib.ValueIdx

namespace Idealize.ShloMosaic.GroupLayout

open Idealize.ShloMosaic Idealize.ShloMosaic.ValueIdx

variable {α : Type}

/-- A matrix `[a, n]` viewed as `[a, g, l]`: entry `(r, u, v)` is the matrix at `(r, k)` for the column
    `k = u · l + v`. -/
theorem shapeCast_split_apply {a g l n : ℕ} (x : (⟨2, ![a, n]⟩ : Shape).Idx → α)
    (h : (⟨2, ![a, n]⟩ : Shape).ShapeCasts ⟨3, ![a, g, l]⟩) (hn : n = g * l)
    (r : Fin a) (u : Fin g) (v : Fin l) (k : Fin n) (hk : k.val = u.val * l + v.val) :
    shapeCast ⟨3, ![a, g, l]⟩ x h (ix3 r u v) = x (ix2 r k) := by
  refine shapeCast_apply x h (ix3 r u v) (ix2 r k) ?_
  rw [Shape.rowMajor_val_two, Shape.rowMajor_val_three]
  show r.val * n + k.val = (r.val * g + u.val) * l + v.val
  rw [hk, hn]; ring

/-- The grouped array `[a, g, l]` viewed as the matrix `[a, n]`: entry `(r, k)` is the array at `(r, u, v)` for the
    group `u` and the place `v` in it with `k = u · l + v` (so `u = k / l`, `v = k % l`). -/
theorem shapeCast_merge_apply {a g l n : ℕ} (y : (⟨3, ![a, g, l]⟩ : Shape).Idx → α)
    (h : (⟨3, ![a, g, l]⟩ : Shape).ShapeCasts ⟨2, ![a, n]⟩) (hn : n = g * l)
    (r : Fin a) (k : Fin n) (u : Fin g) (v : Fin l) (hk : k.val = u.val * l + v.val) :
    shapeCast ⟨2, ![a, n]⟩ y h (ix2 r k) = y (ix3 r u v) := by
  refine shapeCast_apply y h (ix2 r k) (ix3 r u v) ?_
  rw [Shape.rowMajor_val_two, Shape.rowMajor_val_three]
  show (r.val * g + u.val) * l + v.val = r.val * n + k.val
  rw [hk, hn]; ring

/-- A per-group matrix `[a, g]` given a last axis of extent one: entry `(r, u, 0)` is the matrix at `(r, u)`. -/
theorem shapeCast_unitLast_apply {a g : ℕ} (x : (⟨2, ![a, g]⟩ : Shape).Idx → α)
    (h : (⟨2, ![a, g]⟩ : Shape).ShapeCasts ⟨3, ![a, g, 1]⟩) (r : Fin a) (u : Fin g) (z : Fin 1) :
    shapeCast ⟨3, ![a, g, 1]⟩ x h (ix3 r u z) = x (ix2 r u) := by
  refine shapeCast_apply x h (ix3 r u z) (ix2 r u) ?_
  rw [Shape.rowMajor_val_two, Shape.rowMajor_val_three]
  show r.val * g + u.val = (r.val * g + u.val) * 1 + z.val
  have hz : z.val = 0 := by have := z.isLt; omega
  rw [hz, Nat.mul_one, Nat.add_zero]

/-- `[a, g, 1]` repeated along its last axis to `[a, g, l]`: entry `(r, u, v)` is the operand's `(r, u, 0)`. -/
theorem broadcastTo_lastUnit_apply {a g l : ℕ} (y : (⟨3, ![a, g, 1]⟩ : Shape).Idx → α)
    (h : (⟨3, ![a, g, 1]⟩ : Shape).Broadcasts ⟨3, ![a, g, l]⟩) (r : Fin a) (u : Fin g) (v : Fin l) :
    broadcastTo ⟨3, ![a, g, l]⟩ y h (ix3 r u v) = y (ix3 r u (0 : Fin 1)) := by
  refine broadcastTo_apply y h (ix3 r u v) (ix3 r u (0 : Fin 1)) fun ax => ?_
  match ax with
  | ⟨0, _⟩ =>
    show r.val = if a = 1 then 0 else r.val
    split
    · have := r.isLt; omega
    · rfl
  | ⟨1, _⟩ =>
    show u.val = if g = 1 then 0 else u.val
    split
    · have := u.isLt; omega
    · rfl
  | ⟨2, _⟩ =>
    show (0 : ℕ) = if (1 : ℕ) = 1 then 0 else v.val
    rw [if_pos rfl]

/-- A per-group matrix spread over its groups: `[a, g]` → `[a, g, 1]` → `[a, g, l]` at `(r, u, v)` is the matrix at
    `(r, u)`. -/
theorem spread_apply {a g l : ℕ} (x : (⟨2, ![a, g]⟩ : Shape).Idx → α)
    (h : (⟨2, ![a, g]⟩ : Shape).ShapeCasts ⟨3, ![a, g, 1]⟩)
    (h' : (⟨3, ![a, g, 1]⟩ : Shape).Broadcasts ⟨3, ![a, g, l]⟩) (r : Fin a) (u : Fin g) (v : Fin l) :
    broadcastTo ⟨3, ![a, g, l]⟩ (shapeCast ⟨3, ![a, g, 1]⟩ x h) h' (ix3 r u v) = x (ix2 r u) :=
  (broadcastTo_lastUnit_apply _ h' r u v).trans (shapeCast_unitLast_apply x h r u 0)

end Idealize.ShloMosaic.GroupLayout
-- ==== Proof.LibRank3Layout.lean ====
/-
  Rank-3 arrays read at coordinates, for any extents and element type: what a kernel that keeps a batch of matrices
  `[a, b, c]` in one vector meets when it folds the two leading axes together for a matrix product, adds or drops a unit
  axis around a reduction that keeps its dimension, spreads a per-row or per-entry value back over the block, and reduces
  over the middle or the last axis.
  • FOLDED ROWS: `[a, b, c]` viewed as `[n, c]` with `n = a·b` and back — row `p·b + m` of the matrix is row `m` of slab `p`
    (`shapeCast_abc_nc_apply`, `shapeCast_nc_abc_apply`).
  • UNIT AXES ADDED: `[a, c] → [a, 1, c]` and `[a, b] → [a, b, 1]` (`shapeCast_ac_a1c_apply`, `shapeCast_ab_ab1_apply`).
  • SPREADS: `[a, 1, c] → [a, b, c]`, `[1, 1, c] → [a, b, c]`, `[a, b, 1] → [a, b, c]` read the operand with `0` on its unit axes
    (`broadcastTo_a1c_abc_apply`, `broadcastTo_11c_abc_apply`, `broadcastTo_ab1_abc_apply`).
  • REDUCTIONS over the extended reals: a sum over the last axis and over the middle axis as a `Fin`-indexed sum, a
    maximum over the middle axis as the fold of `max` from the starting value, on a vector unit
    (`multiReduction_add_last`, `multiReduction_add_mid`, `multiReduction_max_mid`) and for the host's
    `stablehlo.reduce` with a maximum body (`hostReduce_max_mid`).
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## The two leading axes folded into one, and unfolded -/

/-- An `[a, b, c]` array viewed as `[n, c]` (`n = a·b`) reads, at row `r = p·b + m` and column `f`, the operand at `(p, m, f)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (m : Fin b) (f : Fin c) (r : Fin n)
    (hr : r.val = p.val * b + m.val) :
    shapeCast ⟨2, ![n, c]⟩ x h (ix2 r f) = x (ix3 p m f) :=
  shapeCast_apply x h _ _ (by
    rw [Shape.rowMajor_val_three, Shape.rowMajor_val_two]
    show (p.val * b + m.val) * c + f.val = r.val * c + f.val
    rw [hr])

/-- An `[n, c]` matrix (`n = a·b`) viewed as `[a, b, c]` reads, at `(p, m, f)`, the operand at row `r = p·b + m`, column `f`. -/
theorem shapeCast_nc_abc_apply {a b c n : ℕ} (x : (⟨2, ![n, c]⟩ : Shape).Idx → α)
    (h : (⟨2, ![n, c]⟩ : Shape).ShapeCasts ⟨3, ![a, b, c]⟩) (p : Fin a) (m : Fin b) (f : Fin c) (r : Fin n)
    (hr : r.val = p.val * b + m.val) :
    shapeCast ⟨3, ![a, b, c]⟩ x h (ix3 p m f) = x (ix2 r f) :=
  shapeCast_apply x h _ _ (by
    rw [Shape.rowMajor_val_three, Shape.rowMajor_val_two]
    show r.val * c + f.val = (p.val * b + m.val) * c + f.val
    rw [hr])

/-! ## A unit axis added in the middle or at the end -/

/-- An `[a, c]` matrix cast to `[a, 1, c]` reads, at `(p, u, f)`, the operand at `(p, f)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (f : Fin c) :
    shapeCast ⟨3, ![a, 1, c]⟩ x h (ix3 p u f) = x (ix2 p f) :=
  shapeCast_apply x h _ _ (by
    have hu : u.val = 0 := by omega
    rw [Shape.rowMajor_val_three, Shape.rowMajor_val_two]
    show p.val * c + f.val = (p.val * 1 + u.val) * c + f.val
    rw [hu, Nat.mul_one, Nat.add_zero])

/-- An `[a, b]` matrix cast to `[a, b, 1]` reads, at `(p, m, u)`, the operand at `(p, m)`. -/
theorem shapeCast_ab_ab1_apply {a b : ℕ} (x : (⟨2, ![a, b]⟩ : Shape).Idx → α)
    (h : (⟨2, ![a, b]⟩ : Shape).ShapeCasts ⟨3, ![a, b, 1]⟩) (p : Fin a) (m : Fin b) (u : Fin 1) :
    shapeCast ⟨3, ![a, b, 1]⟩ x h (ix3 p m u) = x (ix2 p m) :=
  shapeCast_apply x h _ _ (by
    have hu : u.val = 0 := by omega
    rw [Shape.rowMajor_val_three, Shape.rowMajor_val_two]
    show p.val * b + m.val = (p.val * b + m.val) * 1 + u.val
    rw [hu, Nat.mul_one, Nat.add_zero])

/-! ## A value spread over the block -/

/-- An `[a, 1, c]` array spread to `[a, b, c]` reads, at `(p, m, f)`, the operand at `(p, 0, f)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (m : Fin b) (f : Fin c) :
    broadcastTo ⟨3, ![a, b, c]⟩ x h (ix3 p m f) = x (ix3 p (0 : Fin 1) f) := by
  refine broadcastTo_apply x h (ix3 p m f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, 1, c]` array spread to `[a, b, c]` reads, at `(p, m, f)`, the operand's one row at `f`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (m : Fin b) (f : Fin c) :
    broadcastTo ⟨3, ![a, b, c]⟩ x h (ix3 p m f) = x (ix3 (0 : Fin 1) (0 : Fin 1) f) := by
  refine broadcastTo_apply x h (ix3 p m f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- An `[a, b, 1]` array spread to `[a, b, c]` reads, at `(p, m, f)`, the operand at `(p, m, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (m : Fin b) (f : Fin c) :
    broadcastTo ⟨3, ![a, b, c]⟩ x h (ix3 p m f) = x (ix3 p m (0 : Fin 1)) := by
  refine broadcastTo_apply x h (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ => rfl

/-! ## Reductions of a rank-3 vector over one axis, on the extended reals -/

section Reductions
variable {φ : FTy}

/-- A sum over the LAST axis of an `[a, b, c]` vector at `(p, m)` is the sum over `k` of the source at `(p, m, k)`. -/
theorem multiReduction_add_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (m : Fin b) :
    multiReduction .add [2] ⟨2, ![a, b]⟩ src acc h hφ hacc (ix2 p m) = ∑ k : Fin c, src (ix3 p m k) :=
  (Ideal.multiReduction_add_single src acc h hφ hacc (ix2 p m)).trans
    (Finset.sum_congr rfl fun k _ => congrArg src (funext fun ax => Fin.ext (by
      match ax with
      | ⟨0, _⟩ => rfl
      | ⟨1, _⟩ => rfl
      | ⟨2, _⟩ => rfl)))

/-- A sum over the MIDDLE axis of an `[a, b, c]` vector at `(p, d)` is the sum over `k` of the source at `(p, k, d)`. -/
theorem multiReduction_add_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (funext fun ax => Fin.ext (by
      match ax with
      | ⟨0, _⟩ => rfl
      | ⟨1, _⟩ => rfl
      | ⟨2, _⟩ => rfl)))

/-- A maximum over the MIDDLE axis of an `[a, b, c]` vector at `(p, d)` is the fold of `max`, from the starting word's
    value, over `k` of the source at `(p, k, d)`. -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (Finset.fold_congr fun k _ => congrArg src (funext fun ax => Fin.ext (by
      match ax with
      | ⟨0, _⟩ => rfl
      | ⟨1, _⟩ => rfl
      | ⟨2, _⟩ => rfl)))

/-- The host's `stablehlo.reduce` with a maximum body over the MIDDLE axis of an `[a, b, c]` array at `(p, d)`: the fold
    of `max`, from the initial value, over `k` of the operand at `(p, k, d)`. -/
theorem hostReduce_max_mid {a b c : ℕ} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (Finset.fold_congr fun k _ => congrArg x (funext fun ax => Fin.ext (by
      match ax with
      | ⟨0, _⟩ => rfl
      | ⟨1, _⟩ => rfl
      | ⟨2, _⟩ => rfl)))

end Reductions

end Cert.LibRank3

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.PayAt.lean ====
/-
  The body's payloads read at one entry, on the extended reals.

  A small-window scale (window `w < 128`) views a band `[64, n]` of the data block as `64 · (n / 128)` rows of 128
  window coefficients, multiplies by a table band `[128, 128 w]` and views the product `[64 · (n / 128), 128 w]` as
  `[64, 16384]`: entry `(r, p)` of the result is the sum over `k < 128` of the coefficient at column
  `(p / (128 w)) · 128 + k` of row `r` times the table at `(k, p % (128 w))`.  A large-window scale spreads the band
  `[64, n]` and the filter `[w]` over `[64, n, w]`, multiplies and views the product as `[64, 16384]`: entry `(r, p)`
  is the coefficient at column `p / w` times the tap `p % w`.  Each is added to what the block held before.
-/
import proofs.«119412_j18751827214349_2_alg».proof.Proof.Gen.KernelIdeal.Skeleton
import proofs.«119412_j18751827214349_2_alg».proof.Proof.LibGroupLayout
import proofs.«119412_j18751827214349_2_alg».proof.Proof.LibRank3Layout
import proofs.«119412_j18751827214349_2_alg».proof.Proof.LibMatmul
import Idealize.ShloMosaic.Lib.Pipeline.Value
import Idealize.ShloMosaic.Lib.Pipeline.FrameBody
import Idealize.ShloMosaic.Lib.ValueIdx

noncomputable section

open scoped BigOperators

namespace Cert.KernelIdeal.PayAt

open Cert.KernelIdeal Cert.KernelIdeal.Gen
open Idealize.ShloMosaic Idealize.ShloMosaic.ValueIdx

/-- A small-window scale at one entry: the band `[64, 8192]` as 4096 rows of 128 coefficients, times the table band
    `[128, 256]`, viewed as `[64, 16384]` and added to what was there. -/
theorem pay4_at (cf : Vec Ideal S64x8192 .f32) (tb : Vec Ideal S128x256 .f32) (prev : Vec Ideal S64x16384 .f32)
    (r : Fin 64) (p : Fin 16384) :
    k0_pay4 cf tb prev (ix2 r p)
      = prev (ix2 r p) + ∑ k : Fin 128, cf (ix2 r ⟨p.val / 256 * 128 + k.val, by have := k.isLt; have := p.isLt; omega⟩)
          * tb (ix2 k ⟨p.val % 256, Nat.mod_lt _ (by norm_num)⟩) := by
  have hu : p.val / 256 < 64 := by have := p.isLt; omega
  have hv : p.val % 256 < 256 := Nat.mod_lt _ (by norm_num)
  have hrr : r.val * 64 + p.val / 256 < 4096 := by have := r.isLt; omega
  unfold k0_pay4
  rw [addf_apply, shapeCast_self]
  congr 1
  rw [GroupLayout.shapeCast_merge_apply (a := 64) (g := 64) (l := 256) (n := 16384) _ _ rfl r p ⟨p.val / 256, hu⟩ ⟨p.val % 256, hv⟩
        (by show p.val = p.val / 256 * 256 + p.val % 256; omega)]
  rw [Cert.LibRank3.shapeCast_nc_abc_apply (a := 64) (b := 64) (c := 256) (n := 4096) _ _ r ⟨p.val / 256, hu⟩ ⟨p.val % 256, hv⟩
        ⟨r.val * 64 + p.val / 256, hrr⟩ rfl]
  refine (matmul_zero_ix2 (a := 4096) (k := 128) (b := 256) dot_S4096x128_S128x256_S4096x256_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 64) (c := 128) (n := 4096) _ _ r ⟨p.val / 256, hu⟩ k
        ⟨r.val * 64 + p.val / 256, hrr⟩ rfl]
  exact GroupLayout.shapeCast_split_apply (a := 64) (g := 64) (l := 128) (n := 8192) _ _ rfl r ⟨p.val / 256, hu⟩ k _ rfl

/-- A small-window scale at one entry: the band `[64, 4096]` as 2048 rows of 128 coefficients, times the table band
    `[128, 512]`, viewed as `[64, 16384]` and added to what was there. -/
theorem pay5_at (cf : Vec Ideal S64x4096 .f32) (tb : Vec Ideal S128x512 .f32) (prev : Vec Ideal S64x16384 .f32)
    (r : Fin 64) (p : Fin 16384) :
    k0_pay5 cf tb prev (ix2 r p)
      = prev (ix2 r p) + ∑ k : Fin 128, cf (ix2 r ⟨p.val / 512 * 128 + k.val, by have := k.isLt; have := p.isLt; omega⟩)
          * tb (ix2 k ⟨p.val % 512, Nat.mod_lt _ (by norm_num)⟩) := by
  have hu : p.val / 512 < 32 := by have := p.isLt; omega
  have hv : p.val % 512 < 512 := Nat.mod_lt _ (by norm_num)
  have hrr : r.val * 32 + p.val / 512 < 2048 := by have := r.isLt; omega
  unfold k0_pay5
  rw [addf_apply, shapeCast_self]
  congr 1
  rw [GroupLayout.shapeCast_merge_apply (a := 64) (g := 32) (l := 512) (n := 16384) _ _ rfl r p ⟨p.val / 512, hu⟩ ⟨p.val % 512, hv⟩
        (by show p.val = p.val / 512 * 512 + p.val % 512; omega)]
  rw [Cert.LibRank3.shapeCast_nc_abc_apply (a := 64) (b := 32) (c := 512) (n := 2048) _ _ r ⟨p.val / 512, hu⟩ ⟨p.val % 512, hv⟩
        ⟨r.val * 32 + p.val / 512, hrr⟩ rfl]
  refine (matmul_zero_ix2 (a := 2048) (k := 128) (b := 512) dot_S2048x128_S128x512_S2048x512_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 32) (c := 128) (n := 2048) _ _ r ⟨p.val / 512, hu⟩ k
        ⟨r.val * 32 + p.val / 512, hrr⟩ rfl]
  exact GroupLayout.shapeCast_split_apply (a := 64) (g := 32) (l := 128) (n := 4096) _ _ rfl r ⟨p.val / 512, hu⟩ k _ rfl

/-- A small-window scale at one entry: the band `[64, 2048]` as 1024 rows of 128 coefficients, times the table band
    `[128, 1024]`, viewed as `[64, 16384]` and added to what was there. -/
theorem pay7_at (cf : Vec Ideal S64x2048 .f32) (tb : Vec Ideal S128x1024 .f32) (prev : Vec Ideal S64x16384 .f32)
    (r : Fin 64) (p : Fin 16384) :
    k0_pay7 (k0_pay6 cf) tb prev (ix2 r p)
      = prev (ix2 r p) + ∑ k : Fin 128, cf (ix2 r ⟨p.val / 1024 * 128 + k.val, by have := k.isLt; have := p.isLt; omega⟩)
          * tb (ix2 k ⟨p.val % 1024, Nat.mod_lt _ (by norm_num)⟩) := by
  have hu : p.val / 1024 < 16 := by have := p.isLt; omega
  have hv : p.val % 1024 < 1024 := Nat.mod_lt _ (by norm_num)
  have hrr : r.val * 16 + p.val / 1024 < 1024 := by have := r.isLt; omega
  unfold k0_pay7 k0_pay6
  rw [addf_apply, shapeCast_self]
  congr 1
  rw [GroupLayout.shapeCast_merge_apply (a := 64) (g := 16) (l := 1024) (n := 16384) _ _ rfl r p ⟨p.val / 1024, hu⟩ ⟨p.val % 1024, hv⟩
        (by show p.val = p.val / 1024 * 1024 + p.val % 1024; omega)]
  rw [Cert.LibRank3.shapeCast_nc_abc_apply (a := 64) (b := 16) (c := 1024) (n := 1024) _ _ r ⟨p.val / 1024, hu⟩ ⟨p.val % 1024, hv⟩
        ⟨r.val * 16 + p.val / 1024, hrr⟩ rfl]
  refine (matmul_zero_ix2 (a := 1024) (k := 128) (b := 1024) dot_S1024x128_S128x1024_S1024x1024_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 16) (c := 128) (n := 1024) _ _ r ⟨p.val / 1024, hu⟩ k
        ⟨r.val * 16 + p.val / 1024, hrr⟩ rfl]
  exact GroupLayout.shapeCast_split_apply (a := 64) (g := 16) (l := 128) (n := 2048) _ _ rfl r ⟨p.val / 1024, hu⟩ k _ rfl

/-- A small-window scale at one entry: the band `[64, 1024]` as 512 rows of 128 coefficients, times the table band
    `[128, 2048]`, viewed as `[64, 16384]` and added to what was there. -/
theorem pay8_at (cf : Vec Ideal S64x1024 .f32) (tb : Vec Ideal S128x2048 .f32) (prev : Vec Ideal S64x16384 .f32)
    (r : Fin 64) (p : Fin 16384) :
    k0_pay8 cf tb prev (ix2 r p)
      = prev (ix2 r p) + ∑ k : Fin 128, cf (ix2 r ⟨p.val / 2048 * 128 + k.val, by have := k.isLt; have := p.isLt; omega⟩)
          * tb (ix2 k ⟨p.val % 2048, Nat.mod_lt _ (by norm_num)⟩) := by
  have hu : p.val / 2048 < 8 := by have := p.isLt; omega
  have hv : p.val % 2048 < 2048 := Nat.mod_lt _ (by norm_num)
  have hrr : r.val * 8 + p.val / 2048 < 512 := by have := r.isLt; omega
  unfold k0_pay8
  rw [addf_apply, shapeCast_self]
  congr 1
  rw [GroupLayout.shapeCast_merge_apply (a := 64) (g := 8) (l := 2048) (n := 16384) _ _ rfl r p ⟨p.val / 2048, hu⟩ ⟨p.val % 2048, hv⟩
        (by show p.val = p.val / 2048 * 2048 + p.val % 2048; omega)]
  rw [Cert.LibRank3.shapeCast_nc_abc_apply (a := 64) (b := 8) (c := 2048) (n := 512) _ _ r ⟨p.val / 2048, hu⟩ ⟨p.val % 2048, hv⟩
        ⟨r.val * 8 + p.val / 2048, hrr⟩ rfl]
  refine (matmul_zero_ix2 (a := 512) (k := 128) (b := 2048) dot_S512x128_S128x2048_S512x2048_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 8) (c := 128) (n := 512) _ _ r ⟨p.val / 2048, hu⟩ k
        ⟨r.val * 8 + p.val / 2048, hrr⟩ rfl]
  exact GroupLayout.shapeCast_split_apply (a := 64) (g := 8) (l := 128) (n := 1024) _ _ rfl r ⟨p.val / 2048, hu⟩ k _ rfl

/-- A small-window scale at one entry: the band `[64, 512]` as 256 rows of 128 coefficients, times the table band
    `[128, 4096]`, viewed as `[64, 16384]` and added to what was there. -/
theorem pay9_at (cf : Vec Ideal S64x512 .f32) (tb : Vec Ideal S128x4096 .f32) (prev : Vec Ideal S64x16384 .f32)
    (r : Fin 64) (p : Fin 16384) :
    k0_pay9 cf tb prev (ix2 r p)
      = prev (ix2 r p) + ∑ k : Fin 128, cf (ix2 r ⟨p.val / 4096 * 128 + k.val, by have := k.isLt; have := p.isLt; omega⟩)
          * tb (ix2 k ⟨p.val % 4096, Nat.mod_lt _ (by norm_num)⟩) := by
  have hu : p.val / 4096 < 4 := by have := p.isLt; omega
  have hv : p.val % 4096 < 4096 := Nat.mod_lt _ (by norm_num)
  have hrr : r.val * 4 + p.val / 4096 < 256 := by have := r.isLt; omega
  unfold k0_pay9
  rw [addf_apply, shapeCast_self]
  congr 1
  rw [GroupLayout.shapeCast_merge_apply (a := 64) (g := 4) (l := 4096) (n := 16384) _ _ rfl r p ⟨p.val / 4096, hu⟩ ⟨p.val % 4096, hv⟩
        (by show p.val = p.val / 4096 * 4096 + p.val % 4096; omega)]
  rw [Cert.LibRank3.shapeCast_nc_abc_apply (a := 64) (b := 4) (c := 4096) (n := 256) _ _ r ⟨p.val / 4096, hu⟩ ⟨p.val % 4096, hv⟩
        ⟨r.val * 4 + p.val / 4096, hrr⟩ rfl]
  refine (matmul_zero_ix2 (a := 256) (k := 128) (b := 4096) dot_S256x128_S128x4096_S256x4096_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 4) (c := 128) (n := 256) _ _ r ⟨p.val / 4096, hu⟩ k
        ⟨r.val * 4 + p.val / 4096, hrr⟩ rfl]
  exact GroupLayout.shapeCast_split_apply (a := 64) (g := 4) (l := 128) (n := 512) _ _ rfl r ⟨p.val / 4096, hu⟩ k _ rfl

/-- A small-window scale at one entry: the band `[64, 256]` as 128 rows of 128 coefficients, times the table band
    `[128, 8192]`, viewed as `[64, 16384]` and added to what was there. -/
theorem pay10_at (cf : Vec Ideal S64x256 .f32) (tb : Vec Ideal S128x8192 .f32) (prev : Vec Ideal S64x16384 .f32)
    (r : Fin 64) (p : Fin 16384) :
    k0_pay10 cf tb prev (ix2 r p)
      = prev (ix2 r p) + ∑ k : Fin 128, cf (ix2 r ⟨p.val / 8192 * 128 + k.val, by have := k.isLt; have := p.isLt; omega⟩)
          * tb (ix2 k ⟨p.val % 8192, Nat.mod_lt _ (by norm_num)⟩) := by
  have hu : p.val / 8192 < 2 := by have := p.isLt; omega
  have hv : p.val % 8192 < 8192 := Nat.mod_lt _ (by norm_num)
  have hrr : r.val * 2 + p.val / 8192 < 128 := by have := r.isLt; omega
  unfold k0_pay10
  rw [addf_apply, shapeCast_self]
  congr 1
  rw [GroupLayout.shapeCast_merge_apply (a := 64) (g := 2) (l := 8192) (n := 16384) _ _ rfl r p ⟨p.val / 8192, hu⟩ ⟨p.val % 8192, hv⟩
        (by show p.val = p.val / 8192 * 8192 + p.val % 8192; omega)]
  rw [Cert.LibRank3.shapeCast_nc_abc_apply (a := 64) (b := 2) (c := 8192) (n := 128) _ _ r ⟨p.val / 8192, hu⟩ ⟨p.val % 8192, hv⟩
        ⟨r.val * 2 + p.val / 8192, hrr⟩ rfl]
  refine (matmul_zero_ix2 (a := 128) (k := 128) (b := 8192) dot_S128x128_S128x8192_S128x8192_1_0_0_1_n_n rfl rfl rfl rfl rfl rfl _ _ _ _ _).trans ?_
  refine Finset.sum_congr rfl fun k _ => ?_
  rw [shapeCast_self]
  congr 1
  rw [Cert.LibRank3.shapeCast_abc_nc_apply (a := 64) (b := 2) (c := 128) (n := 128) _ _ r ⟨p.val / 8192, hu⟩ k
        ⟨r.val * 2 + p.val / 8192, hrr⟩ rfl]
  exact GroupLayout.shapeCast_split_apply (a := 64) (g := 2) (l := 128) (n := 256) _ _ rfl r ⟨p.val / 8192, hu⟩ k _ rfl

/-- A large-window scale at one entry: coefficient `p / 128` of the row times tap `p % 128`, added to what was there. -/
theorem pay11_at (tp : Vec Ideal S128 .f32) (cf : Vec Ideal S64x128 .f32) (prev : Vec Ideal S64x16384 .f32)
    (r : Fin 64) (p : Fin 16384) :
    k0_pay11 tp cf prev (ix2 r p)
      = prev (ix2 r p) + cf (ix2 r ⟨p.val / 128, by have := p.isLt; omega⟩) * tp (ix1 ⟨p.val % 128, Nat.mod_lt _ (by norm_num)⟩) := by
  have hu : p.val / 128 < 128 := by have := p.isLt; omega
  have hv : p.val % 128 < 128 := Nat.mod_lt _ (by norm_num)
  unfold k0_pay11
  rw [addf_apply, shapeCast_self]
  congr 1
  rw [GroupLayout.shapeCast_merge_apply (a := 64) (g := 128) (l := 128) (n := 16384) _ _ rfl r p ⟨p.val / 128, hu⟩ ⟨p.val % 128, hv⟩
        (by show p.val = p.val / 128 * 128 + p.val % 128; omega)]
  rw [mulf_apply]
  congr 1
  · exact GroupLayout.spread_apply (a := 64) (g := 128) (l := 128) _ _ _ r ⟨p.val / 128, hu⟩ ⟨p.val % 128, hv⟩
  · rw [Cert.LibRank3.broadcastTo_11c_abc_apply (a := 64) (b := 128) (c := 128) _ _ r ⟨p.val / 128, hu⟩ ⟨p.val % 128, hv⟩]
    refine shapeCast_apply _ _ _ (ix1 ⟨p.val % 128, hv⟩) ?_
    rw [Shape.rowMajor_val_one, Shape.rowMajor_val_three]
    show p.val % 128 = ((0 * 1 + 0) * 128 + p.val % 128)
    omega

/-- A large-window scale at one entry: coefficient `p / 256` of the row times tap `p % 256`, added to what was there. -/
theorem pay12_at (tp : Vec Ideal S256 .f32) (cf : Vec Ideal S64x64 .f32) (prev : Vec Ideal S64x16384 .f32)
    (r : Fin 64) (p : Fin 16384) :
    k0_pay12 tp cf prev (ix2 r p)
      = prev (ix2 r p) + cf (ix2 r ⟨p.val / 256, by have := p.isLt; omega⟩) * tp (ix1 ⟨p.val % 256, Nat.mod_lt _ (by norm_num)⟩) := by
  have hu : p.val / 256 < 64 := by have := p.isLt; omega
  have hv : p.val % 256 < 256 := Nat.mod_lt _ (by norm_num)
  unfold k0_pay12
  rw [addf_apply, shapeCast_self]
  congr 1
  rw [GroupLayout.shapeCast_merge_apply (a := 64) (g := 64) (l := 256) (n := 16384) _ _ rfl r p ⟨p.val / 256, hu⟩ ⟨p.val % 256, hv⟩
        (by show p.val = p.val / 256 * 256 + p.val % 256; omega)]
  rw [mulf_apply]
  congr 1
  · exact GroupLayout.spread_apply (a := 64) (g := 64) (l := 256) _ _ _ r ⟨p.val / 256, hu⟩ ⟨p.val % 256, hv⟩
  · rw [Cert.LibRank3.broadcastTo_11c_abc_apply (a := 64) (b := 64) (c := 256) _ _ r ⟨p.val / 256, hu⟩ ⟨p.val % 256, hv⟩]
    refine shapeCast_apply _ _ _ (ix1 ⟨p.val % 256, hv⟩) ?_
    rw [Shape.rowMajor_val_one, Shape.rowMajor_val_three]
    show p.val % 256 = ((0 * 1 + 0) * 256 + p.val % 256)
    omega

/-- A large-window scale at one entry: coefficient `p / 512` of the row times tap `p % 512`, added to what was there. -/
theorem pay1_at (tp : Vec Ideal S512 .f32) (cf : Vec Ideal S64x32 .f32) (prev : Vec Ideal S64x16384 .f32)
    (r : Fin 64) (p : Fin 16384) :
    k0_pay1 tp cf prev (ix2 r p)
      = prev (ix2 r p) + cf (ix2 r ⟨p.val / 512, by have := p.isLt; omega⟩) * tp (ix1 ⟨p.val % 512, Nat.mod_lt _ (by norm_num)⟩) := by
  have hu : p.val / 512 < 32 := by have := p.isLt; omega
  have hv : p.val % 512 < 512 := Nat.mod_lt _ (by norm_num)
  unfold k0_pay1
  rw [addf_apply, shapeCast_self]
  congr 1
  rw [GroupLayout.shapeCast_merge_apply (a := 64) (g := 32) (l := 512) (n := 16384) _ _ rfl r p ⟨p.val / 512, hu⟩ ⟨p.val % 512, hv⟩
        (by show p.val = p.val / 512 * 512 + p.val % 512; omega)]
  rw [mulf_apply]
  congr 1
  · exact GroupLayout.spread_apply (a := 64) (g := 32) (l := 512) _ _ _ r ⟨p.val / 512, hu⟩ ⟨p.val % 512, hv⟩
  · rw [Cert.LibRank3.broadcastTo_11c_abc_apply (a := 64) (b := 32) (c := 512) _ _ r ⟨p.val / 512, hu⟩ ⟨p.val % 512, hv⟩]
    refine shapeCast_apply _ _ _ (ix1 ⟨p.val % 512, hv⟩) ?_
    rw [Shape.rowMajor_val_one, Shape.rowMajor_val_three]
    show p.val % 512 = ((0 * 1 + 0) * 512 + p.val % 512)
    omega

/-- A large-window scale at one entry: coefficient `p / 1024` of the row times tap `p % 1024`, added to what was there. -/
theorem pay2_at (tp : Vec Ideal S1024 .f32) (cf : Vec Ideal S64x16 .f32) (prev : Vec Ideal S64x16384 .f32)
    (r : Fin 64) (p : Fin 16384) :
    k0_pay2 tp cf prev (ix2 r p)
      = prev (ix2 r p) + cf (ix2 r ⟨p.val / 1024, by have := p.isLt; omega⟩) * tp (ix1 ⟨p.val % 1024, Nat.mod_lt _ (by norm_num)⟩) := by
  have hu : p.val / 1024 < 16 := by have := p.isLt; omega
  have hv : p.val % 1024 < 1024 := Nat.mod_lt _ (by norm_num)
  unfold k0_pay2
  rw [addf_apply, shapeCast_self]
  congr 1
  rw [GroupLayout.shapeCast_merge_apply (a := 64) (g := 16) (l := 1024) (n := 16384) _ _ rfl r p ⟨p.val / 1024, hu⟩ ⟨p.val % 1024, hv⟩
        (by show p.val = p.val / 1024 * 1024 + p.val % 1024; omega)]
  rw [mulf_apply]
  congr 1
  · exact GroupLayout.spread_apply (a := 64) (g := 16) (l := 1024) _ _ _ r ⟨p.val / 1024, hu⟩ ⟨p.val % 1024, hv⟩
  · rw [Cert.LibRank3.broadcastTo_11c_abc_apply (a := 64) (b := 16) (c := 1024) _ _ r ⟨p.val / 1024, hu⟩ ⟨p.val % 1024, hv⟩]
    refine shapeCast_apply _ _ _ (ix1 ⟨p.val % 1024, hv⟩) ?_
    rw [Shape.rowMajor_val_one, Shape.rowMajor_val_three]
    show p.val % 1024 = ((0 * 1 + 0) * 1024 + p.val % 1024)
    omega

/-- The first store: every entry of the block is the one entry of the scalar block. -/
theorem pay3_at (sc : Vec Ideal S1x1 .f32) (r : Fin 64) (p : Fin 16384) :
    k0_pay3 sc (ix2 r p) = sc (ix2 0 0) := by
  unfold k0_pay3
  rw [broadcast_apply]
  unfold extractAt
  exact congrArg sc (funext fun a => Fin.ext (by match a with | ⟨0, _⟩ => rfl | ⟨1, _⟩ => rfl))

/-- A load through a column band of a matrix: entry `(r, i)` of the band is entry `(r, off + i)` of the matrix. -/
theorem ld_band {Val : EltTy → Type} {e : EltTy} {A B b off : ℕ} (inb : ∀ a, (![0, off] : Fin 2 → ℕ) a + (![A, b] : Fin 2 → ℕ) a ≤ (⟨2, ![A, B]⟩ : Shape).size a)
    (x : (⟨2, ![A, B]⟩ : Shape).Idx → Val e) (r : Fin A) (i : Fin b) (k : Fin B) (hk : k.val = off + i.val) :
    View.ld x (Rect.unit (s := ⟨2, ![A, B]⟩) ![0, off] ![A, b] inb) (ix2 r i) = x (ix2 r k) := by
  show x ((Rect.unit (s := ⟨2, ![A, B]⟩) ![0, off] ![A, b] inb).idx (ix2 r i)) = x (ix2 r k)
  refine congrArg x (funext fun a => Fin.ext ?_)
  match a with
  | ⟨0, _⟩ => show 0 + 1 * r.val = r.val; omega
  | ⟨1, _⟩ => show off + 1 * i.val = k.val; omega

/-- A load through a segment of a vector: entry `i` of the segment is entry `off + i` of the vector. -/
theorem ld_seg {Val : EltTy → Type} {e : EltTy} {B b off : ℕ} (inb : ∀ a, (![off] : Fin 1 → ℕ) a + (![b] : Fin 1 → ℕ) a ≤ (⟨1, ![B]⟩ : Shape).size a)
    (x : (⟨1, ![B]⟩ : Shape).Idx → Val e) (i : Fin b) (k : Fin B) (hk : k.val = off + i.val) :
    View.ld x (Rect.unit (s := ⟨1, ![B]⟩) ![off] ![b] inb) (ix1 i) = x (ix1 k) := by
  show x ((Rect.unit (s := ⟨1, ![B]⟩) ![off] ![b] inb).idx (ix1 i)) = x (ix1 k)
  refine congrArg x (funext fun a => Fin.ext ?_)
  match a with
  | ⟨0, _⟩ => show off + 1 * i.val = k.val; omega

end Cert.KernelIdeal.PayAt

end
-- ==== Proof.BlockVal.lean ====
/-
  What the body leaves in the output block, entry by entry, is the specification's biases-first sum.

  Entry `(r, p)` of the block after the eleven stores is the scalar block's entry plus one term per scale.  For a
  small-window scale (window `w`, table band of `128 w` columns) the term is a sum over `k < 128` of a coefficient
  times a table entry; the table's entry `(k, j)` is the tap `j % w` when `k = j / w` and zero otherwise, so only
  `k = (p % (128 w)) / w` survives, where the coefficient's column is `(p / (128 w)) · 128 + (p % (128 w)) / w = p / w`
  and the tap is `(p % (128 w)) % w = p % w`.  For a large-window scale the term is already the coefficient at
  `p / w` times the tap `p % w`.
-/
import proofs.«119412_j18751827214349_2_alg».proof.Proof.KIHost
import proofs.«119412_j18751827214349_2_alg».proof.Proof.PayAt
import proofs.«119412_j18751827214349_2_alg».proof.Proof.Spec

noncomputable section

open scoped BigOperators

namespace Cert.KernelIdeal.BlockVal

open Cert.KernelIdeal Cert.KernelIdeal.Gen Cert.KernelIdeal.Frm Cert.KernelIdeal.PayAt Cert.Tsc
open Idealize.ShloMosaic Idealize.ShloMosaic.ValueIdx

theorem off0 : off 0 = 0 := by rfl
theorem off1 : off 1 = 8192 := by rfl
theorem off2 : off 2 = 12288 := by rfl
theorem off3 : off 3 = 14336 := by rfl
theorem off4 : off 4 = 15360 := by rfl
theorem off5 : off 5 = 15872 := by rfl
theorem off6 : off 6 = 16128 := by rfl
theorem off7 : off 7 = 16256 := by rfl
theorem off8 : off 8 = 16320 := by rfl
theorem off9 : off 9 = 16352 := by rfl

/-- Scale 0 (window 2): of the 128 products only the one at `k = (p % 256) / 2` is not zero, and it is the
    scale's term. -/
theorem small0 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 2)) (col : Fin 16128), col.val = 0 + j.val →
      x2 (ix2 k col) = (if k.val = j.val / 2 then (1 : EReal) else 0) * Wt (ix1 (wcol (2 - 1 + j.val % 2)))) :
    (∑ k : Fin 128, View.ld x0 rD0 (ix2 r ⟨p.val / 256 * 128 + k.val, by have := k.isLt; have := p.isLt; omega⟩)
        * View.ld x2 rT0 (ix2 k ⟨p.val % 256, Nat.mod_lt _ (by norm_num)⟩))
      = term D Wt 0 b p := by
  have hp := p.isLt
  have hj : p.val % 256 < 128 * 2 := Nat.mod_lt _ (by norm_num)
  have hq : p.val % 256 / 2 < 128 := by omega
  rw [Finset.sum_eq_single (⟨p.val % 256 / 2, hq⟩ : Fin 128)]
  · rw [ld_band (off := 0) _ x0 r _ ⟨0 + (p.val / 256 * 128 + p.val % 256 / 2), by omega⟩ rfl,
      ld_band (off := 0) _ x2 _ _ ⟨0 + p.val % 256, by omega⟩ rfl,
      h0, hT _ ⟨p.val % 256, hj⟩ _ rfl, if_pos rfl, one_mul]
    unfold term
    rw [off0]
    congr 3
    · exact Fin.ext (by show 0 + (p.val / 256 * 128 + p.val % 256 / 2) = (0 + p.val / 2 ^ (0 + 1)) % 16368; norm_num <;> omega)
    · exact Fin.ext (by show (2 - 1 + p.val % 256 % 2) % 2047 = (2 ^ (0 + 1) - 1 + p.val % 2 ^ (0 + 1)) % 2047; norm_num <;> omega)
  · intro k _ hk
    rw [ld_band (off := 0) _ x2 _ _ ⟨0 + p.val % 256, by omega⟩ rfl, hT _ ⟨p.val % 256, hj⟩ _ rfl,
      if_neg (fun h => hk (Fin.ext h)), zero_mul, mul_zero]
  · intro h; exact absurd (Finset.mem_univ _) h

/-- Scale 1 (window 4): of the 128 products only the one at `k = (p % 512) / 4` is not zero, and it is the
    scale's term. -/
theorem small1 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 4)) (col : Fin 16128), col.val = 256 + j.val →
      x2 (ix2 k col) = (if k.val = j.val / 4 then (1 : EReal) else 0) * Wt (ix1 (wcol (4 - 1 + j.val % 4)))) :
    (∑ k : Fin 128, View.ld x0 rD1 (ix2 r ⟨p.val / 512 * 128 + k.val, by have := k.isLt; have := p.isLt; omega⟩)
        * View.ld x2 rT1 (ix2 k ⟨p.val % 512, Nat.mod_lt _ (by norm_num)⟩))
      = term D Wt 1 b p := by
  have hp := p.isLt
  have hj : p.val % 512 < 128 * 4 := Nat.mod_lt _ (by norm_num)
  have hq : p.val % 512 / 4 < 128 := by omega
  rw [Finset.sum_eq_single (⟨p.val % 512 / 4, hq⟩ : Fin 128)]
  · rw [ld_band (off := 8192) _ x0 r _ ⟨8192 + (p.val / 512 * 128 + p.val % 512 / 4), by omega⟩ rfl,
      ld_band (off := 256) _ x2 _ _ ⟨256 + p.val % 512, by omega⟩ rfl,
      h0, hT _ ⟨p.val % 512, hj⟩ _ rfl, if_pos rfl, one_mul]
    unfold term
    rw [off1]
    congr 3
    · exact Fin.ext (by show 8192 + (p.val / 512 * 128 + p.val % 512 / 4) = (8192 + p.val / 2 ^ (1 + 1)) % 16368; norm_num <;> omega)
    · exact Fin.ext (by show (4 - 1 + p.val % 512 % 4) % 2047 = (2 ^ (1 + 1) - 1 + p.val % 2 ^ (1 + 1)) % 2047; norm_num <;> omega)
  · intro k _ hk
    rw [ld_band (off := 256) _ x2 _ _ ⟨256 + p.val % 512, by omega⟩ rfl, hT _ ⟨p.val % 512, hj⟩ _ rfl,
      if_neg (fun h => hk (Fin.ext h)), zero_mul, mul_zero]
  · intro h; exact absurd (Finset.mem_univ _) h

/-- Scale 2 (window 8): of the 128 products only the one at `k = (p % 1024) / 8` is not zero, and it is the
    scale's term. -/
theorem small2 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 8)) (col : Fin 16128), col.val = 768 + j.val →
      x2 (ix2 k col) = (if k.val = j.val / 8 then (1 : EReal) else 0) * Wt (ix1 (wcol (8 - 1 + j.val % 8)))) :
    (∑ k : Fin 128, View.ld x0 rD2 (ix2 r ⟨p.val / 1024 * 128 + k.val, by have := k.isLt; have := p.isLt; omega⟩)
        * View.ld x2 rT2 (ix2 k ⟨p.val % 1024, Nat.mod_lt _ (by norm_num)⟩))
      = term D Wt 2 b p := by
  have hp := p.isLt
  have hj : p.val % 1024 < 128 * 8 := Nat.mod_lt _ (by norm_num)
  have hq : p.val % 1024 / 8 < 128 := by omega
  rw [Finset.sum_eq_single (⟨p.val % 1024 / 8, hq⟩ : Fin 128)]
  · rw [ld_band (off := 12288) _ x0 r _ ⟨12288 + (p.val / 1024 * 128 + p.val % 1024 / 8), by omega⟩ rfl,
      ld_band (off := 768) _ x2 _ _ ⟨768 + p.val % 1024, by omega⟩ rfl,
      h0, hT _ ⟨p.val % 1024, hj⟩ _ rfl, if_pos rfl, one_mul]
    unfold term
    rw [off2]
    congr 3
    · exact Fin.ext (by show 12288 + (p.val / 1024 * 128 + p.val % 1024 / 8) = (12288 + p.val / 2 ^ (2 + 1)) % 16368; norm_num <;> omega)
    · exact Fin.ext (by show (8 - 1 + p.val % 1024 % 8) % 2047 = (2 ^ (2 + 1) - 1 + p.val % 2 ^ (2 + 1)) % 2047; norm_num <;> omega)
  · intro k _ hk
    rw [ld_band (off := 768) _ x2 _ _ ⟨768 + p.val % 1024, by omega⟩ rfl, hT _ ⟨p.val % 1024, hj⟩ _ rfl,
      if_neg (fun h => hk (Fin.ext h)), zero_mul, mul_zero]
  · intro h; exact absurd (Finset.mem_univ _) h

/-- Scale 3 (window 16): of the 128 products only the one at `k = (p % 2048) / 16` is not zero, and it is the
    scale's term. -/
theorem small3 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 16)) (col : Fin 16128), col.val = 1792 + j.val →
      x2 (ix2 k col) = (if k.val = j.val / 16 then (1 : EReal) else 0) * Wt (ix1 (wcol (16 - 1 + j.val % 16)))) :
    (∑ k : Fin 128, View.ld x0 rD3 (ix2 r ⟨p.val / 2048 * 128 + k.val, by have := k.isLt; have := p.isLt; omega⟩)
        * View.ld x2 rT3 (ix2 k ⟨p.val % 2048, Nat.mod_lt _ (by norm_num)⟩))
      = term D Wt 3 b p := by
  have hp := p.isLt
  have hj : p.val % 2048 < 128 * 16 := Nat.mod_lt _ (by norm_num)
  have hq : p.val % 2048 / 16 < 128 := by omega
  rw [Finset.sum_eq_single (⟨p.val % 2048 / 16, hq⟩ : Fin 128)]
  · rw [ld_band (off := 14336) _ x0 r _ ⟨14336 + (p.val / 2048 * 128 + p.val % 2048 / 16), by omega⟩ rfl,
      ld_band (off := 1792) _ x2 _ _ ⟨1792 + p.val % 2048, by omega⟩ rfl,
      h0, hT _ ⟨p.val % 2048, hj⟩ _ rfl, if_pos rfl, one_mul]
    unfold term
    rw [off3]
    congr 3
    · exact Fin.ext (by show 14336 + (p.val / 2048 * 128 + p.val % 2048 / 16) = (14336 + p.val / 2 ^ (3 + 1)) % 16368; norm_num <;> omega)
    · exact Fin.ext (by show (16 - 1 + p.val % 2048 % 16) % 2047 = (2 ^ (3 + 1) - 1 + p.val % 2 ^ (3 + 1)) % 2047; norm_num <;> omega)
  · intro k _ hk
    rw [ld_band (off := 1792) _ x2 _ _ ⟨1792 + p.val % 2048, by omega⟩ rfl, hT _ ⟨p.val % 2048, hj⟩ _ rfl,
      if_neg (fun h => hk (Fin.ext h)), zero_mul, mul_zero]
  · intro h; exact absurd (Finset.mem_univ _) h

/-- Scale 4 (window 32): of the 128 products only the one at `k = (p % 4096) / 32` is not zero, and it is the
    scale's term. -/
theorem small4 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 32)) (col : Fin 16128), col.val = 3840 + j.val →
      x2 (ix2 k col) = (if k.val = j.val / 32 then (1 : EReal) else 0) * Wt (ix1 (wcol (32 - 1 + j.val % 32)))) :
    (∑ k : Fin 128, View.ld x0 rD4 (ix2 r ⟨p.val / 4096 * 128 + k.val, by have := k.isLt; have := p.isLt; omega⟩)
        * View.ld x2 rT4 (ix2 k ⟨p.val % 4096, Nat.mod_lt _ (by norm_num)⟩))
      = term D Wt 4 b p := by
  have hp := p.isLt
  have hj : p.val % 4096 < 128 * 32 := Nat.mod_lt _ (by norm_num)
  have hq : p.val % 4096 / 32 < 128 := by omega
  rw [Finset.sum_eq_single (⟨p.val % 4096 / 32, hq⟩ : Fin 128)]
  · rw [ld_band (off := 15360) _ x0 r _ ⟨15360 + (p.val / 4096 * 128 + p.val % 4096 / 32), by omega⟩ rfl,
      ld_band (off := 3840) _ x2 _ _ ⟨3840 + p.val % 4096, by omega⟩ rfl,
      h0, hT _ ⟨p.val % 4096, hj⟩ _ rfl, if_pos rfl, one_mul]
    unfold term
    rw [off4]
    congr 3
    · exact Fin.ext (by show 15360 + (p.val / 4096 * 128 + p.val % 4096 / 32) = (15360 + p.val / 2 ^ (4 + 1)) % 16368; norm_num <;> omega)
    · exact Fin.ext (by show (32 - 1 + p.val % 4096 % 32) % 2047 = (2 ^ (4 + 1) - 1 + p.val % 2 ^ (4 + 1)) % 2047; norm_num <;> omega)
  · intro k _ hk
    rw [ld_band (off := 3840) _ x2 _ _ ⟨3840 + p.val % 4096, by omega⟩ rfl, hT _ ⟨p.val % 4096, hj⟩ _ rfl,
      if_neg (fun h => hk (Fin.ext h)), zero_mul, mul_zero]
  · intro h; exact absurd (Finset.mem_univ _) h

/-- Scale 5 (window 64): of the 128 products only the one at `k = (p % 8192) / 64` is not zero, and it is the
    scale's term. -/
theorem small5 (x0 : Vec Ideal S64x16368 .f32) (x2 : Vec Ideal S128x16128 .f32) (D : Data) (Wt : Wts)
    (r : Fin 64) (b : Fin 2048) (p : Fin 16384)
    (h0 : ∀ k : Fin 16368, x0 (ix2 r k) = D (ix2 b k))
    (hT : ∀ (k : Fin 128) (j : Fin (128 * 64)) (col : Fin 16128), col.val = 7936 + j.val →
      x2 (ix2 k col) = (if k.val = j.val / 64 then (1 : EReal) else 0) * Wt (ix1 (wcol (64 - 1 + j.val % 64)))) :
    (∑ k : Fin 128, View.ld x0 rD5 (ix2 r ⟨p.val / 8192 * 128 + k.val, by have := k.isLt; have := p.isLt; omega⟩)
        * View.ld x2 rT5 (ix2 k ⟨p.val % 8192, Nat.mod_lt _ (by norm_num)⟩))
      = term D Wt 5 b p := by
  have hp := p.isLt
  have hj : p.val % 8192 < 128 * 64 := Nat.mod_lt _ (by norm_num)
  have hq : p.val % 8192 / 64 < 128 := by omega
  rw [Finset.sum_eq_single (⟨p.val % 8192 / 64, hq⟩ : Fin 128)]
  · rw [ld_band (off := 15872) _ x0 r _ ⟨15872 + (p.val / 8192 * 128 + p.val % 8192 / 64), by omega⟩ rfl,
      ld_band (off := 7936) _ x2 _ _ ⟨7936 + p.val % 8192, by omega⟩ rfl,
      h0, hT _ ⟨p.val % 8192, hj⟩ _ rfl, if_pos rfl, one_mul]
    unfold term
    rw [off5]
    congr 3
    · exact Fin.ext (by show 15872 + (p.val / 8192 * 128 + p.val % 8192 / 64) = (15872 + p.val / 2 ^ (5 + 1)) % 16368; norm_num <;> omega)
    · exact Fin.ext (by show (64 - 1 + p.val % 8192 % 64) % 2047 = (2 ^ (5 + 1) - 1 + p.val % 2 ^ (5 + 1)) % 2047; norm_num <;> omega)
  · intro k _ hk
    rw [ld_band (off := 7936) _ x2 _ _ ⟨7936 + p.val % 8192, by omega⟩ rfl, hT _ ⟨p.val % 8192, hj⟩ _ rfl,
      if_neg (fun h => hk (Fin.ext h)), zero_mul, mul_zero]
  · intro h; exact absurd (Finset.mem_univ _) h

/-- Scale 6 (window 128): the coefficient at `p / 128` times the tap `p % 128` is the scale's term. -/
theorem big6 (x0 : Vec Ideal S64x16368 .f32) (x1 : Vec Ideal S2047 .f32) (D : Data) (Wt : Wts)
    (r : Fin 64) (b : Fin 2048) (p : Fin 16384)
    (h0 : ∀ k : Fin 16368, x0 (ix2 r k) = D (ix2 b k))
    (h1 : ∀ k : Fin 2047, x1 (ix1 k) = Wt (ix1 k)) :
    View.ld x0 rD6 (ix2 r ⟨p.val / 128, by have := p.isLt; omega⟩) * View.ld x1 rW0 (ix1 ⟨p.val % 128, Nat.mod_lt _ (by norm_num)⟩)
      = term D Wt 6 b p := by
  have hp := p.isLt
  have hv : p.val % 128 < 128 := Nat.mod_lt _ (by norm_num)
  rw [ld_band (off := 16128) _ x0 r _ ⟨16128 + p.val / 128, by omega⟩ rfl,
    ld_seg (off := 127) _ x1 _ ⟨127 + p.val % 128, by omega⟩ rfl, h0, h1]
  unfold term
  rw [off6]
  congr 3
  · exact Fin.ext (by show 16128 + p.val / 128 = (16128 + p.val / 2 ^ (6 + 1)) % 16368; norm_num <;> omega)
  · exact Fin.ext (by show 127 + p.val % 128 = (2 ^ (6 + 1) - 1 + p.val % 2 ^ (6 + 1)) % 2047; norm_num <;> omega)

/-- Scale 7 (window 256): the coefficient at `p / 256` times the tap `p % 256` is the scale's term. -/
theorem big7 (x0 : Vec Ideal S64x16368 .f32) (x1 : Vec Ideal S2047 .f32) (D : Data) (Wt : Wts)
    (r : Fin 64) (b : Fin 2048) (p : Fin 16384)
    (h0 : ∀ k : Fin 16368, x0 (ix2 r k) = D (ix2 b k))
    (h1 : ∀ k : Fin 2047, x1 (ix1 k) = Wt (ix1 k)) :
    View.ld x0 rD7 (ix2 r ⟨p.val / 256, by have := p.isLt; omega⟩) * View.ld x1 rW1 (ix1 ⟨p.val % 256, Nat.mod_lt _ (by norm_num)⟩)
      = term D Wt 7 b p := by
  have hp := p.isLt
  have hv : p.val % 256 < 256 := Nat.mod_lt _ (by norm_num)
  rw [ld_band (off := 16256) _ x0 r _ ⟨16256 + p.val / 256, by omega⟩ rfl,
    ld_seg (off := 255) _ x1 _ ⟨255 + p.val % 256, by omega⟩ rfl, h0, h1]
  unfold term
  rw [off7]
  congr 3
  · exact Fin.ext (by show 16256 + p.val / 256 = (16256 + p.val / 2 ^ (7 + 1)) % 16368; norm_num <;> omega)
  · exact Fin.ext (by show 255 + p.val % 256 = (2 ^ (7 + 1) - 1 + p.val % 2 ^ (7 + 1)) % 2047; norm_num <;> omega)

/-- Scale 8 (window 512): the coefficient at `p / 512` times the tap `p % 512` is the scale's term. -/
theorem big8 (x0 : Vec Ideal S64x16368 .f32) (x1 : Vec Ideal S2047 .f32) (D : Data) (Wt : Wts)
    (r : Fin 64) (b : Fin 2048) (p : Fin 16384)
    (h0 : ∀ k : Fin 16368, x0 (ix2 r k) = D (ix2 b k))
    (h1 : ∀ k : Fin 2047, x1 (ix1 k) = Wt (ix1 k)) :
    View.ld x0 rD8 (ix2 r ⟨p.val / 512, by have := p.isLt; omega⟩) * View.ld x1 rW2 (ix1 ⟨p.val % 512, Nat.mod_lt _ (by norm_num)⟩)
      = term D Wt 8 b p := by
  have hp := p.isLt
  have hv : p.val % 512 < 512 := Nat.mod_lt _ (by norm_num)
  rw [ld_band (off := 16320) _ x0 r _ ⟨16320 + p.val / 512, by omega⟩ rfl,
    ld_seg (off := 511) _ x1 _ ⟨511 + p.val % 512, by omega⟩ rfl, h0, h1]
  unfold term
  rw [off8]
  congr 3
  · exact Fin.ext (by show 16320 + p.val / 512 = (16320 + p.val / 2 ^ (8 + 1)) % 16368; norm_num <;> omega)
  · exact Fin.ext (by show 511 + p.val % 512 = (2 ^ (8 + 1) - 1 + p.val % 2 ^ (8 + 1)) % 2047; norm_num <;> omega)

/-- Scale 9 (window 1024): the coefficient at `p / 1024` times the tap `p % 1024` is the scale's term. -/
theorem big9 (x0 : Vec Ideal S64x16368 .f32) (x1 : Vec Ideal S2047 .f32) (D : Data) (Wt : Wts)
    (r : Fin 64) (b : Fin 2048) (p : Fin 16384)
    (h0 : ∀ k : Fin 16368, x0 (ix2 r k) = D (ix2 b k))
    (h1 : ∀ k : Fin 2047, x1 (ix1 k) = Wt (ix1 k)) :
    View.ld x0 rD9 (ix2 r ⟨p.val / 1024, by have := p.isLt; omega⟩) * View.ld x1 rW3 (ix1 ⟨p.val % 1024, Nat.mod_lt _ (by norm_num)⟩)
      = term D Wt 9 b p := by
  have hp := p.isLt
  have hv : p.val % 1024 < 1024 := Nat.mod_lt _ (by norm_num)
  rw [ld_band (off := 16352) _ x0 r _ ⟨16352 + p.val / 1024, by omega⟩ rfl,
    ld_seg (off := 1023) _ x1 _ ⟨1023 + p.val % 1024, by omega⟩ rfl, h0, h1]
  unfold term
  rw [off9]
  congr 3
  · exact Fin.ext (by show 16352 + p.val / 1024 = (16352 + p.val / 2 ^ (9 + 1)) % 16368; norm_num <;> omega)
  · exact Fin.ext (by show 1023 + p.val % 1024 = (2 ^ (9 + 1) - 1 + p.val % 2 ^ (9 + 1)) % 2047; norm_num <;> omega)

/-- The block after the body, at one entry: the sum of the ten biases, then the ten scales' terms in order. -/
theorem outBlk_at (x0 : Vec Ideal S64x16368 .f32) (x1 : Vec Ideal S2047 .f32) (x2 : Vec Ideal S128x16128 .f32)
    (x3 : Vec Ideal S1x1 .f32) (D : Data) (Wt : Wts) (Bs : Bias) (r : Fin 64) (b : Fin 2048) (p : Fin 16384)
    (h0 : ∀ k : Fin 16368, x0 (ix2 r k) = D (ix2 b k))
    (h1 : ∀ k : Fin 2047, x1 (ix1 k) = Wt (ix1 k))
    (h3 : x3 (ix2 0 0) = 0 + ∑ k : Fin 10, Bs (ix1 k))
    (hT2 : ∀ (k : Fin 128) (j : Fin (128 * 2)) (col : Fin 16128), col.val = 0 + j.val →
      x2 (ix2 k col) = (if k.val = j.val / 2 then (1 : EReal) else 0) * Wt (ix1 (wcol (2 - 1 + j.val % 2))))
    (hT4 : ∀ (k : Fin 128) (j : Fin (128 * 4)) (col : Fin 16128), col.val = 256 + j.val →
      x2 (ix2 k col) = (if k.val = j.val / 4 then (1 : EReal) else 0) * Wt (ix1 (wcol (4 - 1 + j.val % 4))))
    (hT8 : ∀ (k : Fin 128) (j : Fin (128 * 8)) (col : Fin 16128), col.val = 768 + j.val →
      x2 (ix2 k col) = (if k.val = j.val / 8 then (1 : EReal) else 0) * Wt (ix1 (wcol (8 - 1 + j.val % 8))))
    (hT16 : ∀ (k : Fin 128) (j : Fin (128 * 16)) (col : Fin 16128), col.val = 1792 + j.val →
      x2 (ix2 k col) = (if k.val = j.val / 16 then (1 : EReal) else 0) * Wt (ix1 (wcol (16 - 1 + j.val % 16))))
    (hT32 : ∀ (k : Fin 128) (j : Fin (128 * 32)) (col : Fin 16128), col.val = 3840 + j.val →
      x2 (ix2 k col) = (if k.val = j.val / 32 then (1 : EReal) else 0) * Wt (ix1 (wcol (32 - 1 + j.val % 32))))
    (hT64 : ∀ (k : Fin 128) (j : Fin (128 * 64)) (col : Fin 16128), col.val = 7936 + j.val →
      x2 (ix2 k col) = (if k.val = j.val / 64 then (1 : EReal) else 0) * Wt (ix1 (wcol (64 - 1 + j.val % 64)))) :
    outBlk x0 x1 x2 x3 (ix2 r p) = kerAcc D Wt Bs b p 10 := by
  unfold outBlk
  rw [pay2_at, pay1_at, pay12_at, pay11_at, pay10_at, pay9_at, pay8_at, pay7_at, pay5_at, pay4_at, pay3_at]
  simp only [kerAcc]
  rw [big9 x0 x1 D Wt r b p h0 h1, big8 x0 x1 D Wt r b p h0 h1, big7 x0 x1 D Wt r b p h0 h1, big6 x0 x1 D Wt r b p h0 h1,
    small5 x0 x2 D Wt r b p h0 hT64, small4 x0 x2 D Wt r b p h0 hT32, small3 x0 x2 D Wt r b p h0 hT16,
    small2 x0 x2 D Wt r b p h0 hT8, small1 x0 x2 D Wt r b p h0 hT4, small0 x0 x2 D Wt r b p h0 hT2]
  have e3 : View.ld x3 rS (ix2 0 0) = x3 (ix2 0 0) :=
    congrArg x3 (funext fun a => Fin.ext (by match a with | ⟨0, _⟩ => rfl | ⟨1, _⟩ => rfl))
  rw [e3, h3]

end Cert.KernelIdeal.BlockVal

end
-- ==== Proof.KernelValue.lean ====
/-
  The kernel program's result array after the run is the specification's biases-first sum of the launch arrays.

  Point `t` of the grid writes rows `64 t … 64 t + 63` of the result, the 32 points cover all 2048 rows, and what
  a point writes at `(r, p)` is the block's entry computed from row `64 t + r` of the encoded signal, the whole
  weight vector, the whole table and the scalar block, which are what the host operations before the region leave
  (the launch arrays untouched, the table's entries the taps placed on the diagonal groups, the scalar the sum of
  the ten biases).
-/
import proofs.«119412_j18751827214349_2_alg».proof.Proof.KIFrame
import proofs.«119412_j18751827214349_2_alg».proof.Proof.KIBlocks
import proofs.«119412_j18751827214349_2_alg».proof.Proof.HostVal
import proofs.«119412_j18751827214349_2_alg».proof.Proof.BlockVal
import proofs.«119412_j18751827214349_2_alg».proof.Proof.Spec

noncomputable section

open scoped BigOperators

namespace Cert.KernelIdeal.KVal

open Cert.KernelIdeal Cert.KernelIdeal.Gen Cert.Tsc
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification's sum of core `c`'s launch arrays, as an array. -/
def G (c : Dev nD) : S2048x16384.Idx → EReal := fun i =>
  kerAcc (m ((c : Thread nD τ).loc main_arg0)) (m ((c : Thread nD τ).loc main_arg1)) (m ((c : Thread nD τ).loc main_arg2)) (i 0) (i 1) 10

/-- Core `c`'s launch memory, as the host operations find it. -/
abbrev launch (c : Dev nD) : Valuation τ sig (Elt Ideal) := fun b => m (c, b)

/-- The scalar block's array when the region is entered: the sum of the ten biases from zero. -/
theorem entry_scalar (c : Dev nD) :
    (Frm.V m c main_v1 : S1x1.Idx → EReal) (ix2 0 0)
      = (fun bs : Bias => 0 + ∑ k : Fin 10, bs (ix1 k)) (m ((c : Thread nD τ).loc main_arg2)) :=
  HostVal.bias_total' (launch m c) _ rfl

/-- The table's band for window 2 when the region is entered. -/
theorem entry_table2 (c : Dev nD) (k : Fin 128) (j : Fin (128 * 2)) (col : Fin 16128) (h : col.val = 0 + j.val) :
    (Frm.V m c main_v98 : S128x16128.Idx → EReal) (ix2 k col)
      = (if k.val = j.val / 2 then (1 : EReal) else 0) * (m ((c : Thread nD τ).loc main_arg1) : S2047.Idx → EReal) (ix1 (wcol (2 - 1 + j.val % 2))) :=
  HostVal.table_2' (launch m c) _ rfl k j col h

/-- The table's band for window 4 when the region is entered. -/
theorem entry_table4 (c : Dev nD) (k : Fin 128) (j : Fin (128 * 4)) (col : Fin 16128) (h : col.val = 256 + j.val) :
    (Frm.V m c main_v98 : S128x16128.Idx → EReal) (ix2 k col)
      = (if k.val = j.val / 4 then (1 : EReal) else 0) * (m ((c : Thread nD τ).loc main_arg1) : S2047.Idx → EReal) (ix1 (wcol (4 - 1 + j.val % 4))) :=
  HostVal.table_4' (launch m c) _ rfl k j col h

/-- The table's band for window 8 when the region is entered. -/
theorem entry_table8 (c : Dev nD) (k : Fin 128) (j : Fin (128 * 8)) (col : Fin 16128) (h : col.val = 768 + j.val) :
    (Frm.V m c main_v98 : S128x16128.Idx → EReal) (ix2 k col)
      = (if k.val = j.val / 8 then (1 : EReal) else 0) * (m ((c : Thread nD τ).loc main_arg1) : S2047.Idx → EReal) (ix1 (wcol (8 - 1 + j.val % 8))) :=
  HostVal.table_8' (launch m c) _ rfl k j col h

/-- The table's band for window 16 when the region is entered. -/
theorem entry_table16 (c : Dev nD) (k : Fin 128) (j : Fin (128 * 16)) (col : Fin 16128) (h : col.val = 1792 + j.val) :
    (Frm.V m c main_v98 : S128x16128.Idx → EReal) (ix2 k col)
      = (if k.val = j.val / 16 then (1 : EReal) else 0) * (m ((c : Thread nD τ).loc main_arg1) : S2047.Idx → EReal) (ix1 (wcol (16 - 1 + j.val % 16))) :=
  HostVal.table_16' (launch m c) _ rfl k j col h

/-- The table's band for window 32 when the region is entered. -/
theorem entry_table32 (c : Dev nD) (k : Fin 128) (j : Fin (128 * 32)) (col : Fin 16128) (h : col.val = 3840 + j.val) :
    (Frm.V m c main_v98 : S128x16128.Idx → EReal) (ix2 k col)
      = (if k.val = j.val / 32 then (1 : EReal) else 0) * (m ((c : Thread nD τ).loc main_arg1) : S2047.Idx → EReal) (ix1 (wcol (32 - 1 + j.val % 32))) :=
  HostVal.table_32' (launch m c) _ rfl k j col h

/-- The table's band for window 64 when the region is entered. -/
theorem entry_table64 (c : Dev nD) (k : Fin 128) (j : Fin (128 * 64)) (col : Fin 16128) (h : col.val = 7936 + j.val) :
    (Frm.V m c main_v98 : S128x16128.Idx → EReal) (ix2 k col)
      = (if k.val = j.val / 64 then (1 : EReal) else 0) * (m ((c : Thread nD τ).loc main_arg1) : S2047.Idx → EReal) (ix1 (wcol (64 - 1 + j.val % 64))) :=
  HostVal.table_64' (launch m c) _ rfl k j col h

/-- Every entry a point writes back is the specification's. -/
theorem written (c : Dev nD) (t : Fin cfg0.N) (r : Fin 64) (p : Fin 16384) :
    ((Frm.dats m 0 c).after 4 t : S64x16384.Idx → Elt Ideal .f32) (ix2 r p)
      = G m c (ix2 (⟨64 * t.val + r.val, by have := t.isLt; have := Frm.N_eq; have := r.isLt; omega⟩ : Fin 2048) p) := by
  rw [Frm.after0_4]
  exact BlockVal.outBlk_at (Frm.iblk m c 0 t) (Frm.iblk m c 1 t) (Frm.iblk m c 2 t) (Frm.iblk m c 3 t)
    (m ((c : Thread nD τ).loc main_arg0)) (m ((c : Thread nD τ).loc main_arg1)) (m ((c : Thread nD τ).loc main_arg2)) r _ p
    (fun k => (Frm.iblk0_apply m c t r k).trans (congrFun (Frm.V_main_arg0 m c) _))
    (fun k => (Frm.iblk1_apply m c t k).trans (congrFun (Frm.V_main_arg1 m c) _))
    ((Frm.iblk3_apply m c t).trans (entry_scalar m c))
    (fun k j col h => (Frm.iblk2_apply m c t k col).trans (entry_table2 m c k j col h))
    (fun k j col h => (Frm.iblk2_apply m c t k col).trans (entry_table4 m c k j col h))
    (fun k j col h => (Frm.iblk2_apply m c t k col).trans (entry_table8 m c k j col h))
    (fun k j col h => (Frm.iblk2_apply m c t k col).trans (entry_table16 m c k j col h))
    (fun k j col h => (Frm.iblk2_apply m c t k col).trans (entry_table32 m c k j col h))
    (fun k j col h => (Frm.iblk2_apply m c t k col).trans (entry_table64 m c k j col h))

/-- The result array after the last point. -/
theorem final (c : Dev nD) : (Frm.dats m 0 c).arrAt 4 cfg0.N = G m c :=
  Frm.arrAt_out (Frm.dats m 0 c) (G m c) (written m c)

/-- The run, with the result array named. -/
theorem run : θ_run defs (onTc (τ := τ) (main (F := Ideal))) ⟨m, fun _ => 0, ρ⟩ (fun r => ∀ c : Dev nD,
      r.2.mem ((c.tc : Thread nD τ).loc main_v99) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (Frm.run_blocks m ρ)

end Cert.KernelIdeal.KVal

end
-- ==== Proof.RefValue.lean ====
/-
  The reference program read index by index.

  The program handles the ten dyadic scales one after another.  For scale `e` (windows of width `w = 2^(e+1)`,
  `n = 16384 / w` of them) it takes `w` filter taps and `n` columns of the encoded signal, forms the outer product
  as an array `[2048, n, w]`, and lays it out again as `[2048, 16384]`: row-major order sends entry `(b, p)` of the
  result to entry `(b, p / w, p % w)` of the product, that is, to coefficient `p / w` of the scale times tap
  `p % w`.  This is `Cert.Tsc.term`.  The running sum starts from zero and receives, scale by scale, the
  contribution and then the scale's bias, which is `Cert.Tsc.refAcc`.
-/
import proofs.«119412_j18751827214349_2_alg».proof.Proof.Spec
import proofs.«119412_j18751827214349_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- A one-entry vector laid out as a scalar: the scalar is that entry. -/
theorem scalar_of_one {α : Type} (y : S1.Idx → α) (j : S_.Idx) :
    shapeCast S_ y shapeCasts_S1_S_ j = y (ix1 (0 : Fin 1)) := by
  refine shapeCast_apply y shapeCasts_S1_S_ j (ix1 (0 : Fin 1)) ?_
  have h1 : (S1.rowMajor (ix1 (0 : Fin 1))).val < 1 := (S1.rowMajor (ix1 (0 : Fin 1))).isLt
  have h2 : (S_.rowMajor j).val < 1 := (S_.rowMajor j).isLt
  omega

/-! ## Scale 0: windows of width 2, 8192 of them, coefficients from column 0, taps from entry 1 -/

/-- Entry `(b, p)` of scale 0's contribution reads coefficient `p / 2` of the scale. -/
theorem didx_0 (b : Fin 2048) (p : Fin 16384) :
    idx_main_v2 (idx_main_v3 (idx_main_v5 (idx_main_v8 (ix2 b p))))
      = ix2 b (Cert.Tsc.dcol (Cert.Tsc.off 0 + p.val / 2 ^ (0 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show (b.val * 16384 + p.val) / 2 % 8192 = (0 + p.val / 2) % 16368; omega)

/-- Entry `(b, p)` of scale 0's contribution reads tap `p % 2` of the scale. -/
theorem widx_0 (b : Fin 2048) (p : Fin 16384) :
    idx_main_v1 (idx_main_v4 (idx_main_v6 (idx_main_v8 (ix2 b p))))
      = ix1 (Cert.Tsc.wcol (2 ^ (0 + 1) - 1 + p.val % 2 ^ (0 + 1))) := by
  have hb : b.val < 2048 := b.isLt
  have hp : p.val < 16384 := p.isLt
  funext a
  match a with
  | ⟨0, _⟩ => exact Fin.ext (by show 1 + (b.val * 16384 + p.val) % 2 = (1 + p.val % 2) % 2047; omega)

/-- Scale 0's contribution at `(b, p)`. -/
theorem contrib_0 (x0 : (⟨S2048x16368, .f32⟩ : BufTy).Contents (Elt Ideal)) (x1 : (⟨S2047, .f32⟩ : BufTy).Contents (Elt Ideal))
    (b : Fin 2048) (p : Fin 16384) :
    val_main_v8 (F := Ideal) x0 x1 (ix2 b p) = Cert.Tsc.term x0 x1 0 b p := by
  rw [val_main_v8_apply, val_main_v7_apply, val_main_v5_apply, val_main_v3_apply, val_main_v2_apply, val_main_v6_apply, val_main_v4_apply, val_main_v1_apply,
    didx_0, widx_0, Ideal.mulf_def]
  rfl

/-- Scale 0's bias, broadcast to every entry. -/
theorem bias_0 (x2 : (⟨S10, .f32⟩ : BufTy).Contents (Elt Ideal)) (b : Fin 2048) (p : Fin 16384) :
    val_main_v12 (F := Ideal) x2 (ix2 b p) = x2 (ix1 (Cert.Tsc.bcol 0)) := by
  rw [val_main_v12_apply]
  unfold val_main_v11
  rw [scalar_of_one, val_main_v10_apply]
  refine congrArg x2 ?_
  funext a
  match a with
  | ⟨0, _⟩ => exact Fin.ext (by show (0 : ℕ) = 0 % 10; omega)

/-- The running sum after scale 0. -/
theorem acc_0 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v13 (F := Ideal) x0 x1 x2 (ix2 b p) = Cert.Tsc.refAcc x0 x1 x2 b p (0 + 1) := by
  rw [val_main_v13_apply, val_main_v9_apply, val_main_v0_apply, val_main_cst_apply, Ideal.ofBits_def, Ideal.ofBits_zero_f32, contrib_0, bias_0, Ideal.addf_def, Ideal.addf_def]
  rfl

/-! ## Scale 1: windows of width 4, 4096 of them, coefficients from column 8192, taps from entry 3 -/

/-- Entry `(b, p)` of scale 1's contribution reads coefficient `p / 4` of the scale. -/
theorem didx_1 (b : Fin 2048) (p : Fin 16384) :
    idx_main_v15 (idx_main_v16 (idx_main_v18 (idx_main_v21 (ix2 b p))))
      = ix2 b (Cert.Tsc.dcol (Cert.Tsc.off 1 + p.val / 2 ^ (1 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 8192 + (b.val * 16384 + p.val) / 4 % 4096 = (8192 + p.val / 4) % 16368; omega)

/-- Entry `(b, p)` of scale 1's contribution reads tap `p % 4` of the scale. -/
theorem widx_1 (b : Fin 2048) (p : Fin 16384) :
    idx_main_v14 (idx_main_v17 (idx_main_v19 (idx_main_v21 (ix2 b p))))
      = ix1 (Cert.Tsc.wcol (2 ^ (1 + 1) - 1 + p.val % 2 ^ (1 + 1))) := by
  have hb : b.val < 2048 := b.isLt
  have hp : p.val < 16384 := p.isLt
  funext a
  match a with
  | ⟨0, _⟩ => exact Fin.ext (by show 3 + (b.val * 16384 + p.val) % 4 = (3 + p.val % 4) % 2047; omega)

/-- Scale 1's contribution at `(b, p)`. -/
theorem contrib_1 (x0 : (⟨S2048x16368, .f32⟩ : BufTy).Contents (Elt Ideal)) (x1 : (⟨S2047, .f32⟩ : BufTy).Contents (Elt Ideal))
    (b : Fin 2048) (p : Fin 16384) :
    val_main_v21 (F := Ideal) x0 x1 (ix2 b p) = Cert.Tsc.term x0 x1 1 b p := by
  rw [val_main_v21_apply, val_main_v20_apply, val_main_v18_apply, val_main_v16_apply, val_main_v15_apply, val_main_v19_apply, val_main_v17_apply, val_main_v14_apply,
    didx_1, widx_1, Ideal.mulf_def]
  rfl

/-- Scale 1's bias, broadcast to every entry. -/
theorem bias_1 (x2 : (⟨S10, .f32⟩ : BufTy).Contents (Elt Ideal)) (b : Fin 2048) (p : Fin 16384) :
    val_main_v25 (F := Ideal) x2 (ix2 b p) = x2 (ix1 (Cert.Tsc.bcol 1)) := by
  rw [val_main_v25_apply]
  unfold val_main_v24
  rw [scalar_of_one, val_main_v23_apply]
  refine congrArg x2 ?_
  funext a
  match a with
  | ⟨0, _⟩ => exact Fin.ext (by show 1 + 0 = 1 % 10; omega)

/-- The running sum after scale 1. -/
theorem acc_1 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v26 (F := Ideal) x0 x1 x2 (ix2 b p) = Cert.Tsc.refAcc x0 x1 x2 b p (1 + 1) := by
  rw [val_main_v26_apply, val_main_v22_apply, acc_0, contrib_1, bias_1, Ideal.addf_def, Ideal.addf_def]
  rfl

/-! ## Scale 2: windows of width 8, 2048 of them, coefficients from column 12288, taps from entry 7 -/

/-- Entry `(b, p)` of scale 2's contribution reads coefficient `p / 8` of the scale. -/
theorem didx_2 (b : Fin 2048) (p : Fin 16384) :
    idx_main_v28 (idx_main_v29 (idx_main_v31 (idx_main_v34 (ix2 b p))))
      = ix2 b (Cert.Tsc.dcol (Cert.Tsc.off 2 + p.val / 2 ^ (2 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 12288 + (b.val * 16384 + p.val) / 8 % 2048 = (12288 + p.val / 8) % 16368; omega)

/-- Entry `(b, p)` of scale 2's contribution reads tap `p % 8` of the scale. -/
theorem widx_2 (b : Fin 2048) (p : Fin 16384) :
    idx_main_v27 (idx_main_v30 (idx_main_v32 (idx_main_v34 (ix2 b p))))
      = ix1 (Cert.Tsc.wcol (2 ^ (2 + 1) - 1 + p.val % 2 ^ (2 + 1))) := by
  have hb : b.val < 2048 := b.isLt
  have hp : p.val < 16384 := p.isLt
  funext a
  match a with
  | ⟨0, _⟩ => exact Fin.ext (by show 7 + (b.val * 16384 + p.val) % 8 = (7 + p.val % 8) % 2047; omega)

/-- Scale 2's contribution at `(b, p)`. -/
theorem contrib_2 (x0 : (⟨S2048x16368, .f32⟩ : BufTy).Contents (Elt Ideal)) (x1 : (⟨S2047, .f32⟩ : BufTy).Contents (Elt Ideal))
    (b : Fin 2048) (p : Fin 16384) :
    val_main_v34 (F := Ideal) x0 x1 (ix2 b p) = Cert.Tsc.term x0 x1 2 b p := by
  rw [val_main_v34_apply, val_main_v33_apply, val_main_v31_apply, val_main_v29_apply, val_main_v28_apply, val_main_v32_apply, val_main_v30_apply, val_main_v27_apply,
    didx_2, widx_2, Ideal.mulf_def]
  rfl

/-- Scale 2's bias, broadcast to every entry. -/
theorem bias_2 (x2 : (⟨S10, .f32⟩ : BufTy).Contents (Elt Ideal)) (b : Fin 2048) (p : Fin 16384) :
    val_main_v38 (F := Ideal) x2 (ix2 b p) = x2 (ix1 (Cert.Tsc.bcol 2)) := by
  rw [val_main_v38_apply]
  unfold val_main_v37
  rw [scalar_of_one, val_main_v36_apply]
  refine congrArg x2 ?_
  funext a
  match a with
  | ⟨0, _⟩ => exact Fin.ext (by show 2 + 0 = 2 % 10; omega)

/-- The running sum after scale 2. -/
theorem acc_2 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v39 (F := Ideal) x0 x1 x2 (ix2 b p) = Cert.Tsc.refAcc x0 x1 x2 b p (2 + 1) := by
  rw [val_main_v39_apply, val_main_v35_apply, acc_1, contrib_2, bias_2, Ideal.addf_def, Ideal.addf_def]
  rfl

/-! ## Scale 3: windows of width 16, 1024 of them, coefficients from column 14336, taps from entry 15 -/

/-- Entry `(b, p)` of scale 3's contribution reads coefficient `p / 16` of the scale. -/
theorem didx_3 (b : Fin 2048) (p : Fin 16384) :
    idx_main_v41 (idx_main_v42 (idx_main_v44 (idx_main_v47 (ix2 b p))))
      = ix2 b (Cert.Tsc.dcol (Cert.Tsc.off 3 + p.val / 2 ^ (3 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 14336 + (b.val * 16384 + p.val) / 16 % 1024 = (14336 + p.val / 16) % 16368; omega)

/-- Entry `(b, p)` of scale 3's contribution reads tap `p % 16` of the scale. -/
theorem widx_3 (b : Fin 2048) (p : Fin 16384) :
    idx_main_v40 (idx_main_v43 (idx_main_v45 (idx_main_v47 (ix2 b p))))
      = ix1 (Cert.Tsc.wcol (2 ^ (3 + 1) - 1 + p.val % 2 ^ (3 + 1))) := by
  have hb : b.val < 2048 := b.isLt
  have hp : p.val < 16384 := p.isLt
  funext a
  match a with
  | ⟨0, _⟩ => exact Fin.ext (by show 15 + (b.val * 16384 + p.val) % 16 = (15 + p.val % 16) % 2047; omega)

/-- Scale 3's contribution at `(b, p)`. -/
theorem contrib_3 (x0 : (⟨S2048x16368, .f32⟩ : BufTy).Contents (Elt Ideal)) (x1 : (⟨S2047, .f32⟩ : BufTy).Contents (Elt Ideal))
    (b : Fin 2048) (p : Fin 16384) :
    val_main_v47 (F := Ideal) x0 x1 (ix2 b p) = Cert.Tsc.term x0 x1 3 b p := by
  rw [val_main_v47_apply, val_main_v46_apply, val_main_v44_apply, val_main_v42_apply, val_main_v41_apply, val_main_v45_apply, val_main_v43_apply, val_main_v40_apply,
    didx_3, widx_3, Ideal.mulf_def]
  rfl

/-- Scale 3's bias, broadcast to every entry. -/
theorem bias_3 (x2 : (⟨S10, .f32⟩ : BufTy).Contents (Elt Ideal)) (b : Fin 2048) (p : Fin 16384) :
    val_main_v51 (F := Ideal) x2 (ix2 b p) = x2 (ix1 (Cert.Tsc.bcol 3)) := by
  rw [val_main_v51_apply]
  unfold val_main_v50
  rw [scalar_of_one, val_main_v49_apply]
  refine congrArg x2 ?_
  funext a
  match a with
  | ⟨0, _⟩ => exact Fin.ext (by show 3 + 0 = 3 % 10; omega)

/-- The running sum after scale 3. -/
theorem acc_3 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v52 (F := Ideal) x0 x1 x2 (ix2 b p) = Cert.Tsc.refAcc x0 x1 x2 b p (3 + 1) := by
  rw [val_main_v52_apply, val_main_v48_apply, acc_2, contrib_3, bias_3, Ideal.addf_def, Ideal.addf_def]
  rfl

/-! ## Scale 4: windows of width 32, 512 of them, coefficients from column 15360, taps from entry 31 -/

/-- Entry `(b, p)` of scale 4's contribution reads coefficient `p / 32` of the scale. -/
theorem didx_4 (b : Fin 2048) (p : Fin 16384) :
    idx_main_v54 (idx_main_v55 (idx_main_v57 (idx_main_v60 (ix2 b p))))
      = ix2 b (Cert.Tsc.dcol (Cert.Tsc.off 4 + p.val / 2 ^ (4 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 15360 + (b.val * 16384 + p.val) / 32 % 512 = (15360 + p.val / 32) % 16368; omega)

/-- Entry `(b, p)` of scale 4's contribution reads tap `p % 32` of the scale. -/
theorem widx_4 (b : Fin 2048) (p : Fin 16384) :
    idx_main_v53 (idx_main_v56 (idx_main_v58 (idx_main_v60 (ix2 b p))))
      = ix1 (Cert.Tsc.wcol (2 ^ (4 + 1) - 1 + p.val % 2 ^ (4 + 1))) := by
  have hb : b.val < 2048 := b.isLt
  have hp : p.val < 16384 := p.isLt
  funext a
  match a with
  | ⟨0, _⟩ => exact Fin.ext (by show 31 + (b.val * 16384 + p.val) % 32 = (31 + p.val % 32) % 2047; omega)

/-- Scale 4's contribution at `(b, p)`. -/
theorem contrib_4 (x0 : (⟨S2048x16368, .f32⟩ : BufTy).Contents (Elt Ideal)) (x1 : (⟨S2047, .f32⟩ : BufTy).Contents (Elt Ideal))
    (b : Fin 2048) (p : Fin 16384) :
    val_main_v60 (F := Ideal) x0 x1 (ix2 b p) = Cert.Tsc.term x0 x1 4 b p := by
  rw [val_main_v60_apply, val_main_v59_apply, val_main_v57_apply, val_main_v55_apply, val_main_v54_apply, val_main_v58_apply, val_main_v56_apply, val_main_v53_apply,
    didx_4, widx_4, Ideal.mulf_def]
  rfl

/-- Scale 4's bias, broadcast to every entry. -/
theorem bias_4 (x2 : (⟨S10, .f32⟩ : BufTy).Contents (Elt Ideal)) (b : Fin 2048) (p : Fin 16384) :
    val_main_v64 (F := Ideal) x2 (ix2 b p) = x2 (ix1 (Cert.Tsc.bcol 4)) := by
  rw [val_main_v64_apply]
  unfold val_main_v63
  rw [scalar_of_one, val_main_v62_apply]
  refine congrArg x2 ?_
  funext a
  match a with
  | ⟨0, _⟩ => exact Fin.ext (by show 4 + 0 = 4 % 10; omega)

/-- The running sum after scale 4. -/
theorem acc_4 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v65 (F := Ideal) x0 x1 x2 (ix2 b p) = Cert.Tsc.refAcc x0 x1 x2 b p (4 + 1) := by
  rw [val_main_v65_apply, val_main_v61_apply, acc_3, contrib_4, bias_4, Ideal.addf_def, Ideal.addf_def]
  rfl

/-! ## Scale 5: windows of width 64, 256 of them, coefficients from column 15872, taps from entry 63 -/

/-- Entry `(b, p)` of scale 5's contribution reads coefficient `p / 64` of the scale. -/
theorem didx_5 (b : Fin 2048) (p : Fin 16384) :
    idx_main_v67 (idx_main_v68 (idx_main_v70 (idx_main_v73 (ix2 b p))))
      = ix2 b (Cert.Tsc.dcol (Cert.Tsc.off 5 + p.val / 2 ^ (5 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 15872 + (b.val * 16384 + p.val) / 64 % 256 = (15872 + p.val / 64) % 16368; omega)

/-- Entry `(b, p)` of scale 5's contribution reads tap `p % 64` of the scale. -/
theorem widx_5 (b : Fin 2048) (p : Fin 16384) :
    idx_main_v66 (idx_main_v69 (idx_main_v71 (idx_main_v73 (ix2 b p))))
      = ix1 (Cert.Tsc.wcol (2 ^ (5 + 1) - 1 + p.val % 2 ^ (5 + 1))) := by
  have hb : b.val < 2048 := b.isLt
  have hp : p.val < 16384 := p.isLt
  funext a
  match a with
  | ⟨0, _⟩ => exact Fin.ext (by show 63 + (b.val * 16384 + p.val) % 64 = (63 + p.val % 64) % 2047; omega)

/-- Scale 5's contribution at `(b, p)`. -/
theorem contrib_5 (x0 : (⟨S2048x16368, .f32⟩ : BufTy).Contents (Elt Ideal)) (x1 : (⟨S2047, .f32⟩ : BufTy).Contents (Elt Ideal))
    (b : Fin 2048) (p : Fin 16384) :
    val_main_v73 (F := Ideal) x0 x1 (ix2 b p) = Cert.Tsc.term x0 x1 5 b p := by
  rw [val_main_v73_apply, val_main_v72_apply, val_main_v70_apply, val_main_v68_apply, val_main_v67_apply, val_main_v71_apply, val_main_v69_apply, val_main_v66_apply,
    didx_5, widx_5, Ideal.mulf_def]
  rfl

/-- Scale 5's bias, broadcast to every entry. -/
theorem bias_5 (x2 : (⟨S10, .f32⟩ : BufTy).Contents (Elt Ideal)) (b : Fin 2048) (p : Fin 16384) :
    val_main_v77 (F := Ideal) x2 (ix2 b p) = x2 (ix1 (Cert.Tsc.bcol 5)) := by
  rw [val_main_v77_apply]
  unfold val_main_v76
  rw [scalar_of_one, val_main_v75_apply]
  refine congrArg x2 ?_
  funext a
  match a with
  | ⟨0, _⟩ => exact Fin.ext (by show 5 + 0 = 5 % 10; omega)

/-- The running sum after scale 5. -/
theorem acc_5 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v78 (F := Ideal) x0 x1 x2 (ix2 b p) = Cert.Tsc.refAcc x0 x1 x2 b p (5 + 1) := by
  rw [val_main_v78_apply, val_main_v74_apply, acc_4, contrib_5, bias_5, Ideal.addf_def, Ideal.addf_def]
  rfl

/-! ## Scale 6: windows of width 128, 128 of them, coefficients from column 16128, taps from entry 127 -/

/-- Entry `(b, p)` of scale 6's contribution reads coefficient `p / 128` of the scale. -/
theorem didx_6 (b : Fin 2048) (p : Fin 16384) :
    idx_main_v80 (idx_main_v81 (idx_main_v83 (idx_main_v86 (ix2 b p))))
      = ix2 b (Cert.Tsc.dcol (Cert.Tsc.off 6 + p.val / 2 ^ (6 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 16128 + (b.val * 16384 + p.val) / 128 % 128 = (16128 + p.val / 128) % 16368; omega)

/-- Entry `(b, p)` of scale 6's contribution reads tap `p % 128` of the scale. -/
theorem widx_6 (b : Fin 2048) (p : Fin 16384) :
    idx_main_v79 (idx_main_v82 (idx_main_v84 (idx_main_v86 (ix2 b p))))
      = ix1 (Cert.Tsc.wcol (2 ^ (6 + 1) - 1 + p.val % 2 ^ (6 + 1))) := by
  have hb : b.val < 2048 := b.isLt
  have hp : p.val < 16384 := p.isLt
  funext a
  match a with
  | ⟨0, _⟩ => exact Fin.ext (by show 127 + (b.val * 16384 + p.val) % 128 = (127 + p.val % 128) % 2047; omega)

/-- Scale 6's contribution at `(b, p)`. -/
theorem contrib_6 (x0 : (⟨S2048x16368, .f32⟩ : BufTy).Contents (Elt Ideal)) (x1 : (⟨S2047, .f32⟩ : BufTy).Contents (Elt Ideal))
    (b : Fin 2048) (p : Fin 16384) :
    val_main_v86 (F := Ideal) x0 x1 (ix2 b p) = Cert.Tsc.term x0 x1 6 b p := by
  rw [val_main_v86_apply, val_main_v85_apply, val_main_v83_apply, val_main_v81_apply, val_main_v80_apply, val_main_v84_apply, val_main_v82_apply, val_main_v79_apply,
    didx_6, widx_6, Ideal.mulf_def]
  rfl

/-- Scale 6's bias, broadcast to every entry. -/
theorem bias_6 (x2 : (⟨S10, .f32⟩ : BufTy).Contents (Elt Ideal)) (b : Fin 2048) (p : Fin 16384) :
    val_main_v90 (F := Ideal) x2 (ix2 b p) = x2 (ix1 (Cert.Tsc.bcol 6)) := by
  rw [val_main_v90_apply]
  unfold val_main_v89
  rw [scalar_of_one, val_main_v88_apply]
  refine congrArg x2 ?_
  funext a
  match a with
  | ⟨0, _⟩ => exact Fin.ext (by show 6 + 0 = 6 % 10; omega)

/-- The running sum after scale 6. -/
theorem acc_6 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v91 (F := Ideal) x0 x1 x2 (ix2 b p) = Cert.Tsc.refAcc x0 x1 x2 b p (6 + 1) := by
  rw [val_main_v91_apply, val_main_v87_apply, acc_5, contrib_6, bias_6, Ideal.addf_def, Ideal.addf_def]
  rfl

/-! ## Scale 7: windows of width 256, 64 of them, coefficients from column 16256, taps from entry 255 -/

/-- Entry `(b, p)` of scale 7's contribution reads coefficient `p / 256` of the scale. -/
theorem didx_7 (b : Fin 2048) (p : Fin 16384) :
    idx_main_v93 (idx_main_v94 (idx_main_v96 (idx_main_v99 (ix2 b p))))
      = ix2 b (Cert.Tsc.dcol (Cert.Tsc.off 7 + p.val / 2 ^ (7 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 16256 + (b.val * 16384 + p.val) / 256 % 64 = (16256 + p.val / 256) % 16368; omega)

/-- Entry `(b, p)` of scale 7's contribution reads tap `p % 256` of the scale. -/
theorem widx_7 (b : Fin 2048) (p : Fin 16384) :
    idx_main_v92 (idx_main_v95 (idx_main_v97 (idx_main_v99 (ix2 b p))))
      = ix1 (Cert.Tsc.wcol (2 ^ (7 + 1) - 1 + p.val % 2 ^ (7 + 1))) := by
  have hb : b.val < 2048 := b.isLt
  have hp : p.val < 16384 := p.isLt
  funext a
  match a with
  | ⟨0, _⟩ => exact Fin.ext (by show 255 + (b.val * 16384 + p.val) % 256 = (255 + p.val % 256) % 2047; omega)

/-- Scale 7's contribution at `(b, p)`. -/
theorem contrib_7 (x0 : (⟨S2048x16368, .f32⟩ : BufTy).Contents (Elt Ideal)) (x1 : (⟨S2047, .f32⟩ : BufTy).Contents (Elt Ideal))
    (b : Fin 2048) (p : Fin 16384) :
    val_main_v99 (F := Ideal) x0 x1 (ix2 b p) = Cert.Tsc.term x0 x1 7 b p := by
  rw [val_main_v99_apply, val_main_v98_apply, val_main_v96_apply, val_main_v94_apply, val_main_v93_apply, val_main_v97_apply, val_main_v95_apply, val_main_v92_apply,
    didx_7, widx_7, Ideal.mulf_def]
  rfl

/-- Scale 7's bias, broadcast to every entry. -/
theorem bias_7 (x2 : (⟨S10, .f32⟩ : BufTy).Contents (Elt Ideal)) (b : Fin 2048) (p : Fin 16384) :
    val_main_v103 (F := Ideal) x2 (ix2 b p) = x2 (ix1 (Cert.Tsc.bcol 7)) := by
  rw [val_main_v103_apply]
  unfold val_main_v102
  rw [scalar_of_one, val_main_v101_apply]
  refine congrArg x2 ?_
  funext a
  match a with
  | ⟨0, _⟩ => exact Fin.ext (by show 7 + 0 = 7 % 10; omega)

/-- The running sum after scale 7. -/
theorem acc_7 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v104 (F := Ideal) x0 x1 x2 (ix2 b p) = Cert.Tsc.refAcc x0 x1 x2 b p (7 + 1) := by
  rw [val_main_v104_apply, val_main_v100_apply, acc_6, contrib_7, bias_7, Ideal.addf_def, Ideal.addf_def]
  rfl

/-! ## Scale 8: windows of width 512, 32 of them, coefficients from column 16320, taps from entry 511 -/

/-- Entry `(b, p)` of scale 8's contribution reads coefficient `p / 512` of the scale. -/
theorem didx_8 (b : Fin 2048) (p : Fin 16384) :
    idx_main_v106 (idx_main_v107 (idx_main_v109 (idx_main_v112 (ix2 b p))))
      = ix2 b (Cert.Tsc.dcol (Cert.Tsc.off 8 + p.val / 2 ^ (8 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 16320 + (b.val * 16384 + p.val) / 512 % 32 = (16320 + p.val / 512) % 16368; omega)

/-- Entry `(b, p)` of scale 8's contribution reads tap `p % 512` of the scale. -/
theorem widx_8 (b : Fin 2048) (p : Fin 16384) :
    idx_main_v105 (idx_main_v108 (idx_main_v110 (idx_main_v112 (ix2 b p))))
      = ix1 (Cert.Tsc.wcol (2 ^ (8 + 1) - 1 + p.val % 2 ^ (8 + 1))) := by
  have hb : b.val < 2048 := b.isLt
  have hp : p.val < 16384 := p.isLt
  funext a
  match a with
  | ⟨0, _⟩ => exact Fin.ext (by show 511 + (b.val * 16384 + p.val) % 512 = (511 + p.val % 512) % 2047; omega)

/-- Scale 8's contribution at `(b, p)`. -/
theorem contrib_8 (x0 : (⟨S2048x16368, .f32⟩ : BufTy).Contents (Elt Ideal)) (x1 : (⟨S2047, .f32⟩ : BufTy).Contents (Elt Ideal))
    (b : Fin 2048) (p : Fin 16384) :
    val_main_v112 (F := Ideal) x0 x1 (ix2 b p) = Cert.Tsc.term x0 x1 8 b p := by
  rw [val_main_v112_apply, val_main_v111_apply, val_main_v109_apply, val_main_v107_apply, val_main_v106_apply, val_main_v110_apply, val_main_v108_apply, val_main_v105_apply,
    didx_8, widx_8, Ideal.mulf_def]
  rfl

/-- Scale 8's bias, broadcast to every entry. -/
theorem bias_8 (x2 : (⟨S10, .f32⟩ : BufTy).Contents (Elt Ideal)) (b : Fin 2048) (p : Fin 16384) :
    val_main_v116 (F := Ideal) x2 (ix2 b p) = x2 (ix1 (Cert.Tsc.bcol 8)) := by
  rw [val_main_v116_apply]
  unfold val_main_v115
  rw [scalar_of_one, val_main_v114_apply]
  refine congrArg x2 ?_
  funext a
  match a with
  | ⟨0, _⟩ => exact Fin.ext (by show 8 + 0 = 8 % 10; omega)

/-- The running sum after scale 8. -/
theorem acc_8 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v117 (F := Ideal) x0 x1 x2 (ix2 b p) = Cert.Tsc.refAcc x0 x1 x2 b p (8 + 1) := by
  rw [val_main_v117_apply, val_main_v113_apply, acc_7, contrib_8, bias_8, Ideal.addf_def, Ideal.addf_def]
  rfl

/-! ## Scale 9: windows of width 1024, 16 of them, coefficients from column 16352, taps from entry 1023 -/

/-- Entry `(b, p)` of scale 9's contribution reads coefficient `p / 1024` of the scale. -/
theorem didx_9 (b : Fin 2048) (p : Fin 16384) :
    idx_main_v119 (idx_main_v120 (idx_main_v122 (idx_main_v125 (ix2 b p))))
      = ix2 b (Cert.Tsc.dcol (Cert.Tsc.off 9 + p.val / 2 ^ (9 + 1))) := by
  have hb : b.val < 2048 := b.isLt
  have hp : p.val < 16384 := p.isLt
  funext a
  match a with
  | ⟨0, _⟩ => exact Fin.ext (by show (b.val * 16384 + p.val) / 16384 = b.val; omega)
  | ⟨1, _⟩ => exact Fin.ext (by show 16352 + (b.val * 16384 + p.val) / 1024 % 16 = (16352 + p.val / 1024) % 16368; omega)

/-- Entry `(b, p)` of scale 9's contribution reads tap `p % 1024` of the scale. -/
theorem widx_9 (b : Fin 2048) (p : Fin 16384) :
    idx_main_v118 (idx_main_v121 (idx_main_v123 (idx_main_v125 (ix2 b p))))
      = ix1 (Cert.Tsc.wcol (2 ^ (9 + 1) - 1 + p.val % 2 ^ (9 + 1))) := by
  have hb : b.val < 2048 := b.isLt
  have hp : p.val < 16384 := p.isLt
  funext a
  match a with
  | ⟨0, _⟩ => exact Fin.ext (by show 1023 + (b.val * 16384 + p.val) % 1024 = (1023 + p.val % 1024) % 2047; omega)

/-- Scale 9's contribution at `(b, p)`. -/
theorem contrib_9 (x0 : (⟨S2048x16368, .f32⟩ : BufTy).Contents (Elt Ideal)) (x1 : (⟨S2047, .f32⟩ : BufTy).Contents (Elt Ideal))
    (b : Fin 2048) (p : Fin 16384) :
    val_main_v125 (F := Ideal) x0 x1 (ix2 b p) = Cert.Tsc.term x0 x1 9 b p := by
  rw [val_main_v125_apply, val_main_v124_apply, val_main_v122_apply, val_main_v120_apply, val_main_v119_apply, val_main_v123_apply, val_main_v121_apply, val_main_v118_apply,
    didx_9, widx_9, Ideal.mulf_def]
  rfl

/-- Scale 9's bias, broadcast to every entry. -/
theorem bias_9 (x2 : (⟨S10, .f32⟩ : BufTy).Contents (Elt Ideal)) (b : Fin 2048) (p : Fin 16384) :
    val_main_v129 (F := Ideal) x2 (ix2 b p) = x2 (ix1 (Cert.Tsc.bcol 9)) := by
  rw [val_main_v129_apply]
  unfold val_main_v128
  rw [scalar_of_one, val_main_v127_apply]
  refine congrArg x2 ?_
  funext a
  match a with
  | ⟨0, _⟩ => exact Fin.ext (by show 9 + 0 = 9 % 10; omega)

/-- The running sum after scale 9. -/
theorem acc_9 (x0 : (⟨S2048x16368, .f32⟩ : BufTy).Contents (Elt Ideal)) (x1 : (⟨S2047, .f32⟩ : BufTy).Contents (Elt Ideal))
    (x2 : (⟨S10, .f32⟩ : BufTy).Contents (Elt Ideal)) (b : Fin 2048) (p : Fin 16384) :
    val_main_v130 (F := Ideal) x0 x1 x2 (ix2 b p) = Cert.Tsc.refAcc x0 x1 x2 b p (9 + 1) := by
  rw [val_main_v130_apply, val_main_v126_apply, acc_8, contrib_9, bias_9, Ideal.addf_def, Ideal.addf_def]
  rfl

/-! ## The whole program -/

/-- The reference program's result at `(b, p)` is the scale-by-scale sum. -/
theorem ref_at (x0 : (⟨Cert.ReferenceIdeal.S2048x16368, .f32⟩ : BufTy).Contents (Elt Ideal)) (x1 : (⟨Cert.ReferenceIdeal.S2047, .f32⟩ : BufTy).Contents (Elt Ideal)) (x2 : (⟨Cert.ReferenceIdeal.S10, .f32⟩ : BufTy).Contents (Elt Ideal)) (b : Fin 2048) (p : Fin 16384) :
    Cert.ReferenceIdeal.Read.val_main_v130 (F := Ideal) x0 x1 x2 (ix2 b p) = Cert.Tsc.refAcc x0 x1 x2 b p 10 :=
  acc_9 x0 x1 x2 b p

open Idealize.SL.Sem Idealize.ShloMosaic.TcCoe Idealize.ShloMosaic.StableHlo in
/-- Every weakly fair execution of the reference program ends with the result array holding the scale-by-scale
    sum at every entry, the three arguments unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ _).loc Cert.ReferenceIdeal.main_v130) = (fun i => Cert.Tsc.refAcc (m ((c.tc : Thread _ _).loc Cert.ReferenceIdeal.main_arg0)) (m ((c.tc : Thread _ _).loc Cert.ReferenceIdeal.main_arg1)) (m ((c.tc : Thread _ _).loc Cert.ReferenceIdeal.main_arg2)) (i 0) (i 1) 10)
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono (fun r h c => ⟨by
      rw [(h c).1, Cert.ReferenceIdeal.Read.val_main_v130_eq]
      funext i
      obtain ⟨b, p, rfl⟩ : ∃ (b : Fin 2048) (p : Fin 16384), i = ix2 b p := ⟨i 0, i 1, eq_ix2 i⟩
      exact ref_at _ _ _ b p, (h c).2⟩)
    (Cert.ReferenceIdeal.Value.run (F := Ideal) m ρ)

end Cert.ReferenceIdeal.RefValue

end
-- ==== Proof.lean ====
/-
  A multi-scale transposed convolution with stride equal to the window: every dyadic scale `e` (window `w = 2^e`,
  `e = 1 … 10`) spreads each of its `16384 / w` coefficients over its window through the shared filter's `w` taps,
  the scales are summed, and each scale adds its bias.  The reference adds scale after scale, the scale's bias after
  its contribution.  The kernel starts every row from the sum of the ten biases, computed before the launch, and
  adds the ten contributions; for windows below 128 it obtains a contribution as a matrix product with a table,
  built before the launch, that holds the taps on diagonal groups and zero elsewhere, so that every product sums a
  single non-zero term.  On the extended reals both programs therefore compute, at every entry, the same ten
  products and the same ten biases added in two orders, and addition there is commutative and associative with no
  side condition: the precondition is not used.

  The two kernel programs' frames are read off one run of the pipeline (`Frm`): the body stores the whole output
  block eleven times, reading it back between stores, and what it leaves is the last store's value with the
  earlier ones nested in it.  The reference's frame is its run with the result dropped.  No operation of the
  kernel is rewritten by the idealization, so `preserves` is trivial.
-/
import proofs.«119412_j18751827214349_2_alg».proof.Defs
import proofs.«119412_j18751827214349_2_alg».proof.Proof.Gen.Kernel
import proofs.«119412_j18751827214349_2_alg».proof.Proof.Gen.KernelIdeal
import proofs.«119412_j18751827214349_2_alg».proof.Proof.Gen.ReferenceIdeal
import proofs.«119412_j18751827214349_2_alg».proof.Proof.Gen.ReferenceIdeal.Run
import proofs.«119412_j18751827214349_2_alg».proof.Proof.Gen.ReferenceIdeal.Read
import proofs.«119412_j18751827214349_2_alg».proof.Proof.Gen.Pre_finite_inputs
import proofs.«119412_j18751827214349_2_alg».proof.Proof.KFrame
import proofs.«119412_j18751827214349_2_alg».proof.Proof.KIFrame
import proofs.«119412_j18751827214349_2_alg».proof.Proof.KernelValue
import proofs.«119412_j18751827214349_2_alg».proof.Proof.RefValue
import proofs.«119412_j18751827214349_2_alg».proof.Proof.Spec

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

/-- The reference's run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's sum of the launch arrays: biases first for the kernel, bias by bias
    for the reference, one extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.G m c, Cert.KernelIdeal.KVal.run m ρ, ?_⟩
  refine (θ_run Cert.ReferenceIdeal.defs _ _).mono (fun r h c => ⟨(h c).1.trans ?_, (h c).2⟩)
    (Cert.ReferenceIdeal.RefValue.run_spec m' ρ')
  rw [(hagree c).1, (hagree c).2.1, (hagree c).2.2]
  funext i
  exact (Cert.Tsc.kerAcc_eq_refAcc _ _ _ (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
